-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S384x64 : Shape := ⟨2, ![384, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1600000 32) (main_arg2 : FVec F S384x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S384x64 .f32 := Host.absf main_arg2
  let main_cst_0 : FVec F S_ .f32 := constant S_ .f32 0x7F800000#32
  let main_v5 : FVec F S384x64 .f32 := broadcastInDim S384x64 ![] bcast_S_S384x64 main_cst_0
  let main_v6 : IVec S384x64 1 := cmpf .olt main_v4 main_v5
  let main_c_1 : IVec S_ 1 := constantI S_ 1 1#1
  let main_v7 : IVec S_ 1 := (fun x v => Host.reduce IntOp.andi x v reducesTo_S384x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S384x64 : Shape := ⟨2, ![384, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S64x64 : Shape := ⟨2, ![64, 64]⟩
abbrev S1x64 : Shape := ⟨2, ![1, 64]⟩
abbrev S5000x64 : Shape := ⟨2, ![5000, 64]⟩

abbrev nBuf : Space → Nat
  | .hbm => 171
  | .vmem => 15
  | .smem => 0
  | _ => 0

abbrev hbmTy0_0 (i : Nat) : BufTy := match i % 128 with
  | 0 => ⟨S100000x64, .f32⟩
  | 1 => ⟨S2x1600000, .i32⟩
  | 2 => ⟨S384x64, .f32⟩
  | 3 => ⟨S64, .f32⟩
  | 4 => ⟨S100000, .i32⟩
  | 5 => ⟨S1x1600000, .i32⟩
  | 6 => ⟨S1600000, .i32⟩
  | 7 => ⟨S1700000, .i32⟩
  | 8 => ⟨S1x1600000, .i32⟩
  | 9 => ⟨S1600000, .i32⟩
  | 10 => ⟨S1700000, .i32⟩
  | 11 => ⟨S_, .f32⟩
  | 12 => ⟨S1700000, .f32⟩
  | 13 => ⟨S_, .f32⟩
  | 14 => ⟨S100000, .f32⟩
  | 15 => ⟨S1700000x1, .i32⟩
  | 16 => ⟨S100000, .f32⟩
  | 17 => ⟨S_, .f32⟩
  | 18 => ⟨S100000, .f32⟩
  | 19 => ⟨S100000, .i1⟩
  | 20 => ⟨S_, .f32⟩
  | 21 => ⟨S100000, .f32⟩
  | 22 => ⟨S100000, .i1⟩
  | 23 => ⟨S_, .f32⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1700000x1, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x64, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000x64, .f32⟩
  | 77 => ⟨S1700000x64, .f32⟩
  | 78 => ⟨S1700000x64, .f32⟩
  | 79 => ⟨S_, .f32⟩
  | 80 => ⟨S100000x64, .f32⟩
  | 81 => ⟨S1700000x1, .i32⟩
  | 82 => ⟨S100000x64, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000x64, .f32⟩
  | 92 => ⟨S1700000x64, .f32⟩
  | 93 => ⟨S1700000x64, .f32⟩
  | 94 => ⟨S_, .f32⟩
  | 95 => ⟨S100000x64, .f32⟩
  | 96 => ⟨S1700000x1, .i32⟩
  | 97 => ⟨S100000x64, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x64, .f32⟩
  | 107 => ⟨S1700000x64, .f32⟩
  | 108 => ⟨S1700000x64, .f32⟩
  | 109 => ⟨S_, .f32⟩
  | 110 => ⟨S100000x64, .f32⟩
  | 111 => ⟨S1700000x1, .i32⟩
  | 112 => ⟨S100000x64, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x64, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x64, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x64, .f32⟩
  | 9 => ⟨S1700000x64, .f32⟩
  | 10 => ⟨S1700000x64, .f32⟩
  | 11 => ⟨S_, .f32⟩
  | 12 => ⟨S100000x64, .f32⟩
  | 13 => ⟨S1700000x1, .i32⟩
  | 14 => ⟨S100000x64, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1700000x64, .f32⟩
  | 24 => ⟨S1700000x64, .f32⟩
  | 25 => ⟨S1700000x64, .f32⟩
  | 26 => ⟨S_, .f32⟩
  | 27 => ⟨S100000x64, .f32⟩
  | 28 => ⟨S1700000x1, .i32⟩
  | 29 => ⟨S100000x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S1x64, .f32⟩
  | 42 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_14 : Ref sig .tc := ⟨.hbm, 83, rfl⟩
abbrev main_v59 : Ref sig .tc := ⟨.hbm, 84, rfl⟩
abbrev main_v60 : Ref sig .tc := ⟨.hbm, 85, rfl⟩
abbrev main_c_15 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_17 : Ref sig .tc := ⟨.hbm, 98, rfl⟩
abbrev main_v71 : Ref sig .tc := ⟨.hbm, 99, rfl⟩
abbrev main_v72 : Ref sig .tc := ⟨.hbm, 100, rfl⟩
abbrev main_c_18 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_19 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_20 : Ref sig .tc := ⟨.hbm, 113, rfl⟩
abbrev main_v83 : Ref sig .tc := ⟨.hbm, 114, rfl⟩
abbrev main_v84 : Ref sig .tc := ⟨.hbm, 115, rfl⟩
abbrev main_c_21 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_22 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_23 : Ref sig .tc := ⟨.hbm, 128, rfl⟩
abbrev main_v95 : Ref sig .tc := ⟨.hbm, 129, rfl⟩
abbrev main_v96 : Ref sig .tc := ⟨.hbm, 130, rfl⟩
abbrev main_c_24 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_25 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_c_26 : Ref sig .tc := ⟨.hbm, 143, rfl⟩
abbrev main_v107 : Ref sig .tc := ⟨.hbm, 144, rfl⟩
abbrev main_v108 : Ref sig .tc := ⟨.hbm, 145, rfl⟩
abbrev main_c_27 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_28 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S384x64_S64x64_0_0 : S384x64.Slices ![0, 0] S64x64
  slices_S384x64_S64x64_64_0 : S384x64.Slices ![64, 0] S64x64
  slices_S384x64_S64x64_128_0 : S384x64.Slices ![128, 0] S64x64
  slices_S384x64_S64x64_192_0 : S384x64.Slices ![192, 0] S64x64
  slices_S384x64_S64x64_256_0 : S384x64.Slices ![256, 0] S64x64
  slices_S384x64_S64x64_320_0 : S384x64.Slices ![320, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S100000x64.size a
  hwx0_9 : ∀ i : grid0.Coords, EltTy.bits .f32 = 32 ∨ (Rect.block (s := S100000x64) S5000x64.size (cc0_transform_9 i) (hinb0_9 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v70) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v118) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v122) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v126) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v128) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v129) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v130) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v131) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S384x64 : Shape := ⟨2, ![384, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S100000x384 : Shape := ⟨2, ![100000, 384]⟩
abbrev S1x64 : Shape := ⟨2, ![1, 64]⟩

abbrev nBuf : Space → Nat
  | .hbm => 169
  | .vmem => 0
  | .smem => 0
  | _ => 0

abbrev hbmTy0_0 (i : Nat) : BufTy := match i % 128 with
  | 0 => ⟨S100000x64, .f32⟩
  | 1 => ⟨S2x1600000, .i32⟩
  | 2 => ⟨S384x64, .f32⟩
  | 3 => ⟨S64, .f32⟩
  | 4 => ⟨S100000, .i32⟩
  | 5 => ⟨S1x1600000, .i32⟩
  | 6 => ⟨S1600000, .i32⟩
  | 7 => ⟨S1700000, .i32⟩
  | 8 => ⟨S1x1600000, .i32⟩
  | 9 => ⟨S1600000, .i32⟩
  | 10 => ⟨S1700000, .i32⟩
  | 11 => ⟨S_, .f32⟩
  | 12 => ⟨S1700000, .f32⟩
  | 13 => ⟨S_, .f32⟩
  | 14 => ⟨S100000, .f32⟩
  | 15 => ⟨S1700000x1, .i32⟩
  | 16 => ⟨S100000, .f32⟩
  | 17 => ⟨S_, .f32⟩
  | 18 => ⟨S100000, .f32⟩
  | 19 => ⟨S100000, .i1⟩
  | 20 => ⟨S_, .f32⟩
  | 21 => ⟨S100000, .f32⟩
  | 22 => ⟨S100000, .i1⟩
  | 23 => ⟨S_, .f32⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1700000x1, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x64, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000x64, .f32⟩
  | 77 => ⟨S1700000x64, .f32⟩
  | 78 => ⟨S1700000x64, .f32⟩
  | 79 => ⟨S_, .f32⟩
  | 80 => ⟨S100000x64, .f32⟩
  | 81 => ⟨S1700000x1, .i32⟩
  | 82 => ⟨S100000x64, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000x64, .f32⟩
  | 92 => ⟨S1700000x64, .f32⟩
  | 93 => ⟨S1700000x64, .f32⟩
  | 94 => ⟨S_, .f32⟩
  | 95 => ⟨S100000x64, .f32⟩
  | 96 => ⟨S1700000x1, .i32⟩
  | 97 => ⟨S100000x64, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x64, .f32⟩
  | 107 => ⟨S1700000x64, .f32⟩
  | 108 => ⟨S1700000x64, .f32⟩
  | 109 => ⟨S_, .f32⟩
  | 110 => ⟨S100000x64, .f32⟩
  | 111 => ⟨S1700000x1, .i32⟩
  | 112 => ⟨S100000x64, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x64, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x64, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x64, .f32⟩
  | 9 => ⟨S1700000x64, .f32⟩
  | 10 => ⟨S1700000x64, .f32⟩
  | 11 => ⟨S_, .f32⟩
  | 12 => ⟨S100000x64, .f32⟩
  | 13 => ⟨S1700000x1, .i32⟩
  | 14 => ⟨S100000x64, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1700000x64, .f32⟩
  | 24 => ⟨S1700000x64, .f32⟩
  | 25 => ⟨S1700000x64, .f32⟩
  | 26 => ⟨S_, .f32⟩
  | 27 => ⟨S100000x64, .f32⟩
  | 28 => ⟨S1700000x1, .i32⟩
  | 29 => ⟨S100000x64, .f32⟩
  | 30 => ⟨S100000x64, .f32⟩
  | 31 => ⟨S100000x64, .f32⟩
  | 32 => ⟨S100000x64, .f32⟩
  | 33 => ⟨S100000x384, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S100000x64, .f32⟩
  | 40 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_14 : Ref sig .tc := ⟨.hbm, 83, rfl⟩
abbrev main_v59 : Ref sig .tc := ⟨.hbm, 84, rfl⟩
abbrev main_v60 : Ref sig .tc := ⟨.hbm, 85, rfl⟩
abbrev main_c_15 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_17 : Ref sig .tc := ⟨.hbm, 98, rfl⟩
abbrev main_v71 : Ref sig .tc := ⟨.hbm, 99, rfl⟩
abbrev main_v72 : Ref sig .tc := ⟨.hbm, 100, rfl⟩
abbrev main_c_18 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_19 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_20 : Ref sig .tc := ⟨.hbm, 113, rfl⟩
abbrev main_v83 : Ref sig .tc := ⟨.hbm, 114, rfl⟩
abbrev main_v84 : Ref sig .tc := ⟨.hbm, 115, rfl⟩
abbrev main_c_21 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_22 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_23 : Ref sig .tc := ⟨.hbm, 128, rfl⟩
abbrev main_v95 : Ref sig .tc := ⟨.hbm, 129, rfl⟩
abbrev main_v96 : Ref sig .tc := ⟨.hbm, 130, rfl⟩
abbrev main_c_24 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_25 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_c_26 : Ref sig .tc := ⟨.hbm, 143, rfl⟩
abbrev main_v107 : Ref sig .tc := ⟨.hbm, 144, rfl⟩
abbrev main_v108 : Ref sig .tc := ⟨.hbm, 145, rfl⟩
abbrev main_c_27 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_28 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_call2_cst : Ref sig .tc := ⟨.hbm, 166, rfl⟩
abbrev main_call2_v0 : Ref sig .tc := ⟨.hbm, 167, rfl⟩
abbrev main_v127 : Ref sig .tc := ⟨.hbm, 168, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  concatenates_S100000x64_S100000x64_S100000x64_S100000x64_S100000x64_S100000x64_S100000x384_d1 : Shape.Concatenates [S100000x64, S100000x64, S100000x64, S100000x64, S100000x64, S100000x64] S100000x384 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x384_S384x64_S100000x64_1_0_0_1_n_n_wf : DotDims.WF S100000x384 S384x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x384_S384x64_S100000x64_1_0_0_1_n_n : DotDims S100000x384 S384x64 S100000x64 where
  lhsContracting := [1]
  rhsContracting := [0]
  lhsNonContracting := [0]
  rhsNonContracting := [1]
  lhsBatch := []
  rhsBatch := []
  wf := dot_S100000x384_S384x64_S100000x64_1_0_0_1_n_n_wf

class Facts : Prop extends Facts₀ where

variable [Facts]
-- ==== Proof.RefRun.lean ====
/-
  The reference's run, read window by window.

  The reference is one straight line of 165 host operations. Its result after the run is the fold of the operations'
  results over the launch contents; read all at once that fold is one term of hundreds of kilobytes, so it is read in
  eleven short windows instead: the index vectors and the degrees; the guarded reciprocal square root; the edge
  weights; the seven propagation steps, one window each; and the last window, which joins the hop arrays, multiplies by
  the weight matrix, adds the bias and floors at 0. A window's lemma says: if the buffers it reads hold their stages,
  the buffer it writes holds the next stage; a buffer a window does not write keeps its contents. Chained, the result
  buffer holds the last stage of the four arguments, and the arguments are never written.
-/
import proofs.«120427_j8718783611088_1_alg».proof.Proof.Gen.ReferenceIdeal
import proofs.«120427_j8718783611088_1_alg».proof.Proof.ReadPatched
import Idealize.ShloMosaic.Lib.StableHlo.Run
import Idealize.ShloMosaic.Lib.Pipeline.Frame

set_option maxRecDepth 65536

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 165 operations, in order (a called function's operations stand in its call's place, spelt `TRef.…`). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x00000000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v14) (TRef.of (T := ⟨S100000, .f32⟩) main_v10) (TRef.of (T := ⟨S100000, .f32⟩) main_call0_v1) (TRef.of (T := ⟨S100000, .f32⟩) main_v15) select,
    unary main_v15 main_v16 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v12) (TRef.of (T := ⟨S100000, .f32⟩) main_v16) (TRef.of (T := ⟨S100000, .f32⟩) main_call1_v1) (TRef.of (T := ⟨S100000, .f32⟩) main_v17) select,
    nullary main_c (constantI S_ 32 0#32),
    unary main_c main_v18 (broadcastInDim S1700000 ![] bcast_S_S1700000 : (⟨S_, .i32⟩ : BufTy).Contents (Elt F) → (⟨S1700000, .i32⟩ : BufTy).Contents (Elt F)),
    binary main_v3 main_v18 main_v19 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v20 (broadcastInDim S1700000 ![] bcast_S_S1700000 : (⟨S_, .i32⟩ : BufTy).Contents (Elt F) → (⟨S1700000, .i32⟩ : BufTy).Contents (Elt F)),
    binary main_v3 main_v20 main_v21 (addi : (⟨S1700000, .i32⟩ : BufTy).Contents (Elt F) → (⟨S1700000, .i32⟩ : BufTy).Contents (Elt F) → (⟨S1700000, .i32⟩ : BufTy).Contents (Elt F)),
    ternary main_v19 main_v21 main_v3 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v22 main_v23 (broadcastInDim S1700000x1 ![0] bcast_S1700000_S1700000x1_0 : (⟨S1700000, .i32⟩ : BufTy).Contents (Elt F) → (⟨S1700000x1, .i32⟩ : BufTy).Contents (Elt F)),
    binary main_v17 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v24 main_v7 main_v25 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v28 (broadcastInDim S1700000 ![] bcast_S_S1700000 : (⟨S_, .i32⟩ : BufTy).Contents (Elt F) → (⟨S1700000, .i32⟩ : BufTy).Contents (Elt F)),
    binary main_v6 main_v28 main_v29 (addi : (⟨S1700000, .i32⟩ : BufTy).Contents (Elt F) → (⟨S1700000, .i32⟩ : BufTy).Contents (Elt F) → (⟨S1700000, .i32⟩ : BufTy).Contents (Elt F)),
    ternary main_v27 main_v29 main_v6 main_v30 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v30 main_v31 (broadcastInDim S1700000x1 ![0] bcast_S1700000_S1700000x1_0 : (⟨S1700000, .i32⟩ : BufTy).Contents (Elt F) → (⟨S1700000x1, .i32⟩ : BufTy).Contents (Elt F)),
    binary main_v17 main_v31 main_v32 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v25 main_v32 main_v33 (mulf : (⟨S1700000, .f32⟩ : BufTy).Contents (Elt F) → (⟨S1700000, .f32⟩ : BufTy).Contents (Elt F) → (⟨S1700000, .f32⟩ : BufTy).Contents (Elt F)),
    unary main_v33 main_v34 (broadcastInDim S1700000x1 ![0] bcast_S1700000_S1700000x1_0 : (⟨S1700000, .f32⟩ : BufTy).Contents (Elt F) → (⟨S1700000x1, .f32⟩ : BufTy).Contents (Elt F)),
    nullary main_c_8 (constantI S_ 32 0#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v37 (broadcastInDim S1700000 ![] bcast_S_S1700000 : (⟨S_, .i32⟩ : BufTy).Contents (Elt F) → (⟨S1700000, .i32⟩ : BufTy).Contents (Elt F)),
    binary main_v3 main_v37 main_v38 (addi : (⟨S1700000, .i32⟩ : BufTy).Contents (Elt F) → (⟨S1700000, .i32⟩ : BufTy).Contents (Elt F) → (⟨S1700000, .i32⟩ : BufTy).Contents (Elt F)),
    ternary main_v36 main_v38 main_v3 main_v39 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v39 main_v40 (broadcastInDim S1700000x1 ![0] bcast_S1700000_S1700000x1_0 : (⟨S1700000, .i32⟩ : BufTy).Contents (Elt F) → (⟨S1700000x1, .i32⟩ : BufTy).Contents (Elt F)),
    binary main_arg0 main_v40 main_v41 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v42 (broadcastInDim S1700000x64 ![0, 1] bcast_S1700000x1_S1700000x64_0_1 : (⟨S1700000x1, .f32⟩ : BufTy).Contents (Elt F) → (⟨S1700000x64, .f32⟩ : BufTy).Contents (Elt F)),
    binary main_v42 main_v41 main_v43 (mulf : (⟨S1700000x64, .f32⟩ : BufTy).Contents (Elt F) → (⟨S1700000x64, .f32⟩ : BufTy).Contents (Elt F) → (⟨S1700000x64, .f32⟩ : BufTy).Contents (Elt F)),
    nullary main_cst_10 (constant S_ .f32 0x00000000#32),
    unary main_cst_10 main_v44 (broadcastInDim S100000x64 ![] bcast_S_S100000x64 : (⟨S_, .f32⟩ : BufTy).Contents (Elt F) → (⟨S100000x64, .f32⟩ : BufTy).Contents (Elt F)),
    unary main_v6 main_v45 (broadcastInDim S1700000x1 ![0] bcast_S1700000_S1700000x1_0 : (⟨S1700000, .i32⟩ : BufTy).Contents (Elt F) → (⟨S1700000x1, .i32⟩ : BufTy).Contents (Elt F)),
    ternary main_v44 main_v45 main_v43 main_v46 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_c_11 (constantI S_ 32 0#32),
    unary main_c_11 main_v47 (broadcastInDim S1700000 ![] bcast_S_S1700000 : (⟨S_, .i32⟩ : BufTy).Contents (Elt F) → (⟨S1700000, .i32⟩ : BufTy).Contents (Elt F)),
    binary main_v3 main_v47 main_v48 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v49 (broadcastInDim S1700000 ![] bcast_S_S1700000 : (⟨S_, .i32⟩ : BufTy).Contents (Elt F) → (⟨S1700000, .i32⟩ : BufTy).Contents (Elt F)),
    binary main_v3 main_v49 main_v50 (addi : (⟨S1700000, .i32⟩ : BufTy).Contents (Elt F) → (⟨S1700000, .i32⟩ : BufTy).Contents (Elt F) → (⟨S1700000, .i32⟩ : BufTy).Contents (Elt F)),
    ternary main_v48 main_v50 main_v3 main_v51 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v51 main_v52 (broadcastInDim S1700000x1 ![0] bcast_S1700000_S1700000x1_0 : (⟨S1700000, .i32⟩ : BufTy).Contents (Elt F) → (⟨S1700000x1, .i32⟩ : BufTy).Contents (Elt F)),
    binary main_v46 main_v52 main_v53 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v54 (broadcastInDim S1700000x64 ![0, 1] bcast_S1700000x1_S1700000x64_0_1 : (⟨S1700000x1, .f32⟩ : BufTy).Contents (Elt F) → (⟨S1700000x64, .f32⟩ : BufTy).Contents (Elt F)),
    binary main_v54 main_v53 main_v55 (mulf : (⟨S1700000x64, .f32⟩ : BufTy).Contents (Elt F) → (⟨S1700000x64, .f32⟩ : BufTy).Contents (Elt F) → (⟨S1700000x64, .f32⟩ : BufTy).Contents (Elt F)),
    nullary main_cst_13 (constant S_ .f32 0x00000000#32),
    unary main_cst_13 main_v56 (broadcastInDim S100000x64 ![] bcast_S_S100000x64 : (⟨S_, .f32⟩ : BufTy).Contents (Elt F) → (⟨S100000x64, .f32⟩ : BufTy).Contents (Elt F)),
    unary main_v6 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_c_14 (constantI S_ 32 0#32),
    unary main_c_14 main_v59 (broadcastInDim S1700000 ![] bcast_S_S1700000 : (⟨S_, .i32⟩ : BufTy).Contents (Elt F) → (⟨S1700000, .i32⟩ : BufTy).Contents (Elt F)),
    binary main_v3 main_v59 main_v60 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v61 (broadcastInDim S1700000 ![] bcast_S_S1700000 : (⟨S_, .i32⟩ : BufTy).Contents (Elt F) → (⟨S1700000, .i32⟩ : BufTy).Contents (Elt F)),
    binary main_v3 main_v61 main_v62 (addi : (⟨S1700000, .i32⟩ : BufTy).Contents (Elt F) → (⟨S1700000, .i32⟩ : BufTy).Contents (Elt F) → (⟨S1700000, .i32⟩ : BufTy).Contents (Elt F)),
    ternary main_v60 main_v62 main_v3 main_v63 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v63 main_v64 (broadcastInDim S1700000x1 ![0] bcast_S1700000_S1700000x1_0 : (⟨S1700000, .i32⟩ : BufTy).Contents (Elt F) → (⟨S1700000x1, .i32⟩ : BufTy).Contents (Elt F)),
    binary main_v58 main_v64 main_v65 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v66 (broadcastInDim S1700000x64 ![0, 1] bcast_S1700000x1_S1700000x64_0_1 : (⟨S1700000x1, .f32⟩ : BufTy).Contents (Elt F) → (⟨S1700000x64, .f32⟩ : BufTy).Contents (Elt F)),
    binary main_v66 main_v65 main_v67 (mulf : (⟨S1700000x64, .f32⟩ : BufTy).Contents (Elt F) → (⟨S1700000x64, .f32⟩ : BufTy).Contents (Elt F) → (⟨S1700000x64, .f32⟩ : BufTy).Contents (Elt F)),
    nullary main_cst_16 (constant S_ .f32 0x00000000#32),
    unary main_cst_16 main_v68 (broadcastInDim S100000x64 ![] bcast_S_S100000x64 : (⟨S_, .f32⟩ : BufTy).Contents (Elt F) → (⟨S100000x64, .f32⟩ : BufTy).Contents (Elt F)),
    unary main_v6 main_v69 (broadcastInDim S1700000x1 ![0] bcast_S1700000_S1700000x1_0 : (⟨S1700000, .i32⟩ : BufTy).Contents (Elt F) → (⟨S1700000x1, .i32⟩ : BufTy).Contents (Elt F)),
    ternary main_v68 main_v69 main_v67 main_v70 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_c_17 (constantI S_ 32 0#32),
    unary main_c_17 main_v71 (broadcastInDim S1700000 ![] bcast_S_S1700000 : (⟨S_, .i32⟩ : BufTy).Contents (Elt F) → (⟨S1700000, .i32⟩ : BufTy).Contents (Elt F)),
    binary main_v3 main_v71 main_v72 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v73 (broadcastInDim S1700000 ![] bcast_S_S1700000 : (⟨S_, .i32⟩ : BufTy).Contents (Elt F) → (⟨S1700000, .i32⟩ : BufTy).Contents (Elt F)),
    binary main_v3 main_v73 main_v74 (addi : (⟨S1700000, .i32⟩ : BufTy).Contents (Elt F) → (⟨S1700000, .i32⟩ : BufTy).Contents (Elt F) → (⟨S1700000, .i32⟩ : BufTy).Contents (Elt F)),
    ternary main_v72 main_v74 main_v3 main_v75 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v75 main_v76 (broadcastInDim S1700000x1 ![0] bcast_S1700000_S1700000x1_0 : (⟨S1700000, .i32⟩ : BufTy).Contents (Elt F) → (⟨S1700000x1, .i32⟩ : BufTy).Contents (Elt F)),
    binary main_v70 main_v76 main_v77 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v78 (broadcastInDim S1700000x64 ![0, 1] bcast_S1700000x1_S1700000x64_0_1 : (⟨S1700000x1, .f32⟩ : BufTy).Contents (Elt F) → (⟨S1700000x64, .f32⟩ : BufTy).Contents (Elt F)),
    binary main_v78 main_v77 main_v79 (mulf : (⟨S1700000x64, .f32⟩ : BufTy).Contents (Elt F) → (⟨S1700000x64, .f32⟩ : BufTy).Contents (Elt F) → (⟨S1700000x64, .f32⟩ : BufTy).Contents (Elt F)),
    nullary main_cst_19 (constant S_ .f32 0x00000000#32),
    unary main_cst_19 main_v80 (broadcastInDim S100000x64 ![] bcast_S_S100000x64 : (⟨S_, .f32⟩ : BufTy).Contents (Elt F) → (⟨S100000x64, .f32⟩ : BufTy).Contents (Elt F)),
    unary main_v6 main_v81 (broadcastInDim S1700000x1 ![0] bcast_S1700000_S1700000x1_0 : (⟨S1700000, .i32⟩ : BufTy).Contents (Elt F) → (⟨S1700000x1, .i32⟩ : BufTy).Contents (Elt F)),
    ternary main_v80 main_v81 main_v79 main_v82 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_c_20 (constantI S_ 32 0#32),
    unary main_c_20 main_v83 (broadcastInDim S1700000 ![] bcast_S_S1700000 : (⟨S_, .i32⟩ : BufTy).Contents (Elt F) → (⟨S1700000, .i32⟩ : BufTy).Contents (Elt F)),
    binary main_v3 main_v83 main_v84 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v85 (broadcastInDim S1700000 ![] bcast_S_S1700000 : (⟨S_, .i32⟩ : BufTy).Contents (Elt F) → (⟨S1700000, .i32⟩ : BufTy).Contents (Elt F)),
    binary main_v3 main_v85 main_v86 (addi : (⟨S1700000, .i32⟩ : BufTy).Contents (Elt F) → (⟨S1700000, .i32⟩ : BufTy).Contents (Elt F) → (⟨S1700000, .i32⟩ : BufTy).Contents (Elt F)),
    ternary main_v84 main_v86 main_v3 main_v87 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v87 main_v88 (broadcastInDim S1700000x1 ![0] bcast_S1700000_S1700000x1_0 : (⟨S1700000, .i32⟩ : BufTy).Contents (Elt F) → (⟨S1700000x1, .i32⟩ : BufTy).Contents (Elt F)),
    binary main_v82 main_v88 main_v89 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v90 (broadcastInDim S1700000x64 ![0, 1] bcast_S1700000x1_S1700000x64_0_1 : (⟨S1700000x1, .f32⟩ : BufTy).Contents (Elt F) → (⟨S1700000x64, .f32⟩ : BufTy).Contents (Elt F)),
    binary main_v90 main_v89 main_v91 (mulf : (⟨S1700000x64, .f32⟩ : BufTy).Contents (Elt F) → (⟨S1700000x64, .f32⟩ : BufTy).Contents (Elt F) → (⟨S1700000x64, .f32⟩ : BufTy).Contents (Elt F)),
    nullary main_cst_22 (constant S_ .f32 0x00000000#32),
    unary main_cst_22 main_v92 (broadcastInDim S100000x64 ![] bcast_S_S100000x64 : (⟨S_, .f32⟩ : BufTy).Contents (Elt F) → (⟨S100000x64, .f32⟩ : BufTy).Contents (Elt F)),
    unary main_v6 main_v93 (broadcastInDim S1700000x1 ![0] bcast_S1700000_S1700000x1_0 : (⟨S1700000, .i32⟩ : BufTy).Contents (Elt F) → (⟨S1700000x1, .i32⟩ : BufTy).Contents (Elt F)),
    ternary main_v92 main_v93 main_v91 main_v94 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_c_23 (constantI S_ 32 0#32),
    unary main_c_23 main_v95 (broadcastInDim S1700000 ![] bcast_S_S1700000 : (⟨S_, .i32⟩ : BufTy).Contents (Elt F) → (⟨S1700000, .i32⟩ : BufTy).Contents (Elt F)),
    binary main_v3 main_v95 main_v96 (cmpi .slt : (⟨S1700000, .i32⟩ : BufTy).Contents (Elt F) → (⟨S1700000, .i32⟩ : BufTy).Contents (Elt F) → (⟨S1700000, .i1⟩ : BufTy).Contents (Elt F)),
    nullary main_c_24 (constantI S_ 32 100000#32),
    unary main_c_24 main_v97 (broadcastInDim S1700000 ![] bcast_S_S1700000 : (⟨S_, .i32⟩ : BufTy).Contents (Elt F) → (⟨S1700000, .i32⟩ : BufTy).Contents (Elt F)),
    binary main_v3 main_v97 main_v98 (addi : (⟨S1700000, .i32⟩ : BufTy).Contents (Elt F) → (⟨S1700000, .i32⟩ : BufTy).Contents (Elt F) → (⟨S1700000, .i32⟩ : BufTy).Contents (Elt F)),
    ternary main_v96 main_v98 main_v3 main_v99 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v99 main_v100 (broadcastInDim S1700000x1 ![0] bcast_S1700000_S1700000x1_0 : (⟨S1700000, .i32⟩ : BufTy).Contents (Elt F) → (⟨S1700000x1, .i32⟩ : BufTy).Contents (Elt F)),
    binary main_v94 main_v100 main_v101 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v102 (broadcastInDim S1700000x64 ![0, 1] bcast_S1700000x1_S1700000x64_0_1 : (⟨S1700000x1, .f32⟩ : BufTy).Contents (Elt F) → (⟨S1700000x64, .f32⟩ : BufTy).Contents (Elt F)),
    binary main_v102 main_v101 main_v103 (mulf : (⟨S1700000x64, .f32⟩ : BufTy).Contents (Elt F) → (⟨S1700000x64, .f32⟩ : BufTy).Contents (Elt F) → (⟨S1700000x64, .f32⟩ : BufTy).Contents (Elt F)),
    nullary main_cst_25 (constant S_ .f32 0x00000000#32),
    unary main_cst_25 main_v104 (broadcastInDim S100000x64 ![] bcast_S_S100000x64 : (⟨S_, .f32⟩ : BufTy).Contents (Elt F) → (⟨S100000x64, .f32⟩ : BufTy).Contents (Elt F)),
    unary main_v6 main_v105 (broadcastInDim S1700000x1 ![0] bcast_S1700000_S1700000x1_0 : (⟨S1700000, .i32⟩ : BufTy).Contents (Elt F) → (⟨S1700000x1, .i32⟩ : BufTy).Contents (Elt F)),
    ternary main_v104 main_v105 main_v103 main_v106 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_c_26 (constantI S_ 32 0#32),
    unary main_c_26 main_v107 (broadcastInDim S1700000 ![] bcast_S_S1700000 : (⟨S_, .i32⟩ : BufTy).Contents (Elt F) → (⟨S1700000, .i32⟩ : BufTy).Contents (Elt F)),
    binary main_v3 main_v107 main_v108 (cmpi .slt : (⟨S1700000, .i32⟩ : BufTy).Contents (Elt F) → (⟨S1700000, .i32⟩ : BufTy).Contents (Elt F) → (⟨S1700000, .i1⟩ : BufTy).Contents (Elt F)),
    nullary main_c_27 (constantI S_ 32 100000#32),
    unary main_c_27 main_v109 (broadcastInDim S1700000 ![] bcast_S_S1700000 : (⟨S_, .i32⟩ : BufTy).Contents (Elt F) → (⟨S1700000, .i32⟩ : BufTy).Contents (Elt F)),
    binary main_v3 main_v109 main_v110 (addi : (⟨S1700000, .i32⟩ : BufTy).Contents (Elt F) → (⟨S1700000, .i32⟩ : BufTy).Contents (Elt F) → (⟨S1700000, .i32⟩ : BufTy).Contents (Elt F)),
    ternary main_v108 main_v110 main_v3 main_v111 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v111 main_v112 (broadcastInDim S1700000x1 ![0] bcast_S1700000_S1700000x1_0 : (⟨S1700000, .i32⟩ : BufTy).Contents (Elt F) → (⟨S1700000x1, .i32⟩ : BufTy).Contents (Elt F)),
    binary main_v106 main_v112 main_v113 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v114 (broadcastInDim S1700000x64 ![0, 1] bcast_S1700000x1_S1700000x64_0_1 : (⟨S1700000x1, .f32⟩ : BufTy).Contents (Elt F) → (⟨S1700000x64, .f32⟩ : BufTy).Contents (Elt F)),
    binary main_v114 main_v113 main_v115 (mulf : (⟨S1700000x64, .f32⟩ : BufTy).Contents (Elt F) → (⟨S1700000x64, .f32⟩ : BufTy).Contents (Elt F) → (⟨S1700000x64, .f32⟩ : BufTy).Contents (Elt F)),
    nullary main_cst_28 (constant S_ .f32 0x00000000#32),
    unary main_cst_28 main_v116 (broadcastInDim S100000x64 ![] bcast_S_S100000x64 : (⟨S_, .f32⟩ : BufTy).Contents (Elt F) → (⟨S100000x64, .f32⟩ : BufTy).Contents (Elt F)),
    unary main_v6 main_v117 (broadcastInDim S1700000x1 ![0] bcast_S1700000_S1700000x1_0 : (⟨S1700000, .i32⟩ : BufTy).Contents (Elt F) → (⟨S1700000x1, .i32⟩ : BufTy).Contents (Elt F)),
    ternary main_v116 main_v117 main_v115 main_v118 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    binary main_arg0 main_v46 main_v119 (subf : (⟨S100000x64, .f32⟩ : BufTy).Contents (Elt F) → (⟨S100000x64, .f32⟩ : BufTy).Contents (Elt F) → (⟨S100000x64, .f32⟩ : BufTy).Contents (Elt F)),
    binary main_v46 main_v70 main_v120 (subf : (⟨S100000x64, .f32⟩ : BufTy).Contents (Elt F) → (⟨S100000x64, .f32⟩ : BufTy).Contents (Elt F) → (⟨S100000x64, .f32⟩ : BufTy).Contents (Elt F)),
    binary main_v70 main_v118 main_v121 (subf : (⟨S100000x64, .f32⟩ : BufTy).Contents (Elt F) → (⟨S100000x64, .f32⟩ : BufTy).Contents (Elt F) → (⟨S100000x64, .f32⟩ : BufTy).Contents (Elt F)),
    nary ![main_v46, main_v70, main_v118, main_v119, main_v120, main_v121] main_v122 (fun u => concatenate S100000x384 1 [⟨S100000x64, u 0⟩, ⟨S100000x64, u 1⟩, ⟨S100000x64, u 2⟩, ⟨S100000x64, u 3⟩, ⟨S100000x64, u 4⟩, ⟨S100000x64, u 5⟩] concatenates_S100000x64_S100000x64_S100000x64_S100000x64_S100000x64_S100000x64_S100000x384_d1),
    binary main_v122 main_arg2 main_v123 ((fun l r => Host.dotGeneral dot_S100000x384_S384x64_S100000x64_1_0_0_1_n_n none l r) : (⟨S100000x384, .f32⟩ : BufTy).Contents (Elt F) → (⟨S384x64, .f32⟩ : BufTy).Contents (Elt F) → (⟨S100000x64, .f32⟩ : BufTy).Contents (Elt F)),
    unary main_arg3 main_v124 (broadcastInDim S1x64 ![1] bcast_S64_S1x64_1 : (⟨S64, .f32⟩ : BufTy).Contents (Elt F) → (⟨S1x64, .f32⟩ : BufTy).Contents (Elt F)),
    unary main_v124 main_v125 (broadcastInDim S100000x64 ![0, 1] bcast_S1x64_S100000x64_0_1 : (⟨S1x64, .f32⟩ : BufTy).Contents (Elt F) → (⟨S100000x64, .f32⟩ : BufTy).Contents (Elt F)),
    binary main_v123 main_v125 main_v126 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v126) (TRef.of (T := ⟨S100000x64, .f32⟩) main_call2_v0) (TRef.of (T := ⟨S100000x64, .f32⟩) main_v127) maximumf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., binary_bufs_sub .., nary_bufs_sub .., binary_bufs_sub .., unary_bufs_sub .., unary_bufs_sub .., binary_bufs_sub .., nullary_bufs_sub .., unary_bufs_sub .., binary_bufs_sub ..⟩

/-! ## The windows -/

/-- Window A: the source and target index vectors (edges then self loops), the ones, and the degrees. -/
abbrev A : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ]

/-- Window B: the guarded reciprocal square root of the degrees. -/
abbrev B : List (HloOp τ sig (Elt F)) :=
  [ nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x00000000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v14) (TRef.of (T := ⟨S100000, .f32⟩) main_v10) (TRef.of (T := ⟨S100000, .f32⟩) main_call0_v1) (TRef.of (T := ⟨S100000, .f32⟩) main_v15) select,
    unary main_v15 main_v16 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v12) (TRef.of (T := ⟨S100000, .f32⟩) main_v16) (TRef.of (T := ⟨S100000, .f32⟩) main_call1_v1) (TRef.of (T := ⟨S100000, .f32⟩) main_v17) select ]

/-- Window C: the edge weights. -/
abbrev C : List (HloOp τ sig (Elt F)) :=
  [ nullary main_c (constantI S_ 32 0#32),
    unary main_c main_v18 (broadcastInDim S1700000 ![] bcast_S_S1700000 : (⟨S_, .i32⟩ : BufTy).Contents (Elt F) → (⟨S1700000, .i32⟩ : BufTy).Contents (Elt F)),
    binary main_v3 main_v18 main_v19 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v20 (broadcastInDim S1700000 ![] bcast_S_S1700000 : (⟨S_, .i32⟩ : BufTy).Contents (Elt F) → (⟨S1700000, .i32⟩ : BufTy).Contents (Elt F)),
    binary main_v3 main_v20 main_v21 (addi : (⟨S1700000, .i32⟩ : BufTy).Contents (Elt F) → (⟨S1700000, .i32⟩ : BufTy).Contents (Elt F) → (⟨S1700000, .i32⟩ : BufTy).Contents (Elt F)),
    ternary main_v19 main_v21 main_v3 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v22 main_v23 (broadcastInDim S1700000x1 ![0] bcast_S1700000_S1700000x1_0 : (⟨S1700000, .i32⟩ : BufTy).Contents (Elt F) → (⟨S1700000x1, .i32⟩ : BufTy).Contents (Elt F)),
    binary main_v17 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v24 main_v7 main_v25 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v28 (broadcastInDim S1700000 ![] bcast_S_S1700000 : (⟨S_, .i32⟩ : BufTy).Contents (Elt F) → (⟨S1700000, .i32⟩ : BufTy).Contents (Elt F)),
    binary main_v6 main_v28 main_v29 (addi : (⟨S1700000, .i32⟩ : BufTy).Contents (Elt F) → (⟨S1700000, .i32⟩ : BufTy).Contents (Elt F) → (⟨S1700000, .i32⟩ : BufTy).Contents (Elt F)),
    ternary main_v27 main_v29 main_v6 main_v30 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v30 main_v31 (broadcastInDim S1700000x1 ![0] bcast_S1700000_S1700000x1_0 : (⟨S1700000, .i32⟩ : BufTy).Contents (Elt F) → (⟨S1700000x1, .i32⟩ : BufTy).Contents (Elt F)),
    binary main_v17 main_v31 main_v32 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v25 main_v32 main_v33 (mulf : (⟨S1700000, .f32⟩ : BufTy).Contents (Elt F) → (⟨S1700000, .f32⟩ : BufTy).Contents (Elt F) → (⟨S1700000, .f32⟩ : BufTy).Contents (Elt F)),
    unary main_v33 main_v34 (broadcastInDim S1700000x1 ![0] bcast_S1700000_S1700000x1_0 : (⟨S1700000, .f32⟩ : BufTy).Contents (Elt F) → (⟨S1700000x1, .f32⟩ : BufTy).Contents (Elt F)) ]

/-- Window S1: propagation step 1. -/
abbrev S1 : List (HloOp τ sig (Elt F)) :=
  [ nullary main_c_8 (constantI S_ 32 0#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v37 (broadcastInDim S1700000 ![] bcast_S_S1700000 : (⟨S_, .i32⟩ : BufTy).Contents (Elt F) → (⟨S1700000, .i32⟩ : BufTy).Contents (Elt F)),
    binary main_v3 main_v37 main_v38 (addi : (⟨S1700000, .i32⟩ : BufTy).Contents (Elt F) → (⟨S1700000, .i32⟩ : BufTy).Contents (Elt F) → (⟨S1700000, .i32⟩ : BufTy).Contents (Elt F)),
    ternary main_v36 main_v38 main_v3 main_v39 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v39 main_v40 (broadcastInDim S1700000x1 ![0] bcast_S1700000_S1700000x1_0 : (⟨S1700000, .i32⟩ : BufTy).Contents (Elt F) → (⟨S1700000x1, .i32⟩ : BufTy).Contents (Elt F)),
    binary main_arg0 main_v40 main_v41 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v42 (broadcastInDim S1700000x64 ![0, 1] bcast_S1700000x1_S1700000x64_0_1 : (⟨S1700000x1, .f32⟩ : BufTy).Contents (Elt F) → (⟨S1700000x64, .f32⟩ : BufTy).Contents (Elt F)),
    binary main_v42 main_v41 main_v43 (mulf : (⟨S1700000x64, .f32⟩ : BufTy).Contents (Elt F) → (⟨S1700000x64, .f32⟩ : BufTy).Contents (Elt F) → (⟨S1700000x64, .f32⟩ : BufTy).Contents (Elt F)),
    nullary main_cst_10 (constant S_ .f32 0x00000000#32),
    unary main_cst_10 main_v44 (broadcastInDim S100000x64 ![] bcast_S_S100000x64 : (⟨S_, .f32⟩ : BufTy).Contents (Elt F) → (⟨S100000x64, .f32⟩ : BufTy).Contents (Elt F)),
    unary main_v6 main_v45 (broadcastInDim S1700000x1 ![0] bcast_S1700000_S1700000x1_0 : (⟨S1700000, .i32⟩ : BufTy).Contents (Elt F) → (⟨S1700000x1, .i32⟩ : BufTy).Contents (Elt F)),
    ternary main_v44 main_v45 main_v43 main_v46 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Window S2: propagation step 2. -/
abbrev S2 : List (HloOp τ sig (Elt F)) :=
  [ nullary main_c_11 (constantI S_ 32 0#32),
    unary main_c_11 main_v47 (broadcastInDim S1700000 ![] bcast_S_S1700000 : (⟨S_, .i32⟩ : BufTy).Contents (Elt F) → (⟨S1700000, .i32⟩ : BufTy).Contents (Elt F)),
    binary main_v3 main_v47 main_v48 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v49 (broadcastInDim S1700000 ![] bcast_S_S1700000 : (⟨S_, .i32⟩ : BufTy).Contents (Elt F) → (⟨S1700000, .i32⟩ : BufTy).Contents (Elt F)),
    binary main_v3 main_v49 main_v50 (addi : (⟨S1700000, .i32⟩ : BufTy).Contents (Elt F) → (⟨S1700000, .i32⟩ : BufTy).Contents (Elt F) → (⟨S1700000, .i32⟩ : BufTy).Contents (Elt F)),
    ternary main_v48 main_v50 main_v3 main_v51 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v51 main_v52 (broadcastInDim S1700000x1 ![0] bcast_S1700000_S1700000x1_0 : (⟨S1700000, .i32⟩ : BufTy).Contents (Elt F) → (⟨S1700000x1, .i32⟩ : BufTy).Contents (Elt F)),
    binary main_v46 main_v52 main_v53 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v54 (broadcastInDim S1700000x64 ![0, 1] bcast_S1700000x1_S1700000x64_0_1 : (⟨S1700000x1, .f32⟩ : BufTy).Contents (Elt F) → (⟨S1700000x64, .f32⟩ : BufTy).Contents (Elt F)),
    binary main_v54 main_v53 main_v55 (mulf : (⟨S1700000x64, .f32⟩ : BufTy).Contents (Elt F) → (⟨S1700000x64, .f32⟩ : BufTy).Contents (Elt F) → (⟨S1700000x64, .f32⟩ : BufTy).Contents (Elt F)),
    nullary main_cst_13 (constant S_ .f32 0x00000000#32),
    unary main_cst_13 main_v56 (broadcastInDim S100000x64 ![] bcast_S_S100000x64 : (⟨S_, .f32⟩ : BufTy).Contents (Elt F) → (⟨S100000x64, .f32⟩ : BufTy).Contents (Elt F)),
    unary main_v6 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Window S3: propagation step 3. -/
abbrev S3 : List (HloOp τ sig (Elt F)) :=
  [ nullary main_c_14 (constantI S_ 32 0#32),
    unary main_c_14 main_v59 (broadcastInDim S1700000 ![] bcast_S_S1700000 : (⟨S_, .i32⟩ : BufTy).Contents (Elt F) → (⟨S1700000, .i32⟩ : BufTy).Contents (Elt F)),
    binary main_v3 main_v59 main_v60 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v61 (broadcastInDim S1700000 ![] bcast_S_S1700000 : (⟨S_, .i32⟩ : BufTy).Contents (Elt F) → (⟨S1700000, .i32⟩ : BufTy).Contents (Elt F)),
    binary main_v3 main_v61 main_v62 (addi : (⟨S1700000, .i32⟩ : BufTy).Contents (Elt F) → (⟨S1700000, .i32⟩ : BufTy).Contents (Elt F) → (⟨S1700000, .i32⟩ : BufTy).Contents (Elt F)),
    ternary main_v60 main_v62 main_v3 main_v63 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v63 main_v64 (broadcastInDim S1700000x1 ![0] bcast_S1700000_S1700000x1_0 : (⟨S1700000, .i32⟩ : BufTy).Contents (Elt F) → (⟨S1700000x1, .i32⟩ : BufTy).Contents (Elt F)),
    binary main_v58 main_v64 main_v65 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v66 (broadcastInDim S1700000x64 ![0, 1] bcast_S1700000x1_S1700000x64_0_1 : (⟨S1700000x1, .f32⟩ : BufTy).Contents (Elt F) → (⟨S1700000x64, .f32⟩ : BufTy).Contents (Elt F)),
    binary main_v66 main_v65 main_v67 (mulf : (⟨S1700000x64, .f32⟩ : BufTy).Contents (Elt F) → (⟨S1700000x64, .f32⟩ : BufTy).Contents (Elt F) → (⟨S1700000x64, .f32⟩ : BufTy).Contents (Elt F)),
    nullary main_cst_16 (constant S_ .f32 0x00000000#32),
    unary main_cst_16 main_v68 (broadcastInDim S100000x64 ![] bcast_S_S100000x64 : (⟨S_, .f32⟩ : BufTy).Contents (Elt F) → (⟨S100000x64, .f32⟩ : BufTy).Contents (Elt F)),
    unary main_v6 main_v69 (broadcastInDim S1700000x1 ![0] bcast_S1700000_S1700000x1_0 : (⟨S1700000, .i32⟩ : BufTy).Contents (Elt F) → (⟨S1700000x1, .i32⟩ : BufTy).Contents (Elt F)),
    ternary main_v68 main_v69 main_v67 main_v70 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Window S4: propagation step 4. -/
abbrev S4 : List (HloOp τ sig (Elt F)) :=
  [ nullary main_c_17 (constantI S_ 32 0#32),
    unary main_c_17 main_v71 (broadcastInDim S1700000 ![] bcast_S_S1700000 : (⟨S_, .i32⟩ : BufTy).Contents (Elt F) → (⟨S1700000, .i32⟩ : BufTy).Contents (Elt F)),
    binary main_v3 main_v71 main_v72 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v73 (broadcastInDim S1700000 ![] bcast_S_S1700000 : (⟨S_, .i32⟩ : BufTy).Contents (Elt F) → (⟨S1700000, .i32⟩ : BufTy).Contents (Elt F)),
    binary main_v3 main_v73 main_v74 (addi : (⟨S1700000, .i32⟩ : BufTy).Contents (Elt F) → (⟨S1700000, .i32⟩ : BufTy).Contents (Elt F) → (⟨S1700000, .i32⟩ : BufTy).Contents (Elt F)),
    ternary main_v72 main_v74 main_v3 main_v75 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v75 main_v76 (broadcastInDim S1700000x1 ![0] bcast_S1700000_S1700000x1_0 : (⟨S1700000, .i32⟩ : BufTy).Contents (Elt F) → (⟨S1700000x1, .i32⟩ : BufTy).Contents (Elt F)),
    binary main_v70 main_v76 main_v77 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v78 (broadcastInDim S1700000x64 ![0, 1] bcast_S1700000x1_S1700000x64_0_1 : (⟨S1700000x1, .f32⟩ : BufTy).Contents (Elt F) → (⟨S1700000x64, .f32⟩ : BufTy).Contents (Elt F)),
    binary main_v78 main_v77 main_v79 (mulf : (⟨S1700000x64, .f32⟩ : BufTy).Contents (Elt F) → (⟨S1700000x64, .f32⟩ : BufTy).Contents (Elt F) → (⟨S1700000x64, .f32⟩ : BufTy).Contents (Elt F)),
    nullary main_cst_19 (constant S_ .f32 0x00000000#32),
    unary main_cst_19 main_v80 (broadcastInDim S100000x64 ![] bcast_S_S100000x64 : (⟨S_, .f32⟩ : BufTy).Contents (Elt F) → (⟨S100000x64, .f32⟩ : BufTy).Contents (Elt F)),
    unary main_v6 main_v81 (broadcastInDim S1700000x1 ![0] bcast_S1700000_S1700000x1_0 : (⟨S1700000, .i32⟩ : BufTy).Contents (Elt F) → (⟨S1700000x1, .i32⟩ : BufTy).Contents (Elt F)),
    ternary main_v80 main_v81 main_v79 main_v82 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Window S5: propagation step 5. -/
abbrev S5 : List (HloOp τ sig (Elt F)) :=
  [ nullary main_c_20 (constantI S_ 32 0#32),
    unary main_c_20 main_v83 (broadcastInDim S1700000 ![] bcast_S_S1700000 : (⟨S_, .i32⟩ : BufTy).Contents (Elt F) → (⟨S1700000, .i32⟩ : BufTy).Contents (Elt F)),
    binary main_v3 main_v83 main_v84 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v85 (broadcastInDim S1700000 ![] bcast_S_S1700000 : (⟨S_, .i32⟩ : BufTy).Contents (Elt F) → (⟨S1700000, .i32⟩ : BufTy).Contents (Elt F)),
    binary main_v3 main_v85 main_v86 (addi : (⟨S1700000, .i32⟩ : BufTy).Contents (Elt F) → (⟨S1700000, .i32⟩ : BufTy).Contents (Elt F) → (⟨S1700000, .i32⟩ : BufTy).Contents (Elt F)),
    ternary main_v84 main_v86 main_v3 main_v87 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v87 main_v88 (broadcastInDim S1700000x1 ![0] bcast_S1700000_S1700000x1_0 : (⟨S1700000, .i32⟩ : BufTy).Contents (Elt F) → (⟨S1700000x1, .i32⟩ : BufTy).Contents (Elt F)),
    binary main_v82 main_v88 main_v89 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v90 (broadcastInDim S1700000x64 ![0, 1] bcast_S1700000x1_S1700000x64_0_1 : (⟨S1700000x1, .f32⟩ : BufTy).Contents (Elt F) → (⟨S1700000x64, .f32⟩ : BufTy).Contents (Elt F)),
    binary main_v90 main_v89 main_v91 (mulf : (⟨S1700000x64, .f32⟩ : BufTy).Contents (Elt F) → (⟨S1700000x64, .f32⟩ : BufTy).Contents (Elt F) → (⟨S1700000x64, .f32⟩ : BufTy).Contents (Elt F)),
    nullary main_cst_22 (constant S_ .f32 0x00000000#32),
    unary main_cst_22 main_v92 (broadcastInDim S100000x64 ![] bcast_S_S100000x64 : (⟨S_, .f32⟩ : BufTy).Contents (Elt F) → (⟨S100000x64, .f32⟩ : BufTy).Contents (Elt F)),
    unary main_v6 main_v93 (broadcastInDim S1700000x1 ![0] bcast_S1700000_S1700000x1_0 : (⟨S1700000, .i32⟩ : BufTy).Contents (Elt F) → (⟨S1700000x1, .i32⟩ : BufTy).Contents (Elt F)),
    ternary main_v92 main_v93 main_v91 main_v94 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Window S6: propagation step 6. -/
abbrev S6 : List (HloOp τ sig (Elt F)) :=
  [ nullary main_c_23 (constantI S_ 32 0#32),
    unary main_c_23 main_v95 (broadcastInDim S1700000 ![] bcast_S_S1700000 : (⟨S_, .i32⟩ : BufTy).Contents (Elt F) → (⟨S1700000, .i32⟩ : BufTy).Contents (Elt F)),
    binary main_v3 main_v95 main_v96 (cmpi .slt : (⟨S1700000, .i32⟩ : BufTy).Contents (Elt F) → (⟨S1700000, .i32⟩ : BufTy).Contents (Elt F) → (⟨S1700000, .i1⟩ : BufTy).Contents (Elt F)),
    nullary main_c_24 (constantI S_ 32 100000#32),
    unary main_c_24 main_v97 (broadcastInDim S1700000 ![] bcast_S_S1700000 : (⟨S_, .i32⟩ : BufTy).Contents (Elt F) → (⟨S1700000, .i32⟩ : BufTy).Contents (Elt F)),
    binary main_v3 main_v97 main_v98 (addi : (⟨S1700000, .i32⟩ : BufTy).Contents (Elt F) → (⟨S1700000, .i32⟩ : BufTy).Contents (Elt F) → (⟨S1700000, .i32⟩ : BufTy).Contents (Elt F)),
    ternary main_v96 main_v98 main_v3 main_v99 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v99 main_v100 (broadcastInDim S1700000x1 ![0] bcast_S1700000_S1700000x1_0 : (⟨S1700000, .i32⟩ : BufTy).Contents (Elt F) → (⟨S1700000x1, .i32⟩ : BufTy).Contents (Elt F)),
    binary main_v94 main_v100 main_v101 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v102 (broadcastInDim S1700000x64 ![0, 1] bcast_S1700000x1_S1700000x64_0_1 : (⟨S1700000x1, .f32⟩ : BufTy).Contents (Elt F) → (⟨S1700000x64, .f32⟩ : BufTy).Contents (Elt F)),
    binary main_v102 main_v101 main_v103 (mulf : (⟨S1700000x64, .f32⟩ : BufTy).Contents (Elt F) → (⟨S1700000x64, .f32⟩ : BufTy).Contents (Elt F) → (⟨S1700000x64, .f32⟩ : BufTy).Contents (Elt F)),
    nullary main_cst_25 (constant S_ .f32 0x00000000#32),
    unary main_cst_25 main_v104 (broadcastInDim S100000x64 ![] bcast_S_S100000x64 : (⟨S_, .f32⟩ : BufTy).Contents (Elt F) → (⟨S100000x64, .f32⟩ : BufTy).Contents (Elt F)),
    unary main_v6 main_v105 (broadcastInDim S1700000x1 ![0] bcast_S1700000_S1700000x1_0 : (⟨S1700000, .i32⟩ : BufTy).Contents (Elt F) → (⟨S1700000x1, .i32⟩ : BufTy).Contents (Elt F)),
    ternary main_v104 main_v105 main_v103 main_v106 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Window S7: propagation step 7. -/
abbrev S7 : List (HloOp τ sig (Elt F)) :=
  [ nullary main_c_26 (constantI S_ 32 0#32),
    unary main_c_26 main_v107 (broadcastInDim S1700000 ![] bcast_S_S1700000 : (⟨S_, .i32⟩ : BufTy).Contents (Elt F) → (⟨S1700000, .i32⟩ : BufTy).Contents (Elt F)),
    binary main_v3 main_v107 main_v108 (cmpi .slt : (⟨S1700000, .i32⟩ : BufTy).Contents (Elt F) → (⟨S1700000, .i32⟩ : BufTy).Contents (Elt F) → (⟨S1700000, .i1⟩ : BufTy).Contents (Elt F)),
    nullary main_c_27 (constantI S_ 32 100000#32),
    unary main_c_27 main_v109 (broadcastInDim S1700000 ![] bcast_S_S1700000 : (⟨S_, .i32⟩ : BufTy).Contents (Elt F) → (⟨S1700000, .i32⟩ : BufTy).Contents (Elt F)),
    binary main_v3 main_v109 main_v110 (addi : (⟨S1700000, .i32⟩ : BufTy).Contents (Elt F) → (⟨S1700000, .i32⟩ : BufTy).Contents (Elt F) → (⟨S1700000, .i32⟩ : BufTy).Contents (Elt F)),
    ternary main_v108 main_v110 main_v3 main_v111 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v111 main_v112 (broadcastInDim S1700000x1 ![0] bcast_S1700000_S1700000x1_0 : (⟨S1700000, .i32⟩ : BufTy).Contents (Elt F) → (⟨S1700000x1, .i32⟩ : BufTy).Contents (Elt F)),
    binary main_v106 main_v112 main_v113 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v114 (broadcastInDim S1700000x64 ![0, 1] bcast_S1700000x1_S1700000x64_0_1 : (⟨S1700000x1, .f32⟩ : BufTy).Contents (Elt F) → (⟨S1700000x64, .f32⟩ : BufTy).Contents (Elt F)),
    binary main_v114 main_v113 main_v115 (mulf : (⟨S1700000x64, .f32⟩ : BufTy).Contents (Elt F) → (⟨S1700000x64, .f32⟩ : BufTy).Contents (Elt F) → (⟨S1700000x64, .f32⟩ : BufTy).Contents (Elt F)),
    nullary main_cst_28 (constant S_ .f32 0x00000000#32),
    unary main_cst_28 main_v116 (broadcastInDim S100000x64 ![] bcast_S_S100000x64 : (⟨S_, .f32⟩ : BufTy).Contents (Elt F) → (⟨S100000x64, .f32⟩ : BufTy).Contents (Elt F)),
    unary main_v6 main_v117 (broadcastInDim S1700000x1 ![0] bcast_S1700000_S1700000x1_0 : (⟨S1700000, .i32⟩ : BufTy).Contents (Elt F) → (⟨S1700000x1, .i32⟩ : BufTy).Contents (Elt F)),
    ternary main_v116 main_v117 main_v115 main_v118 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The last window: the three differences, the joined matrix, the product with the weights, the bias, the floor at 0. -/
abbrev T : List (HloOp τ sig (Elt F)) :=
  [ binary main_arg0 main_v46 main_v119 (subf : (⟨S100000x64, .f32⟩ : BufTy).Contents (Elt F) → (⟨S100000x64, .f32⟩ : BufTy).Contents (Elt F) → (⟨S100000x64, .f32⟩ : BufTy).Contents (Elt F)),
    binary main_v46 main_v70 main_v120 (subf : (⟨S100000x64, .f32⟩ : BufTy).Contents (Elt F) → (⟨S100000x64, .f32⟩ : BufTy).Contents (Elt F) → (⟨S100000x64, .f32⟩ : BufTy).Contents (Elt F)),
    binary main_v70 main_v118 main_v121 (subf : (⟨S100000x64, .f32⟩ : BufTy).Contents (Elt F) → (⟨S100000x64, .f32⟩ : BufTy).Contents (Elt F) → (⟨S100000x64, .f32⟩ : BufTy).Contents (Elt F)),
    nary ![main_v46, main_v70, main_v118, main_v119, main_v120, main_v121] main_v122 (fun u => concatenate S100000x384 1 [⟨S100000x64, u 0⟩, ⟨S100000x64, u 1⟩, ⟨S100000x64, u 2⟩, ⟨S100000x64, u 3⟩, ⟨S100000x64, u 4⟩, ⟨S100000x64, u 5⟩] concatenates_S100000x64_S100000x64_S100000x64_S100000x64_S100000x64_S100000x64_S100000x384_d1),
    binary main_v122 main_arg2 main_v123 ((fun l r => Host.dotGeneral dot_S100000x384_S384x64_S100000x64_1_0_0_1_n_n none l r) : (⟨S100000x384, .f32⟩ : BufTy).Contents (Elt F) → (⟨S384x64, .f32⟩ : BufTy).Contents (Elt F) → (⟨S100000x64, .f32⟩ : BufTy).Contents (Elt F)),
    unary main_arg3 main_v124 (broadcastInDim S1x64 ![1] bcast_S64_S1x64_1 : (⟨S64, .f32⟩ : BufTy).Contents (Elt F) → (⟨S1x64, .f32⟩ : BufTy).Contents (Elt F)),
    unary main_v124 main_v125 (broadcastInDim S100000x64 ![0, 1] bcast_S1x64_S100000x64_0_1 : (⟨S1x64, .f32⟩ : BufTy).Contents (Elt F) → (⟨S100000x64, .f32⟩ : BufTy).Contents (Elt F)),
    binary main_v123 main_v125 main_v126 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v126) (TRef.of (T := ⟨S100000x64, .f32⟩) main_call2_v0) (TRef.of (T := ⟨S100000x64, .f32⟩) main_v127) maximumf ]

set_option maxHeartbeats 4000000 in
/-- The line of operations is its windows, in order. -/
theorem ops_split : (ops : List (HloOp τ sig (Elt F))) = A ++ (B ++ (C ++ (S1 ++ (S2 ++ (S3 ++ (S4 ++ (S5 ++ (S6 ++ (S7 ++ T))))))))) := rfl

/-! ## One window at a time -/

/-- Reads a window: rewrites each operation's result at its own buffer to its function of the operands' contents, and at
    any other buffer to what was there, outermost first, until none applies (the library's result lemmas, by `rw`). -/
macro "read_window" : tactic =>
  `(tactic| (repeat (first
      | rw [nullary_result] | rw [unary_result] | rw [binary_result] | rw [ternary_result] | rw [reshape_result] | rw [nary_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)
      | (simp only [Matrix.cons_val]))))

set_option maxHeartbeats 4000000 in
theorem win_A_main_v3 (W : Valuation τ sig (Elt F)) (x1 : (⟨S2x1600000, .i32⟩ : BufTy).Contents (Elt F))
    (h_main_arg1 : W (Proc.devRef .tc main_arg1) = x1) :
    after (A (F := F)) W (Proc.devRef .tc main_v3) = val_main_v3 (F := F) x1 := by
  simp only [A, after_cons, after_nil]
  read_window
  rw [h_main_arg1]
  all_goals rfl

set_option maxHeartbeats 4000000 in
theorem win_A_main_v6 (W : Valuation τ sig (Elt F)) (x1 : (⟨S2x1600000, .i32⟩ : BufTy).Contents (Elt F))
    (h_main_arg1 : W (Proc.devRef .tc main_arg1) = x1) :
    after (A (F := F)) W (Proc.devRef .tc main_v6) = val_main_v6 (F := F) x1 := by
  simp only [A, after_cons, after_nil]
  read_window
  rw [h_main_arg1]
  all_goals rfl

set_option maxHeartbeats 4000000 in
theorem win_A_main_v7 (W : Valuation τ sig (Elt F))  :
    after (A (F := F)) W (Proc.devRef .tc main_v7) = val_main_v7 (F := F) := by
  simp only [A, after_cons, after_nil]
  read_window
  all_goals rfl

set_option maxHeartbeats 4000000 in
theorem win_A_main_v10 (W : Valuation τ sig (Elt F)) (x1 : (⟨S2x1600000, .i32⟩ : BufTy).Contents (Elt F))
    (h_main_arg1 : W (Proc.devRef .tc main_arg1) = x1) :
    after (A (F := F)) W (Proc.devRef .tc main_v10) = val_main_v10 (F := F) x1 := by
  simp only [A, after_cons, after_nil]
  read_window
  rw [h_main_arg1]
  all_goals rfl

set_option maxHeartbeats 4000000 in
theorem keep_A_main_arg0 (W : Valuation τ sig (Elt F)) :
    after (A (F := F)) W (Proc.devRef .tc main_arg0) = W (Proc.devRef .tc main_arg0) := by
  simp only [A, after_cons, after_nil]
  read_window

set_option maxHeartbeats 4000000 in
theorem keep_A_main_arg2 (W : Valuation τ sig (Elt F)) :
    after (A (F := F)) W (Proc.devRef .tc main_arg2) = W (Proc.devRef .tc main_arg2) := by
  simp only [A, after_cons, after_nil]
  read_window

set_option maxHeartbeats 4000000 in
theorem keep_A_main_arg3 (W : Valuation τ sig (Elt F)) :
    after (A (F := F)) W (Proc.devRef .tc main_arg3) = W (Proc.devRef .tc main_arg3) := by
  simp only [A, after_cons, after_nil]
  read_window

set_option maxHeartbeats 4000000 in
theorem win_B_main_v17 (W : Valuation τ sig (Elt F)) (x1 : (⟨S2x1600000, .i32⟩ : BufTy).Contents (Elt F))
    (h_main_v10 : W (Proc.devRef .tc main_v10) = val_main_v10 (F := F) x1) :
    after (B (F := F)) W (Proc.devRef .tc main_v17) = val_main_v17 (F := F) x1 := by
  simp only [B, after_cons, after_nil]
  read_window
  rw [h_main_v10]
  all_goals rfl

set_option maxHeartbeats 4000000 in
theorem keep_B_main_arg0 (W : Valuation τ sig (Elt F)) :
    after (B (F := F)) W (Proc.devRef .tc main_arg0) = W (Proc.devRef .tc main_arg0) := by
  simp only [B, after_cons, after_nil]
  read_window

set_option maxHeartbeats 4000000 in
theorem keep_B_main_arg2 (W : Valuation τ sig (Elt F)) :
    after (B (F := F)) W (Proc.devRef .tc main_arg2) = W (Proc.devRef .tc main_arg2) := by
  simp only [B, after_cons, after_nil]
  read_window

set_option maxHeartbeats 4000000 in
theorem keep_B_main_arg3 (W : Valuation τ sig (Elt F)) :
    after (B (F := F)) W (Proc.devRef .tc main_arg3) = W (Proc.devRef .tc main_arg3) := by
  simp only [B, after_cons, after_nil]
  read_window

set_option maxHeartbeats 4000000 in
theorem keep_B_main_v3 (W : Valuation τ sig (Elt F)) :
    after (B (F := F)) W (Proc.devRef .tc main_v3) = W (Proc.devRef .tc main_v3) := by
  simp only [B, after_cons, after_nil]
  read_window

set_option maxHeartbeats 4000000 in
theorem keep_B_main_v6 (W : Valuation τ sig (Elt F)) :
    after (B (F := F)) W (Proc.devRef .tc main_v6) = W (Proc.devRef .tc main_v6) := by
  simp only [B, after_cons, after_nil]
  read_window

set_option maxHeartbeats 4000000 in
theorem keep_B_main_v7 (W : Valuation τ sig (Elt F)) :
    after (B (F := F)) W (Proc.devRef .tc main_v7) = W (Proc.devRef .tc main_v7) := by
  simp only [B, after_cons, after_nil]
  read_window

set_option maxHeartbeats 4000000 in
theorem win_C_main_v34 (W : Valuation τ sig (Elt F)) (x1 : (⟨S2x1600000, .i32⟩ : BufTy).Contents (Elt F))
    (h_main_v17 : W (Proc.devRef .tc main_v17) = val_main_v17 (F := F) x1)
    (h_main_v3 : W (Proc.devRef .tc main_v3) = val_main_v3 (F := F) x1)
    (h_main_v6 : W (Proc.devRef .tc main_v6) = val_main_v6 (F := F) x1)
    (h_main_v7 : W (Proc.devRef .tc main_v7) = val_main_v7 (F := F)) :
    after (C (F := F)) W (Proc.devRef .tc main_v34) = val_main_v34 (F := F) x1 := by
  simp only [C, after_cons, after_nil]
  read_window
  rw [h_main_v17, h_main_v3, h_main_v6, h_main_v7]
  all_goals rfl

set_option maxHeartbeats 4000000 in
theorem keep_C_main_arg0 (W : Valuation τ sig (Elt F)) :
    after (C (F := F)) W (Proc.devRef .tc main_arg0) = W (Proc.devRef .tc main_arg0) := by
  simp only [C, after_cons, after_nil]
  read_window

set_option maxHeartbeats 4000000 in
theorem keep_C_main_arg2 (W : Valuation τ sig (Elt F)) :
    after (C (F := F)) W (Proc.devRef .tc main_arg2) = W (Proc.devRef .tc main_arg2) := by
  simp only [C, after_cons, after_nil]
  read_window

set_option maxHeartbeats 4000000 in
theorem keep_C_main_arg3 (W : Valuation τ sig (Elt F)) :
    after (C (F := F)) W (Proc.devRef .tc main_arg3) = W (Proc.devRef .tc main_arg3) := by
  simp only [C, after_cons, after_nil]
  read_window

set_option maxHeartbeats 4000000 in
theorem keep_C_main_v3 (W : Valuation τ sig (Elt F)) :
    after (C (F := F)) W (Proc.devRef .tc main_v3) = W (Proc.devRef .tc main_v3) := by
  simp only [C, after_cons, after_nil]
  read_window

set_option maxHeartbeats 4000000 in
theorem keep_C_main_v6 (W : Valuation τ sig (Elt F)) :
    after (C (F := F)) W (Proc.devRef .tc main_v6) = W (Proc.devRef .tc main_v6) := by
  simp only [C, after_cons, after_nil]
  read_window

set_option maxHeartbeats 4000000 in
theorem win_S1_main_v46 (W : Valuation τ sig (Elt F)) (x0 : (⟨S100000x64, .f32⟩ : BufTy).Contents (Elt F)) (x1 : (⟨S2x1600000, .i32⟩ : BufTy).Contents (Elt F))
    (h_main_v3 : W (Proc.devRef .tc main_v3) = val_main_v3 (F := F) x1)
    (h_main_v6 : W (Proc.devRef .tc main_v6) = val_main_v6 (F := F) x1)
    (h_main_v34 : W (Proc.devRef .tc main_v34) = val_main_v34 (F := F) x1)
    (h_main_arg0 : W (Proc.devRef .tc main_arg0) = x0) :
    after (S1 (F := F)) W (Proc.devRef .tc main_v46) = val_main_v46 (F := F) x0 x1 := by
  simp only [S1, after_cons, after_nil]
  read_window
  rw [h_main_v3, h_main_v6, h_main_v34, h_main_arg0]
  all_goals rfl

set_option maxHeartbeats 4000000 in
theorem keep_S1_main_arg0 (W : Valuation τ sig (Elt F)) :
    after (S1 (F := F)) W (Proc.devRef .tc main_arg0) = W (Proc.devRef .tc main_arg0) := by
  simp only [S1, after_cons, after_nil]
  read_window

set_option maxHeartbeats 4000000 in
theorem keep_S1_main_arg2 (W : Valuation τ sig (Elt F)) :
    after (S1 (F := F)) W (Proc.devRef .tc main_arg2) = W (Proc.devRef .tc main_arg2) := by
  simp only [S1, after_cons, after_nil]
  read_window

set_option maxHeartbeats 4000000 in
theorem keep_S1_main_arg3 (W : Valuation τ sig (Elt F)) :
    after (S1 (F := F)) W (Proc.devRef .tc main_arg3) = W (Proc.devRef .tc main_arg3) := by
  simp only [S1, after_cons, after_nil]
  read_window

set_option maxHeartbeats 4000000 in
theorem keep_S1_main_v3 (W : Valuation τ sig (Elt F)) :
    after (S1 (F := F)) W (Proc.devRef .tc main_v3) = W (Proc.devRef .tc main_v3) := by
  simp only [S1, after_cons, after_nil]
  read_window

set_option maxHeartbeats 4000000 in
theorem keep_S1_main_v6 (W : Valuation τ sig (Elt F)) :
    after (S1 (F := F)) W (Proc.devRef .tc main_v6) = W (Proc.devRef .tc main_v6) := by
  simp only [S1, after_cons, after_nil]
  read_window

set_option maxHeartbeats 4000000 in
theorem keep_S1_main_v34 (W : Valuation τ sig (Elt F)) :
    after (S1 (F := F)) W (Proc.devRef .tc main_v34) = W (Proc.devRef .tc main_v34) := by
  simp only [S1, after_cons, after_nil]
  read_window

set_option maxHeartbeats 4000000 in
theorem win_S2_main_v58 (W : Valuation τ sig (Elt F)) (x0 : (⟨S100000x64, .f32⟩ : BufTy).Contents (Elt F)) (x1 : (⟨S2x1600000, .i32⟩ : BufTy).Contents (Elt F))
    (h_main_v3 : W (Proc.devRef .tc main_v3) = val_main_v3 (F := F) x1)
    (h_main_v6 : W (Proc.devRef .tc main_v6) = val_main_v6 (F := F) x1)
    (h_main_v34 : W (Proc.devRef .tc main_v34) = val_main_v34 (F := F) x1)
    (h_main_v46 : W (Proc.devRef .tc main_v46) = val_main_v46 (F := F) x0 x1) :
    after (S2 (F := F)) W (Proc.devRef .tc main_v58) = val_main_v58 (F := F) x0 x1 := by
  simp only [S2, after_cons, after_nil]
  read_window
  rw [h_main_v3, h_main_v6, h_main_v34, h_main_v46]
  all_goals rfl

set_option maxHeartbeats 4000000 in
theorem keep_S2_main_arg0 (W : Valuation τ sig (Elt F)) :
    after (S2 (F := F)) W (Proc.devRef .tc main_arg0) = W (Proc.devRef .tc main_arg0) := by
  simp only [S2, after_cons, after_nil]
  read_window

set_option maxHeartbeats 4000000 in
theorem keep_S2_main_arg2 (W : Valuation τ sig (Elt F)) :
    after (S2 (F := F)) W (Proc.devRef .tc main_arg2) = W (Proc.devRef .tc main_arg2) := by
  simp only [S2, after_cons, after_nil]
  read_window

set_option maxHeartbeats 4000000 in
theorem keep_S2_main_arg3 (W : Valuation τ sig (Elt F)) :
    after (S2 (F := F)) W (Proc.devRef .tc main_arg3) = W (Proc.devRef .tc main_arg3) := by
  simp only [S2, after_cons, after_nil]
  read_window

set_option maxHeartbeats 4000000 in
theorem keep_S2_main_v3 (W : Valuation τ sig (Elt F)) :
    after (S2 (F := F)) W (Proc.devRef .tc main_v3) = W (Proc.devRef .tc main_v3) := by
  simp only [S2, after_cons, after_nil]
  read_window

set_option maxHeartbeats 4000000 in
theorem keep_S2_main_v6 (W : Valuation τ sig (Elt F)) :
    after (S2 (F := F)) W (Proc.devRef .tc main_v6) = W (Proc.devRef .tc main_v6) := by
  simp only [S2, after_cons, after_nil]
  read_window

set_option maxHeartbeats 4000000 in
theorem keep_S2_main_v34 (W : Valuation τ sig (Elt F)) :
    after (S2 (F := F)) W (Proc.devRef .tc main_v34) = W (Proc.devRef .tc main_v34) := by
  simp only [S2, after_cons, after_nil]
  read_window

set_option maxHeartbeats 4000000 in
theorem keep_S2_main_v46 (W : Valuation τ sig (Elt F)) :
    after (S2 (F := F)) W (Proc.devRef .tc main_v46) = W (Proc.devRef .tc main_v46) := by
  simp only [S2, after_cons, after_nil]
  read_window

set_option maxHeartbeats 4000000 in
theorem win_S3_main_v70 (W : Valuation τ sig (Elt F)) (x0 : (⟨S100000x64, .f32⟩ : BufTy).Contents (Elt F)) (x1 : (⟨S2x1600000, .i32⟩ : BufTy).Contents (Elt F))
    (h_main_v3 : W (Proc.devRef .tc main_v3) = val_main_v3 (F := F) x1)
    (h_main_v6 : W (Proc.devRef .tc main_v6) = val_main_v6 (F := F) x1)
    (h_main_v34 : W (Proc.devRef .tc main_v34) = val_main_v34 (F := F) x1)
    (h_main_v58 : W (Proc.devRef .tc main_v58) = val_main_v58 (F := F) x0 x1) :
    after (S3 (F := F)) W (Proc.devRef .tc main_v70) = val_main_v70 (F := F) x0 x1 := by
  simp only [S3, after_cons, after_nil]
  read_window
  rw [h_main_v3, h_main_v6, h_main_v34, h_main_v58]
  all_goals rfl

set_option maxHeartbeats 4000000 in
theorem keep_S3_main_arg0 (W : Valuation τ sig (Elt F)) :
    after (S3 (F := F)) W (Proc.devRef .tc main_arg0) = W (Proc.devRef .tc main_arg0) := by
  simp only [S3, after_cons, after_nil]
  read_window

set_option maxHeartbeats 4000000 in
theorem keep_S3_main_arg2 (W : Valuation τ sig (Elt F)) :
    after (S3 (F := F)) W (Proc.devRef .tc main_arg2) = W (Proc.devRef .tc main_arg2) := by
  simp only [S3, after_cons, after_nil]
  read_window

set_option maxHeartbeats 4000000 in
theorem keep_S3_main_arg3 (W : Valuation τ sig (Elt F)) :
    after (S3 (F := F)) W (Proc.devRef .tc main_arg3) = W (Proc.devRef .tc main_arg3) := by
  simp only [S3, after_cons, after_nil]
  read_window

set_option maxHeartbeats 4000000 in
theorem keep_S3_main_v3 (W : Valuation τ sig (Elt F)) :
    after (S3 (F := F)) W (Proc.devRef .tc main_v3) = W (Proc.devRef .tc main_v3) := by
  simp only [S3, after_cons, after_nil]
  read_window

set_option maxHeartbeats 4000000 in
theorem keep_S3_main_v6 (W : Valuation τ sig (Elt F)) :
    after (S3 (F := F)) W (Proc.devRef .tc main_v6) = W (Proc.devRef .tc main_v6) := by
  simp only [S3, after_cons, after_nil]
  read_window

set_option maxHeartbeats 4000000 in
theorem keep_S3_main_v34 (W : Valuation τ sig (Elt F)) :
    after (S3 (F := F)) W (Proc.devRef .tc main_v34) = W (Proc.devRef .tc main_v34) := by
  simp only [S3, after_cons, after_nil]
  read_window

set_option maxHeartbeats 4000000 in
theorem keep_S3_main_v46 (W : Valuation τ sig (Elt F)) :
    after (S3 (F := F)) W (Proc.devRef .tc main_v46) = W (Proc.devRef .tc main_v46) := by
  simp only [S3, after_cons, after_nil]
  read_window

set_option maxHeartbeats 4000000 in
theorem win_S4_main_v82 (W : Valuation τ sig (Elt F)) (x0 : (⟨S100000x64, .f32⟩ : BufTy).Contents (Elt F)) (x1 : (⟨S2x1600000, .i32⟩ : BufTy).Contents (Elt F))
    (h_main_v3 : W (Proc.devRef .tc main_v3) = val_main_v3 (F := F) x1)
    (h_main_v6 : W (Proc.devRef .tc main_v6) = val_main_v6 (F := F) x1)
    (h_main_v34 : W (Proc.devRef .tc main_v34) = val_main_v34 (F := F) x1)
    (h_main_v70 : W (Proc.devRef .tc main_v70) = val_main_v70 (F := F) x0 x1) :
    after (S4 (F := F)) W (Proc.devRef .tc main_v82) = val_main_v82 (F := F) x0 x1 := by
  simp only [S4, after_cons, after_nil]
  read_window
  rw [h_main_v3, h_main_v6, h_main_v34, h_main_v70]
  all_goals rfl

set_option maxHeartbeats 4000000 in
theorem keep_S4_main_arg0 (W : Valuation τ sig (Elt F)) :
    after (S4 (F := F)) W (Proc.devRef .tc main_arg0) = W (Proc.devRef .tc main_arg0) := by
  simp only [S4, after_cons, after_nil]
  read_window

set_option maxHeartbeats 4000000 in
theorem keep_S4_main_arg2 (W : Valuation τ sig (Elt F)) :
    after (S4 (F := F)) W (Proc.devRef .tc main_arg2) = W (Proc.devRef .tc main_arg2) := by
  simp only [S4, after_cons, after_nil]
  read_window

set_option maxHeartbeats 4000000 in
theorem keep_S4_main_arg3 (W : Valuation τ sig (Elt F)) :
    after (S4 (F := F)) W (Proc.devRef .tc main_arg3) = W (Proc.devRef .tc main_arg3) := by
  simp only [S4, after_cons, after_nil]
  read_window

set_option maxHeartbeats 4000000 in
theorem keep_S4_main_v3 (W : Valuation τ sig (Elt F)) :
    after (S4 (F := F)) W (Proc.devRef .tc main_v3) = W (Proc.devRef .tc main_v3) := by
  simp only [S4, after_cons, after_nil]
  read_window

set_option maxHeartbeats 4000000 in
theorem keep_S4_main_v6 (W : Valuation τ sig (Elt F)) :
    after (S4 (F := F)) W (Proc.devRef .tc main_v6) = W (Proc.devRef .tc main_v6) := by
  simp only [S4, after_cons, after_nil]
  read_window

set_option maxHeartbeats 4000000 in
theorem keep_S4_main_v34 (W : Valuation τ sig (Elt F)) :
    after (S4 (F := F)) W (Proc.devRef .tc main_v34) = W (Proc.devRef .tc main_v34) := by
  simp only [S4, after_cons, after_nil]
  read_window

set_option maxHeartbeats 4000000 in
theorem keep_S4_main_v46 (W : Valuation τ sig (Elt F)) :
    after (S4 (F := F)) W (Proc.devRef .tc main_v46) = W (Proc.devRef .tc main_v46) := by
  simp only [S4, after_cons, after_nil]
  read_window

set_option maxHeartbeats 4000000 in
theorem keep_S4_main_v70 (W : Valuation τ sig (Elt F)) :
    after (S4 (F := F)) W (Proc.devRef .tc main_v70) = W (Proc.devRef .tc main_v70) := by
  simp only [S4, after_cons, after_nil]
  read_window

set_option maxHeartbeats 4000000 in
theorem win_S5_main_v94 (W : Valuation τ sig (Elt F)) (x0 : (⟨S100000x64, .f32⟩ : BufTy).Contents (Elt F)) (x1 : (⟨S2x1600000, .i32⟩ : BufTy).Contents (Elt F))
    (h_main_v3 : W (Proc.devRef .tc main_v3) = val_main_v3 (F := F) x1)
    (h_main_v6 : W (Proc.devRef .tc main_v6) = val_main_v6 (F := F) x1)
    (h_main_v34 : W (Proc.devRef .tc main_v34) = val_main_v34 (F := F) x1)
    (h_main_v82 : W (Proc.devRef .tc main_v82) = val_main_v82 (F := F) x0 x1) :
    after (S5 (F := F)) W (Proc.devRef .tc main_v94) = val_main_v94 (F := F) x0 x1 := by
  simp only [S5, after_cons, after_nil]
  read_window
  rw [h_main_v3, h_main_v6, h_main_v34, h_main_v82]
  all_goals rfl

set_option maxHeartbeats 4000000 in
theorem keep_S5_main_arg0 (W : Valuation τ sig (Elt F)) :
    after (S5 (F := F)) W (Proc.devRef .tc main_arg0) = W (Proc.devRef .tc main_arg0) := by
  simp only [S5, after_cons, after_nil]
  read_window

set_option maxHeartbeats 4000000 in
theorem keep_S5_main_arg2 (W : Valuation τ sig (Elt F)) :
    after (S5 (F := F)) W (Proc.devRef .tc main_arg2) = W (Proc.devRef .tc main_arg2) := by
  simp only [S5, after_cons, after_nil]
  read_window

set_option maxHeartbeats 4000000 in
theorem keep_S5_main_arg3 (W : Valuation τ sig (Elt F)) :
    after (S5 (F := F)) W (Proc.devRef .tc main_arg3) = W (Proc.devRef .tc main_arg3) := by
  simp only [S5, after_cons, after_nil]
  read_window

set_option maxHeartbeats 4000000 in
theorem keep_S5_main_v3 (W : Valuation τ sig (Elt F)) :
    after (S5 (F := F)) W (Proc.devRef .tc main_v3) = W (Proc.devRef .tc main_v3) := by
  simp only [S5, after_cons, after_nil]
  read_window

set_option maxHeartbeats 4000000 in
theorem keep_S5_main_v6 (W : Valuation τ sig (Elt F)) :
    after (S5 (F := F)) W (Proc.devRef .tc main_v6) = W (Proc.devRef .tc main_v6) := by
  simp only [S5, after_cons, after_nil]
  read_window

set_option maxHeartbeats 4000000 in
theorem keep_S5_main_v34 (W : Valuation τ sig (Elt F)) :
    after (S5 (F := F)) W (Proc.devRef .tc main_v34) = W (Proc.devRef .tc main_v34) := by
  simp only [S5, after_cons, after_nil]
  read_window

set_option maxHeartbeats 4000000 in
theorem keep_S5_main_v46 (W : Valuation τ sig (Elt F)) :
    after (S5 (F := F)) W (Proc.devRef .tc main_v46) = W (Proc.devRef .tc main_v46) := by
  simp only [S5, after_cons, after_nil]
  read_window

set_option maxHeartbeats 4000000 in
theorem keep_S5_main_v70 (W : Valuation τ sig (Elt F)) :
    after (S5 (F := F)) W (Proc.devRef .tc main_v70) = W (Proc.devRef .tc main_v70) := by
  simp only [S5, after_cons, after_nil]
  read_window

set_option maxHeartbeats 4000000 in
theorem win_S6_main_v106 (W : Valuation τ sig (Elt F)) (x0 : (⟨S100000x64, .f32⟩ : BufTy).Contents (Elt F)) (x1 : (⟨S2x1600000, .i32⟩ : BufTy).Contents (Elt F))
    (h_main_v3 : W (Proc.devRef .tc main_v3) = val_main_v3 (F := F) x1)
    (h_main_v6 : W (Proc.devRef .tc main_v6) = val_main_v6 (F := F) x1)
    (h_main_v34 : W (Proc.devRef .tc main_v34) = val_main_v34 (F := F) x1)
    (h_main_v94 : W (Proc.devRef .tc main_v94) = val_main_v94 (F := F) x0 x1) :
    after (S6 (F := F)) W (Proc.devRef .tc main_v106) = val_main_v106 (F := F) x0 x1 := by
  simp only [S6, after_cons, after_nil]
  read_window
  rw [h_main_v3, h_main_v6, h_main_v34, h_main_v94]
  all_goals rfl

set_option maxHeartbeats 4000000 in
theorem keep_S6_main_arg0 (W : Valuation τ sig (Elt F)) :
    after (S6 (F := F)) W (Proc.devRef .tc main_arg0) = W (Proc.devRef .tc main_arg0) := by
  simp only [S6, after_cons, after_nil]
  read_window

set_option maxHeartbeats 4000000 in
theorem keep_S6_main_arg2 (W : Valuation τ sig (Elt F)) :
    after (S6 (F := F)) W (Proc.devRef .tc main_arg2) = W (Proc.devRef .tc main_arg2) := by
  simp only [S6, after_cons, after_nil]
  read_window

set_option maxHeartbeats 4000000 in
theorem keep_S6_main_arg3 (W : Valuation τ sig (Elt F)) :
    after (S6 (F := F)) W (Proc.devRef .tc main_arg3) = W (Proc.devRef .tc main_arg3) := by
  simp only [S6, after_cons, after_nil]
  read_window

set_option maxHeartbeats 4000000 in
theorem keep_S6_main_v3 (W : Valuation τ sig (Elt F)) :
    after (S6 (F := F)) W (Proc.devRef .tc main_v3) = W (Proc.devRef .tc main_v3) := by
  simp only [S6, after_cons, after_nil]
  read_window

set_option maxHeartbeats 4000000 in
theorem keep_S6_main_v6 (W : Valuation τ sig (Elt F)) :
    after (S6 (F := F)) W (Proc.devRef .tc main_v6) = W (Proc.devRef .tc main_v6) := by
  simp only [S6, after_cons, after_nil]
  read_window

set_option maxHeartbeats 4000000 in
theorem keep_S6_main_v34 (W : Valuation τ sig (Elt F)) :
    after (S6 (F := F)) W (Proc.devRef .tc main_v34) = W (Proc.devRef .tc main_v34) := by
  simp only [S6, after_cons, after_nil]
  read_window

set_option maxHeartbeats 4000000 in
theorem keep_S6_main_v46 (W : Valuation τ sig (Elt F)) :
    after (S6 (F := F)) W (Proc.devRef .tc main_v46) = W (Proc.devRef .tc main_v46) := by
  simp only [S6, after_cons, after_nil]
  read_window

set_option maxHeartbeats 4000000 in
theorem keep_S6_main_v70 (W : Valuation τ sig (Elt F)) :
    after (S6 (F := F)) W (Proc.devRef .tc main_v70) = W (Proc.devRef .tc main_v70) := by
  simp only [S6, after_cons, after_nil]
  read_window

set_option maxHeartbeats 4000000 in
theorem win_S7_main_v118 (W : Valuation τ sig (Elt F)) (x0 : (⟨S100000x64, .f32⟩ : BufTy).Contents (Elt F)) (x1 : (⟨S2x1600000, .i32⟩ : BufTy).Contents (Elt F))
    (h_main_v3 : W (Proc.devRef .tc main_v3) = val_main_v3 (F := F) x1)
    (h_main_v6 : W (Proc.devRef .tc main_v6) = val_main_v6 (F := F) x1)
    (h_main_v34 : W (Proc.devRef .tc main_v34) = val_main_v34 (F := F) x1)
    (h_main_v106 : W (Proc.devRef .tc main_v106) = val_main_v106 (F := F) x0 x1) :
    after (S7 (F := F)) W (Proc.devRef .tc main_v118) = val_main_v118 (F := F) x0 x1 := by
  simp only [S7, after_cons, after_nil]
  read_window
  rw [h_main_v3, h_main_v6, h_main_v34, h_main_v106]
  all_goals rfl

set_option maxHeartbeats 4000000 in
theorem keep_S7_main_arg0 (W : Valuation τ sig (Elt F)) :
    after (S7 (F := F)) W (Proc.devRef .tc main_arg0) = W (Proc.devRef .tc main_arg0) := by
  simp only [S7, after_cons, after_nil]
  read_window

set_option maxHeartbeats 4000000 in
theorem keep_S7_main_arg2 (W : Valuation τ sig (Elt F)) :
    after (S7 (F := F)) W (Proc.devRef .tc main_arg2) = W (Proc.devRef .tc main_arg2) := by
  simp only [S7, after_cons, after_nil]
  read_window

set_option maxHeartbeats 4000000 in
theorem keep_S7_main_arg3 (W : Valuation τ sig (Elt F)) :
    after (S7 (F := F)) W (Proc.devRef .tc main_arg3) = W (Proc.devRef .tc main_arg3) := by
  simp only [S7, after_cons, after_nil]
  read_window

set_option maxHeartbeats 4000000 in
theorem keep_S7_main_v46 (W : Valuation τ sig (Elt F)) :
    after (S7 (F := F)) W (Proc.devRef .tc main_v46) = W (Proc.devRef .tc main_v46) := by
  simp only [S7, after_cons, after_nil]
  read_window

set_option maxHeartbeats 4000000 in
theorem keep_S7_main_v70 (W : Valuation τ sig (Elt F)) :
    after (S7 (F := F)) W (Proc.devRef .tc main_v70) = W (Proc.devRef .tc main_v70) := by
  simp only [S7, after_cons, after_nil]
  read_window

set_option maxHeartbeats 4000000 in
/-- The last window, from the hop arrays after 1, 3 and 7 steps, the features, the weights and the bias. -/
theorem win_T (W : Valuation τ sig (Elt F)) (x0 : (⟨S100000x64, .f32⟩ : BufTy).Contents (Elt F)) (x1 : (⟨S2x1600000, .i32⟩ : BufTy).Contents (Elt F)) (x2 : (⟨S384x64, .f32⟩ : BufTy).Contents (Elt F)) (x3 : (⟨S64, .f32⟩ : BufTy).Contents (Elt F))
    (h_main_v46 : W (Proc.devRef .tc main_v46) = val_main_v46 (F := F) x0 x1)
    (h_main_v70 : W (Proc.devRef .tc main_v70) = val_main_v70 (F := F) x0 x1)
    (h_main_v118 : W (Proc.devRef .tc main_v118) = val_main_v118 (F := F) x0 x1)
    (h_main_arg0 : W (Proc.devRef .tc main_arg0) = x0)
    (h_main_arg2 : W (Proc.devRef .tc main_arg2) = x2)
    (h_main_arg3 : W (Proc.devRef .tc main_arg3) = x3) :
    after (T (F := F)) W (Proc.devRef .tc main_v127) = val_main_v127 (F := F) x0 x1 x2 x3 := by
  simp only [T, after_cons, after_nil]
  read_window
  rw [h_main_v46, h_main_v70, h_main_v118, h_main_arg0, h_main_arg2, h_main_arg3]
  all_goals rfl

/-! ## The chain -/

set_option maxHeartbeats 1000000 in
/-- After the whole line the result buffer holds the last stage of the four arguments. -/
theorem lookup (L : Valuation τ sig (Elt F)) :
    after (ops (F := F)) L (Proc.devRef .tc main_v127)
      = val_main_v127 (F := F) (L (Proc.devRef .tc main_arg0)) (L (Proc.devRef .tc main_arg1)) (L (Proc.devRef .tc main_arg2)) (L (Proc.devRef .tc main_arg3)) := by
  rw [ops_split]
  simp only [StableHlo.after_append]
  have f0_main_arg0 : L (Proc.devRef .tc main_arg0) = (L (Proc.devRef .tc main_arg0)) := rfl
  have f0_main_arg1 : L (Proc.devRef .tc main_arg1) = (L (Proc.devRef .tc main_arg1)) := rfl
  have f0_main_arg2 : L (Proc.devRef .tc main_arg2) = (L (Proc.devRef .tc main_arg2)) := rfl
  have f0_main_arg3 : L (Proc.devRef .tc main_arg3) = (L (Proc.devRef .tc main_arg3)) := rfl
  have fA_main_v3 := win_A_main_v3 L _ f0_main_arg1
  have fA_main_v6 := win_A_main_v6 L _ f0_main_arg1
  have fA_main_v7 := win_A_main_v7 L
  have fA_main_v10 := win_A_main_v10 L _ f0_main_arg1
  have fA_main_arg0 := (keep_A_main_arg0 L).trans f0_main_arg0
  have fA_main_arg2 := (keep_A_main_arg2 L).trans f0_main_arg2
  have fA_main_arg3 := (keep_A_main_arg3 L).trans f0_main_arg3
  have fB_main_v17 := win_B_main_v17 (after (A (F := F)) L) _ fA_main_v10
  have fB_main_arg0 := (keep_B_main_arg0 (after (A (F := F)) L)).trans fA_main_arg0
  have fB_main_arg2 := (keep_B_main_arg2 (after (A (F := F)) L)).trans fA_main_arg2
  have fB_main_arg3 := (keep_B_main_arg3 (after (A (F := F)) L)).trans fA_main_arg3
  have fB_main_v3 := (keep_B_main_v3 (after (A (F := F)) L)).trans fA_main_v3
  have fB_main_v6 := (keep_B_main_v6 (after (A (F := F)) L)).trans fA_main_v6
  have fB_main_v7 := (keep_B_main_v7 (after (A (F := F)) L)).trans fA_main_v7
  have fC_main_v34 := win_C_main_v34 (after (B (F := F)) (after (A (F := F)) L)) _ fB_main_v17 fB_main_v3 fB_main_v6 fB_main_v7
  have fC_main_arg0 := (keep_C_main_arg0 (after (B (F := F)) (after (A (F := F)) L))).trans fB_main_arg0
  have fC_main_arg2 := (keep_C_main_arg2 (after (B (F := F)) (after (A (F := F)) L))).trans fB_main_arg2
  have fC_main_arg3 := (keep_C_main_arg3 (after (B (F := F)) (after (A (F := F)) L))).trans fB_main_arg3
  have fC_main_v3 := (keep_C_main_v3 (after (B (F := F)) (after (A (F := F)) L))).trans fB_main_v3
  have fC_main_v6 := (keep_C_main_v6 (after (B (F := F)) (after (A (F := F)) L))).trans fB_main_v6
  have fS1_main_v46 := win_S1_main_v46 (after (C (F := F)) (after (B (F := F)) (after (A (F := F)) L))) _ _ fC_main_v3 fC_main_v6 fC_main_v34 fC_main_arg0
  have fS1_main_arg0 := (keep_S1_main_arg0 (after (C (F := F)) (after (B (F := F)) (after (A (F := F)) L)))).trans fC_main_arg0
  have fS1_main_arg2 := (keep_S1_main_arg2 (after (C (F := F)) (after (B (F := F)) (after (A (F := F)) L)))).trans fC_main_arg2
  have fS1_main_arg3 := (keep_S1_main_arg3 (after (C (F := F)) (after (B (F := F)) (after (A (F := F)) L)))).trans fC_main_arg3
  have fS1_main_v3 := (keep_S1_main_v3 (after (C (F := F)) (after (B (F := F)) (after (A (F := F)) L)))).trans fC_main_v3
  have fS1_main_v6 := (keep_S1_main_v6 (after (C (F := F)) (after (B (F := F)) (after (A (F := F)) L)))).trans fC_main_v6
  have fS1_main_v34 := (keep_S1_main_v34 (after (C (F := F)) (after (B (F := F)) (after (A (F := F)) L)))).trans fC_main_v34
  have fS2_main_v58 := win_S2_main_v58 (after (S1 (F := F)) (after (C (F := F)) (after (B (F := F)) (after (A (F := F)) L)))) _ _ fS1_main_v3 fS1_main_v6 fS1_main_v34 fS1_main_v46
  have fS2_main_arg0 := (keep_S2_main_arg0 (after (S1 (F := F)) (after (C (F := F)) (after (B (F := F)) (after (A (F := F)) L))))).trans fS1_main_arg0
  have fS2_main_arg2 := (keep_S2_main_arg2 (after (S1 (F := F)) (after (C (F := F)) (after (B (F := F)) (after (A (F := F)) L))))).trans fS1_main_arg2
  have fS2_main_arg3 := (keep_S2_main_arg3 (after (S1 (F := F)) (after (C (F := F)) (after (B (F := F)) (after (A (F := F)) L))))).trans fS1_main_arg3
  have fS2_main_v3 := (keep_S2_main_v3 (after (S1 (F := F)) (after (C (F := F)) (after (B (F := F)) (after (A (F := F)) L))))).trans fS1_main_v3
  have fS2_main_v6 := (keep_S2_main_v6 (after (S1 (F := F)) (after (C (F := F)) (after (B (F := F)) (after (A (F := F)) L))))).trans fS1_main_v6
  have fS2_main_v34 := (keep_S2_main_v34 (after (S1 (F := F)) (after (C (F := F)) (after (B (F := F)) (after (A (F := F)) L))))).trans fS1_main_v34
  have fS2_main_v46 := (keep_S2_main_v46 (after (S1 (F := F)) (after (C (F := F)) (after (B (F := F)) (after (A (F := F)) L))))).trans fS1_main_v46
  have fS3_main_v70 := win_S3_main_v70 (after (S2 (F := F)) (after (S1 (F := F)) (after (C (F := F)) (after (B (F := F)) (after (A (F := F)) L))))) _ _ fS2_main_v3 fS2_main_v6 fS2_main_v34 fS2_main_v58
  have fS3_main_arg0 := (keep_S3_main_arg0 (after (S2 (F := F)) (after (S1 (F := F)) (after (C (F := F)) (after (B (F := F)) (after (A (F := F)) L)))))).trans fS2_main_arg0
  have fS3_main_arg2 := (keep_S3_main_arg2 (after (S2 (F := F)) (after (S1 (F := F)) (after (C (F := F)) (after (B (F := F)) (after (A (F := F)) L)))))).trans fS2_main_arg2
  have fS3_main_arg3 := (keep_S3_main_arg3 (after (S2 (F := F)) (after (S1 (F := F)) (after (C (F := F)) (after (B (F := F)) (after (A (F := F)) L)))))).trans fS2_main_arg3
  have fS3_main_v3 := (keep_S3_main_v3 (after (S2 (F := F)) (after (S1 (F := F)) (after (C (F := F)) (after (B (F := F)) (after (A (F := F)) L)))))).trans fS2_main_v3
  have fS3_main_v6 := (keep_S3_main_v6 (after (S2 (F := F)) (after (S1 (F := F)) (after (C (F := F)) (after (B (F := F)) (after (A (F := F)) L)))))).trans fS2_main_v6
  have fS3_main_v34 := (keep_S3_main_v34 (after (S2 (F := F)) (after (S1 (F := F)) (after (C (F := F)) (after (B (F := F)) (after (A (F := F)) L)))))).trans fS2_main_v34
  have fS3_main_v46 := (keep_S3_main_v46 (after (S2 (F := F)) (after (S1 (F := F)) (after (C (F := F)) (after (B (F := F)) (after (A (F := F)) L)))))).trans fS2_main_v46
  have fS4_main_v82 := win_S4_main_v82 (after (S3 (F := F)) (after (S2 (F := F)) (after (S1 (F := F)) (after (C (F := F)) (after (B (F := F)) (after (A (F := F)) L)))))) _ _ fS3_main_v3 fS3_main_v6 fS3_main_v34 fS3_main_v70
  have fS4_main_arg0 := (keep_S4_main_arg0 (after (S3 (F := F)) (after (S2 (F := F)) (after (S1 (F := F)) (after (C (F := F)) (after (B (F := F)) (after (A (F := F)) L))))))).trans fS3_main_arg0
  have fS4_main_arg2 := (keep_S4_main_arg2 (after (S3 (F := F)) (after (S2 (F := F)) (after (S1 (F := F)) (after (C (F := F)) (after (B (F := F)) (after (A (F := F)) L))))))).trans fS3_main_arg2
  have fS4_main_arg3 := (keep_S4_main_arg3 (after (S3 (F := F)) (after (S2 (F := F)) (after (S1 (F := F)) (after (C (F := F)) (after (B (F := F)) (after (A (F := F)) L))))))).trans fS3_main_arg3
  have fS4_main_v3 := (keep_S4_main_v3 (after (S3 (F := F)) (after (S2 (F := F)) (after (S1 (F := F)) (after (C (F := F)) (after (B (F := F)) (after (A (F := F)) L))))))).trans fS3_main_v3
  have fS4_main_v6 := (keep_S4_main_v6 (after (S3 (F := F)) (after (S2 (F := F)) (after (S1 (F := F)) (after (C (F := F)) (after (B (F := F)) (after (A (F := F)) L))))))).trans fS3_main_v6
  have fS4_main_v34 := (keep_S4_main_v34 (after (S3 (F := F)) (after (S2 (F := F)) (after (S1 (F := F)) (after (C (F := F)) (after (B (F := F)) (after (A (F := F)) L))))))).trans fS3_main_v34
  have fS4_main_v46 := (keep_S4_main_v46 (after (S3 (F := F)) (after (S2 (F := F)) (after (S1 (F := F)) (after (C (F := F)) (after (B (F := F)) (after (A (F := F)) L))))))).trans fS3_main_v46
  have fS4_main_v70 := (keep_S4_main_v70 (after (S3 (F := F)) (after (S2 (F := F)) (after (S1 (F := F)) (after (C (F := F)) (after (B (F := F)) (after (A (F := F)) L))))))).trans fS3_main_v70
  have fS5_main_v94 := win_S5_main_v94 (after (S4 (F := F)) (after (S3 (F := F)) (after (S2 (F := F)) (after (S1 (F := F)) (after (C (F := F)) (after (B (F := F)) (after (A (F := F)) L))))))) _ _ fS4_main_v3 fS4_main_v6 fS4_main_v34 fS4_main_v82
  have fS5_main_arg0 := (keep_S5_main_arg0 (after (S4 (F := F)) (after (S3 (F := F)) (after (S2 (F := F)) (after (S1 (F := F)) (after (C (F := F)) (after (B (F := F)) (after (A (F := F)) L)))))))).trans fS4_main_arg0
  have fS5_main_arg2 := (keep_S5_main_arg2 (after (S4 (F := F)) (after (S3 (F := F)) (after (S2 (F := F)) (after (S1 (F := F)) (after (C (F := F)) (after (B (F := F)) (after (A (F := F)) L)))))))).trans fS4_main_arg2
  have fS5_main_arg3 := (keep_S5_main_arg3 (after (S4 (F := F)) (after (S3 (F := F)) (after (S2 (F := F)) (after (S1 (F := F)) (after (C (F := F)) (after (B (F := F)) (after (A (F := F)) L)))))))).trans fS4_main_arg3
  have fS5_main_v3 := (keep_S5_main_v3 (after (S4 (F := F)) (after (S3 (F := F)) (after (S2 (F := F)) (after (S1 (F := F)) (after (C (F := F)) (after (B (F := F)) (after (A (F := F)) L)))))))).trans fS4_main_v3
  have fS5_main_v6 := (keep_S5_main_v6 (after (S4 (F := F)) (after (S3 (F := F)) (after (S2 (F := F)) (after (S1 (F := F)) (after (C (F := F)) (after (B (F := F)) (after (A (F := F)) L)))))))).trans fS4_main_v6
  have fS5_main_v34 := (keep_S5_main_v34 (after (S4 (F := F)) (after (S3 (F := F)) (after (S2 (F := F)) (after (S1 (F := F)) (after (C (F := F)) (after (B (F := F)) (after (A (F := F)) L)))))))).trans fS4_main_v34
  have fS5_main_v46 := (keep_S5_main_v46 (after (S4 (F := F)) (after (S3 (F := F)) (after (S2 (F := F)) (after (S1 (F := F)) (after (C (F := F)) (after (B (F := F)) (after (A (F := F)) L)))))))).trans fS4_main_v46
  have fS5_main_v70 := (keep_S5_main_v70 (after (S4 (F := F)) (after (S3 (F := F)) (after (S2 (F := F)) (after (S1 (F := F)) (after (C (F := F)) (after (B (F := F)) (after (A (F := F)) L)))))))).trans fS4_main_v70
  have fS6_main_v106 := win_S6_main_v106 (after (S5 (F := F)) (after (S4 (F := F)) (after (S3 (F := F)) (after (S2 (F := F)) (after (S1 (F := F)) (after (C (F := F)) (after (B (F := F)) (after (A (F := F)) L)))))))) _ _ fS5_main_v3 fS5_main_v6 fS5_main_v34 fS5_main_v94
  have fS6_main_arg0 := (keep_S6_main_arg0 (after (S5 (F := F)) (after (S4 (F := F)) (after (S3 (F := F)) (after (S2 (F := F)) (after (S1 (F := F)) (after (C (F := F)) (after (B (F := F)) (after (A (F := F)) L))))))))).trans fS5_main_arg0
  have fS6_main_arg2 := (keep_S6_main_arg2 (after (S5 (F := F)) (after (S4 (F := F)) (after (S3 (F := F)) (after (S2 (F := F)) (after (S1 (F := F)) (after (C (F := F)) (after (B (F := F)) (after (A (F := F)) L))))))))).trans fS5_main_arg2
  have fS6_main_arg3 := (keep_S6_main_arg3 (after (S5 (F := F)) (after (S4 (F := F)) (after (S3 (F := F)) (after (S2 (F := F)) (after (S1 (F := F)) (after (C (F := F)) (after (B (F := F)) (after (A (F := F)) L))))))))).trans fS5_main_arg3
  have fS6_main_v3 := (keep_S6_main_v3 (after (S5 (F := F)) (after (S4 (F := F)) (after (S3 (F := F)) (after (S2 (F := F)) (after (S1 (F := F)) (after (C (F := F)) (after (B (F := F)) (after (A (F := F)) L))))))))).trans fS5_main_v3
  have fS6_main_v6 := (keep_S6_main_v6 (after (S5 (F := F)) (after (S4 (F := F)) (after (S3 (F := F)) (after (S2 (F := F)) (after (S1 (F := F)) (after (C (F := F)) (after (B (F := F)) (after (A (F := F)) L))))))))).trans fS5_main_v6
  have fS6_main_v34 := (keep_S6_main_v34 (after (S5 (F := F)) (after (S4 (F := F)) (after (S3 (F := F)) (after (S2 (F := F)) (after (S1 (F := F)) (after (C (F := F)) (after (B (F := F)) (after (A (F := F)) L))))))))).trans fS5_main_v34
  have fS6_main_v46 := (keep_S6_main_v46 (after (S5 (F := F)) (after (S4 (F := F)) (after (S3 (F := F)) (after (S2 (F := F)) (after (S1 (F := F)) (after (C (F := F)) (after (B (F := F)) (after (A (F := F)) L))))))))).trans fS5_main_v46
  have fS6_main_v70 := (keep_S6_main_v70 (after (S5 (F := F)) (after (S4 (F := F)) (after (S3 (F := F)) (after (S2 (F := F)) (after (S1 (F := F)) (after (C (F := F)) (after (B (F := F)) (after (A (F := F)) L))))))))).trans fS5_main_v70
  have fS7_main_v118 := win_S7_main_v118 (after (S6 (F := F)) (after (S5 (F := F)) (after (S4 (F := F)) (after (S3 (F := F)) (after (S2 (F := F)) (after (S1 (F := F)) (after (C (F := F)) (after (B (F := F)) (after (A (F := F)) L))))))))) _ _ fS6_main_v3 fS6_main_v6 fS6_main_v34 fS6_main_v106
  have fS7_main_arg0 := (keep_S7_main_arg0 (after (S6 (F := F)) (after (S5 (F := F)) (after (S4 (F := F)) (after (S3 (F := F)) (after (S2 (F := F)) (after (S1 (F := F)) (after (C (F := F)) (after (B (F := F)) (after (A (F := F)) L)))))))))).trans fS6_main_arg0
  have fS7_main_arg2 := (keep_S7_main_arg2 (after (S6 (F := F)) (after (S5 (F := F)) (after (S4 (F := F)) (after (S3 (F := F)) (after (S2 (F := F)) (after (S1 (F := F)) (after (C (F := F)) (after (B (F := F)) (after (A (F := F)) L)))))))))).trans fS6_main_arg2
  have fS7_main_arg3 := (keep_S7_main_arg3 (after (S6 (F := F)) (after (S5 (F := F)) (after (S4 (F := F)) (after (S3 (F := F)) (after (S2 (F := F)) (after (S1 (F := F)) (after (C (F := F)) (after (B (F := F)) (after (A (F := F)) L)))))))))).trans fS6_main_arg3
  have fS7_main_v46 := (keep_S7_main_v46 (after (S6 (F := F)) (after (S5 (F := F)) (after (S4 (F := F)) (after (S3 (F := F)) (after (S2 (F := F)) (after (S1 (F := F)) (after (C (F := F)) (after (B (F := F)) (after (A (F := F)) L)))))))))).trans fS6_main_v46
  have fS7_main_v70 := (keep_S7_main_v70 (after (S6 (F := F)) (after (S5 (F := F)) (after (S4 (F := F)) (after (S3 (F := F)) (after (S2 (F := F)) (after (S1 (F := F)) (after (C (F := F)) (after (B (F := F)) (after (A (F := F)) L)))))))))).trans fS6_main_v70
  exact win_T (after (S7 (F := F)) (after (S6 (F := F)) (after (S5 (F := F)) (after (S4 (F := F)) (after (S3 (F := F)) (after (S2 (F := F)) (after (S1 (F := F)) (after (C (F := F)) (after (B (F := F)) (after (A (F := F)) L)))))))))) _ _ _ _ fS7_main_v46 fS7_main_v70 fS7_main_v118 fS7_main_arg0 fS7_main_arg2 fS7_main_arg3

/-! ## The arguments are never written -/

set_option maxHeartbeats 4000000 in
theorem kept_main_arg0 (L : Valuation τ sig (Elt F)) : after (ops (F := F)) L (Proc.devRef .tc main_arg0) = L (Proc.devRef .tc main_arg0) :=
  StableHlo.after_of_forall_not_mem (b := Proc.devRef .tc main_arg0) _ _ (List.forall_iff_forall_mem.mp (by
    simp only [ops, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
set_option maxHeartbeats 4000000 in
theorem kept_main_arg1 (L : Valuation τ sig (Elt F)) : after (ops (F := F)) L (Proc.devRef .tc main_arg1) = L (Proc.devRef .tc main_arg1) :=
  StableHlo.after_of_forall_not_mem (b := Proc.devRef .tc main_arg1) _ _ (List.forall_iff_forall_mem.mp (by
    simp only [ops, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
set_option maxHeartbeats 4000000 in
theorem kept_main_arg2 (L : Valuation τ sig (Elt F)) : after (ops (F := F)) L (Proc.devRef .tc main_arg2) = L (Proc.devRef .tc main_arg2) :=
  StableHlo.after_of_forall_not_mem (b := Proc.devRef .tc main_arg2) _ _ (List.forall_iff_forall_mem.mp (by
    simp only [ops, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
set_option maxHeartbeats 4000000 in
theorem kept_main_arg3 (L : Valuation τ sig (Elt F)) : after (ops (F := F)) L (Proc.devRef .tc main_arg3) = L (Proc.devRef .tc main_arg3) :=
  StableHlo.after_of_forall_not_mem (b := Proc.devRef .tc main_arg3) _ _ (List.forall_iff_forall_mem.mp (by
    simp only [ops, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-! ## The run -/

/-- Every weakly fair execution of the reference terminates with the result buffer at the last stage of the
    arguments and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v127)
        = val_main_v127 (F := Ideal) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v127).trans (lookup _),
      (h c main_arg0).trans (kept_main_arg0 _), (h c main_arg1).trans (kept_main_arg1 _),
      (h c main_arg2).trans (kept_main_arg2 _), (h c main_arg3).trans (kept_main_arg3 _)⟩)
    (run_seq scopedRefs_eq scopedSems_eq defs main (fun _ => ops) main_eq (fun _ => ops_sub) m ρ)

end Cert.ReferenceIdeal.RefRun

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.KernelPayload.lean ====
/-
  The kernel body's arithmetic at one entry of its output block.

  The body loads four blocks of hop rows x0 x1 x2 x4 (5000 x 64), four 64 x 64 weight blocks wa wb wc wd and the bias row
  b2 (1 x 64), and stores  max(((x0·wa + x1·wb) + x2·wc) + x4·wd + b2, 0).  At the ideal instance the casts to bf16 are
  the identity and each product into a zero accumulator is the plain sum over the contracted coordinate, so entry (p, q)
  of the stored block is
      max( (((Σ_k x0(p,k)·wa(k,q) + Σ_k x1(p,k)·wb(k,q)) + Σ_k x2(p,k)·wc(k,q)) + Σ_k x4(p,k)·wd(k,q)) + b2(0,q), 0 ).
-/
import proofs.«120427_j8718783611088_1_alg».proof.Proof.Gen.KernelIdeal.Skeleton
import proofs.«120427_j8718783611088_1_alg».proof.Proof.LibColumnBlocks
import Idealize.ShloMosaic.Lib.ValueLayout

noncomputable section

open scoped BigOperators

namespace Cert.KernelIdeal.Payload

open Cert.KernelIdeal Cert.KernelIdeal.Gen Idealize.ShloMosaic Idealize.ShloMosaic.ValueIdx

/-- On the product's record, the left operand's row coordinate is the result's row coordinate … -/
theorem lhs_row (j : S5000x64.Idx) (k : dot_S5000x64_S64x64_S5000x64_1_0_0_1_n_n.contr.Idx) : (dot_S5000x64_S64x64_S5000x64_1_0_0_1_n_n.lhsIdx j k 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- … and the right operand's column coordinate is the result's column coordinate. -/
theorem rhs_col (j : S5000x64.Idx) (k : dot_S5000x64_S64x64_S5000x64_1_0_0_1_n_n.contr.Idx) : (dot_S5000x64_S64x64_S5000x64_1_0_0_1_n_n.rhsIdx j k 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- One product of the body into a zero accumulator, at (p, q): the sum over the 64 contracted coordinates. -/
theorem product_apply {φ₁ φ₂ : FTy} (l : FVec Ideal S5000x64 φ₁) (r : FVec Ideal S64x64 φ₂) (p : Fin 5000) (q : Fin 64) :
    matmul dot_S5000x64_S64x64_S5000x64_1_0_0_1_n_n none l r (constant S5000x64 .f32 0x00000000#32) (ix2 p q) = ∑ k : Fin 64, l (ix2 p k) * r (ix2 k q) :=
  Cert.LibColumnBlocks.matmul_zero_apply dot_S5000x64_S64x64_S5000x64_1_0_0_1_n_n rfl rfl rfl rfl lhs_row rhs_col l r p q none

/-- THE BODY'S STORED VALUE AT (p, q). -/
theorem pay_apply (x0 x1 x2 x4 : Vec Ideal S5000x64 .f32) (wa wb wc wd : Vec Ideal S64x64 .f32) (b2 : Vec Ideal S1x64 .f32)
    (p : Fin 5000) (q : Fin 64) :
    k0_pay1 (F := Ideal) x0 x1 x2 x4 wa wb wc wd b2 (ix2 p q)
      = max (((((∑ k : Fin 64, x0 (ix2 p k) * wa (ix2 k q)) + ∑ k : Fin 64, x1 (ix2 p k) * wb (ix2 k q))
            + ∑ k : Fin 64, x2 (ix2 p k) * wc (ix2 k q)) + ∑ k : Fin 64, x4 (ix2 p k) * wd (ix2 k q))
            + b2 (ix2 (0 : Fin 1) q)) (Ideal.ofBits .f32 0x00000000#32) := by
  show max (((((matmul (F := Ideal) dot_S5000x64_S64x64_S5000x64_1_0_0_1_n_n none (truncf .bf16 x0 _) (truncf .bf16 (shapeCast S64x64 wa _) _) (constant S5000x64 .f32 0x00000000#32) (ix2 p q))
        + matmul (F := Ideal) dot_S5000x64_S64x64_S5000x64_1_0_0_1_n_n none (truncf .bf16 (shapeCast S5000x64 x1 _) _) (truncf .bf16 (shapeCast S64x64 wb _) _) (constant S5000x64 .f32 0x00000000#32) (ix2 p q))
        + matmul (F := Ideal) dot_S5000x64_S64x64_S5000x64_1_0_0_1_n_n none (truncf .bf16 (shapeCast S5000x64 x2 _) _) (truncf .bf16 (shapeCast S64x64 wc _) _) (constant S5000x64 .f32 0x00000000#32) (ix2 p q))
        + matmul (F := Ideal) dot_S5000x64_S64x64_S5000x64_1_0_0_1_n_n none (truncf .bf16 (shapeCast S5000x64 x4 _) _) (truncf .bf16 (shapeCast S64x64 wd _) _) (constant S5000x64 .f32 0x00000000#32) (ix2 p q))
        + broadcastTo S5000x64 (shapeCast S1x64 b2 _) _ (ix2 p q)) (Ideal.ofBits .f32 0x00000000#32) = _
  rw [product_apply, product_apply, product_apply, product_apply, broadcastTo_1b_ab_apply]
  simp only [shapeCast_self]
  rfl

end Cert.KernelIdeal.Payload

end
-- ==== Proof.CombinedArray.lean ====
/-
  The kernel's result array as one function of the arrays its windows stage: entry (p, q) is row p of the four hop
  arrays against column q of the four folded weight blocks, plus entry q of the bias row, floored at 0.
-/
import proofs.«120427_j8718783611088_1_alg».proof.KernelIdeal
import Idealize.ShloMosaic.PureOps.Ideal
import Idealize.ShloMosaic.Lib.ValueIdx

noncomputable section

open scoped BigOperators

namespace Cert.KernelIdeal.Blocks

open Cert.KernelIdeal Idealize.ShloMosaic Idealize.ShloMosaic.ValueIdx

/-- Entry (p, q) of the result as a function of the staged arrays: the hop rows against the weight columns, plus the
    bias, floored at 0. -/
def combineAt (a0 a1 a2 a4 : S100000x64.Idx → EReal) (wa wb wc wd : S64x64.Idx → EReal) (b2 : S1x64.Idx → EReal)
    (p : Fin 100000) (q : Fin 64) : EReal :=
  max (((((∑ k : Fin 64, a0 (ix2 p k) * wa (ix2 k q)) + ∑ k : Fin 64, a1 (ix2 p k) * wb (ix2 k q))
      + ∑ k : Fin 64, a2 (ix2 p k) * wc (ix2 k q)) + ∑ k : Fin 64, a4 (ix2 p k) * wd (ix2 k q))
      + b2 (ix2 (0 : Fin 1) q)) (Ideal.ofBits .f32 0x00000000#32)

/-- The whole result array. -/
def combine (a0 a1 a2 a4 : S100000x64.Idx → EReal) (wa wb wc wd : S64x64.Idx → EReal) (b2 : S1x64.Idx → EReal) :
    S100000x64.Idx → EReal :=
  fun i => combineAt a0 a1 a2 a4 wa wb wc wd b2 ⟨(i 0).val, (i 0).isLt⟩ ⟨(i 1).val, (i 1).isLt⟩

theorem combine_ix2 (a0 a1 a2 a4 : S100000x64.Idx → EReal) (wa wb wc wd : S64x64.Idx → EReal) (b2 : S1x64.Idx → EReal)
    (p : Fin 100000) (q : Fin 64) :
    combine a0 a1 a2 a4 wa wb wc wd b2 (ix2 p q) = combineAt a0 a1 a2 a4 wa wb wc wd b2 p q := rfl

end Cert.KernelIdeal.Blocks

end
-- ==== Proof.KernelBlocks.lean ====
/-
  From blocks to the array: what the kernel's result array holds after the run.

  The grid has 20 points. Point t stages rows 5000·t … 5000·t + 4999 of each of the four hop arrays, the four 64 x 64
  weight blocks and the bias row whole, and writes back rows 5000·t … 5000·t + 4999 of the result. So what point t
  writes back is block t of ONE function of the staged arrays — entry (r, q) is the body's arithmetic on row r of the
  hop arrays and column q of the weight blocks —, the 20 blocks cover the 100000 rows (row r lies in block r / 5000),
  and the array after the run is that function.
-/
import proofs.«120427_j8718783611088_1_alg».proof.Proof.Gen.KernelIdeal.Value
import proofs.«120427_j8718783611088_1_alg».proof.Proof.KernelPayload
import proofs.«120427_j8718783611088_1_alg».proof.Proof.CombinedArray

set_option maxRecDepth 16384

noncomputable section

open scoped BigOperators

namespace Cert.KernelIdeal.Blocks

open Cert.KernelIdeal Cert.KernelIdeal.Gen Cert.KernelIdeal.Value Cert.KernelIdeal.Payload
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

set_option maxHeartbeats 4000000 in
/-- The printed index maps, decided over the 20 grid points: the four hop windows move with the result window along
    the rows and stay at column block 0; the weight and bias windows stay at block (0, 0). -/
theorem index_facts : ∀ t : Fin cfg0.N, win0_0.index t (0 : Fin 2) = win0_9.index t (0 : Fin 2)
    ∧ win0_0.index t (1 : Fin 2) = 0
    ∧ win0_1.index t (0 : Fin 2) = win0_9.index t (0 : Fin 2)
    ∧ win0_1.index t (1 : Fin 2) = 0
    ∧ win0_2.index t (0 : Fin 2) = win0_9.index t (0 : Fin 2)
    ∧ win0_2.index t (1 : Fin 2) = 0
    ∧ win0_3.index t (0 : Fin 2) = win0_9.index t (0 : Fin 2)
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) ≤ 19
    ∧ win0_9.index t (1 : Fin 2) = 0 :=
  (by decide +kernel : ∀ t : Fin grid0.N, _)

set_option maxHeartbeats 4000000 in
/-- Every row block is some point's. -/
theorem index_onto : ∀ b : Fin 20, ∃ t : Fin cfg0.N, win0_9.index t = ![b.val, 0] :=
  (by decide +kernel : ∀ b : Fin 20, ∃ t : Fin grid0.N, win0_9.index t = ![b.val, 0])

/-- A block written back through the result window IS the block of an array G as soon as it agrees with G entry by
    entry where the block sits (the block and the array are arbitrary here). -/
theorem cut_eq_read {P : Vec Ideal S5000x64 .f32} {G : S100000x64.Idx → EReal} (t : Fin cfg0.N)
    (h : ∀ (p : Fin 5000) (q : Fin 64), P (ix2 p q) = G (((cfg0.win 9).blk t).view.emb (ix2 p q))) :
    (cfg0.win 9).cut (grid0.coords t) P = ((cfg0.win 9).blk t).view.read (Elt Ideal) G := by
  funext j
  obtain ⟨p, q, rfl⟩ : ∃ (p : Fin 5000) (q : Fin 64), j = ix2 p q := ⟨j 0, j 1, eq_ix2 j⟩
  show P ((cfg0.win 9).xinj (grid0.coords t) (ix2 p q)) = G (((cfg0.win 9).blk t).view.emb (ix2 p q))
  have hx : (cfg0.win 9).xinj (grid0.coords t) (ix2 p q) = ix2 p q := funext fun a => Fin.ext rfl
  rw [hx]
  exact h p q

set_option maxHeartbeats 4000000 in
/-- One entry: blocks x0 … b2 that are the arrays A0 … B2 read where point t's windows sit give, by the body's
    arithmetic at (p, q), the combined array at the place entry (p, q) of point t's result block sits. -/
theorem entry_eq (t : Fin cfg0.N) (p : Fin 5000) (q : Fin 64)
    (A0 A1 A2 A4 : S100000x64.Idx → EReal) (Wa Wb Wc Wd : S64x64.Idx → EReal) (B2 : S1x64.Idx → EReal)
    (x0 x1 x2 x4 : Vec Ideal S5000x64 .f32) (wa wb wc wd : Vec Ideal S64x64 .f32) (b2 : Vec Ideal S1x64 .f32)
    (h0 : ∀ y, x0 y = A0 (((cfg0.win 0).blk t).view.emb y))
    (h1 : ∀ y, x1 y = A1 (((cfg0.win 1).blk t).view.emb y))
    (h2 : ∀ y, x2 y = A2 (((cfg0.win 2).blk t).view.emb y))
    (h3 : ∀ y, x4 y = A4 (((cfg0.win 3).blk t).view.emb y))
    (h4 : ∀ y, wa y = Wa (((cfg0.win 4).blk t).view.emb y))
    (h5 : ∀ y, wb y = Wb (((cfg0.win 5).blk t).view.emb y))
    (h6 : ∀ y, wc y = Wc (((cfg0.win 6).blk t).view.emb y))
    (h7 : ∀ y, wd y = Wd (((cfg0.win 7).blk t).view.emb y))
    (h8 : ∀ y, b2 y = B2 (((cfg0.win 8).blk t).view.emb y)) :
    max (((((∑ k : Fin 64, x0 (ix2 p k) * wa (ix2 k q)) + (∑ k : Fin 64, x1 (ix2 p k) * wb (ix2 k q)))
        + (∑ k : Fin 64, x2 (ix2 p k) * wc (ix2 k q))) + (∑ k : Fin 64, x4 (ix2 p k) * wd (ix2 k q)))
        + b2 (ix2 (0 : Fin 1) q)) (Ideal.ofBits .f32 0x00000000#32)
      = combine A0 A1 A2 A4 Wa Wb Wc Wd B2 (((cfg0.win 9).blk t).view.emb (ix2 p q)) := by
  obtain ⟨f0, f1, f2, f3, f4, f5, f6, f7, f8, f9, f10, f11, f12, f13, f14, f15, f16, f17, f18, f19⟩ := index_facts t
  have hp : p.val < 5000 := p.isLt
  have hq : q.val < 64 := q.isLt
  -- the array index of entry (p, q) of block t, as a row and a column
  have hR : win0_9.index t (0 : Fin 2) * 5000 + 1 * p.val < 100000 := by omega
  have hQ : win0_9.index t (1 : Fin 2) * 64 + 1 * q.val < 64 := by omega
  let R : Fin 100000 := ⟨win0_9.index t (0 : Fin 2) * 5000 + 1 * p.val, hR⟩
  let Q : Fin 64 := ⟨win0_9.index t (1 : Fin 2) * 64 + 1 * q.val, hQ⟩
  have hI : ((cfg0.win 9).blk t).view.emb (ix2 p q) = ix2 R Q := by
    funext a; apply Fin.ext
    match a with
    | ⟨0, _⟩ => rfl
    | ⟨1, _⟩ => rfl
  rw [hI, combine_ix2]
  have hr0 : ∀ k : Fin 64, ((cfg0.win 0).blk t).view.emb (ix2 p k) = ix2 R k := fun k => by
    funext a; apply Fin.ext
    match a with
    | ⟨0, _⟩ => show win0_0.index t (0 : Fin 2) * 5000 + 1 * p.val = win0_9.index t (0 : Fin 2) * 5000 + 1 * p.val; omega
    | ⟨1, _⟩ => show win0_0.index t (1 : Fin 2) * 64 + 1 * k.val = k.val; omega
  have hr1 : ∀ k : Fin 64, ((cfg0.win 1).blk t).view.emb (ix2 p k) = ix2 R k := fun k => by
    funext a; apply Fin.ext
    match a with
    | ⟨0, _⟩ => show win0_1.index t (0 : Fin 2) * 5000 + 1 * p.val = win0_9.index t (0 : Fin 2) * 5000 + 1 * p.val; omega
    | ⟨1, _⟩ => show win0_1.index t (1 : Fin 2) * 64 + 1 * k.val = k.val; omega
  have hr2 : ∀ k : Fin 64, ((cfg0.win 2).blk t).view.emb (ix2 p k) = ix2 R k := fun k => by
    funext a; apply Fin.ext
    match a with
    | ⟨0, _⟩ => show win0_2.index t (0 : Fin 2) * 5000 + 1 * p.val = win0_9.index t (0 : Fin 2) * 5000 + 1 * p.val; omega
    | ⟨1, _⟩ => show win0_2.index t (1 : Fin 2) * 64 + 1 * k.val = k.val; omega
  have hr3 : ∀ k : Fin 64, ((cfg0.win 3).blk t).view.emb (ix2 p k) = ix2 R k := fun k => by
    funext a; apply Fin.ext
    match a with
    | ⟨0, _⟩ => show win0_3.index t (0 : Fin 2) * 5000 + 1 * p.val = win0_9.index t (0 : Fin 2) * 5000 + 1 * p.val; omega
    | ⟨1, _⟩ => show win0_3.index t (1 : Fin 2) * 64 + 1 * k.val = k.val; omega
  have hc4 : ∀ k : Fin 64, ((cfg0.win 4).blk t).view.emb (ix2 k q) = ix2 k Q := fun k => by
    funext a; apply Fin.ext
    match a with
    | ⟨0, _⟩ => show win0_4.index t (0 : Fin 2) * 64 + 1 * k.val = k.val; omega
    | ⟨1, _⟩ => show win0_4.index t (1 : Fin 2) * 64 + 1 * q.val = win0_9.index t (1 : Fin 2) * 64 + 1 * q.val; omega
  have hc5 : ∀ k : Fin 64, ((cfg0.win 5).blk t).view.emb (ix2 k q) = ix2 k Q := fun k => by
    funext a; apply Fin.ext
    match a with
    | ⟨0, _⟩ => show win0_5.index t (0 : Fin 2) * 64 + 1 * k.val = k.val; omega
    | ⟨1, _⟩ => show win0_5.index t (1 : Fin 2) * 64 + 1 * q.val = win0_9.index t (1 : Fin 2) * 64 + 1 * q.val; omega
  have hc6 : ∀ k : Fin 64, ((cfg0.win 6).blk t).view.emb (ix2 k q) = ix2 k Q := fun k => by
    funext a; apply Fin.ext
    match a with
    | ⟨0, _⟩ => show win0_6.index t (0 : Fin 2) * 64 + 1 * k.val = k.val; omega
    | ⟨1, _⟩ => show win0_6.index t (1 : Fin 2) * 64 + 1 * q.val = win0_9.index t (1 : Fin 2) * 64 + 1 * q.val; omega
  have hc7 : ∀ k : Fin 64, ((cfg0.win 7).blk t).view.emb (ix2 k q) = ix2 k Q := fun k => by
    funext a; apply Fin.ext
    match a with
    | ⟨0, _⟩ => show win0_7.index t (0 : Fin 2) * 64 + 1 * k.val = k.val; omega
    | ⟨1, _⟩ => show win0_7.index t (1 : Fin 2) * 64 + 1 * q.val = win0_9.index t (1 : Fin 2) * 64 + 1 * q.val; omega
  have hb : ((cfg0.win 8).blk t).view.emb (ix2 (0 : Fin 1) q) = ix2 (0 : Fin 1) Q := by
    funext a; apply Fin.ext
    match a with
    | ⟨0, _⟩ => show win0_8.index t (0 : Fin 2) * 1 + 1 * 0 = 0; omega
    | ⟨1, _⟩ => show win0_8.index t (1 : Fin 2) * 64 + 1 * q.val = win0_9.index t (1 : Fin 2) * 64 + 1 * q.val; omega
  unfold combineAt
  simp only [h0, h1, h2, h3, h4, h5, h6, h7, h8, hr0, hr1, hr2, hr3, hc4, hc5, hc6, hc7, hb]

set_option maxHeartbeats 4000000 in
/-- WHAT POINT t WRITES BACK is block t of the combined array of the arrays the windows stage. -/
theorem flushed_eq (c : Dev nD) (t : Fin cfg0.N) :
    (dats m 0 c).flushed 9 t = ((cfg0.win 9).blk t).view.read (Elt Ideal)
      (combine (V m c main_arg0) (V m c main_v46) (V m c main_v70) (V m c main_v118) (V m c main_v122) (V m c main_v126) (V m c main_v128) (V m c main_v129) (V m c main_v130)) := by
  rw [flushed9]
  unfold out0_9
  rw [View.canon_unit_zero origin]
  simp only [View.ld_unit_zero (S := S5000x64) origin, View.ld_unit_zero (S := S64x64) origin, View.ld_unit_zero (S := S1x64) origin]
  refine cut_eq_read t fun p q => ?_
  refine (pay_apply _ _ _ _ _ _ _ _ _ p q).trans ?_
  unfold iblk
  -- from here on the arrays the region finds are opaque: only WHICH array a window reads matters
  generalize V m c = VV
  -- a window's block read at an entry is its array read where the block sits
  exact entry_eq t p q (VV main_arg0) (VV main_v46) (VV main_v70) (VV main_v118) (VV main_v122) (VV main_v126) (VV main_v128) (VV main_v129) (VV main_v130)
    (((cfg0.win 0).blk t).view.read (Elt Ideal) (VV (Pipeline.arrRef spec0 0)))
    (((cfg0.win 1).blk t).view.read (Elt Ideal) (VV (Pipeline.arrRef spec0 1)))
    (((cfg0.win 2).blk t).view.read (Elt Ideal) (VV (Pipeline.arrRef spec0 2)))
    (((cfg0.win 3).blk t).view.read (Elt Ideal) (VV (Pipeline.arrRef spec0 3)))
    (((cfg0.win 4).blk t).view.read (Elt Ideal) (VV (Pipeline.arrRef spec0 4)))
    (((cfg0.win 5).blk t).view.read (Elt Ideal) (VV (Pipeline.arrRef spec0 5)))
    (((cfg0.win 6).blk t).view.read (Elt Ideal) (VV (Pipeline.arrRef spec0 6)))
    (((cfg0.win 7).blk t).view.read (Elt Ideal) (VV (Pipeline.arrRef spec0 7)))
    (((cfg0.win 8).blk t).view.read (Elt Ideal) (VV (Pipeline.arrRef spec0 8)))
    (fun _ => eq_of_heq (cast_heq _ _)) (fun _ => eq_of_heq (cast_heq _ _)) (fun _ => eq_of_heq (cast_heq _ _)) (fun _ => eq_of_heq (cast_heq _ _)) (fun _ => eq_of_heq (cast_heq _ _)) (fun _ => eq_of_heq (cast_heq _ _)) (fun _ => eq_of_heq (cast_heq _ _)) (fun _ => eq_of_heq (cast_heq _ _)) (fun _ => eq_of_heq (cast_heq _ _))

/-- An index of the array is in point t's block iff each coordinate is in the block's range on its axis. -/
theorem mem_blk (t : Fin cfg0.N) (i : S100000x64.Idx) :
    i ∈ ((cfg0.win 9).blk t).view.set ↔ ∀ a : Fin 2, win0_9.index t a * S5000x64.size a ≤ (i a).val
      ∧ (i a).val < win0_9.index t a * S5000x64.size a + S5000x64.size a := by
  show i ∈ ((View.whole main_v131).slice (win0_9.rect t)).set ↔ _
  rw [View.set_slice_whole, Rect.mem_set_unit]
  exact Iff.rfl

/-- THE COVER: every index of the result array lies in the block of the point its row falls in. -/
theorem covered (i : S100000x64.Idx) :
    ∃ t : Fin cfg0.N, (cfg0.win 9).flush t = true ∧ i ∈ ((cfg0.win 9).blk t).view.set := by
  have hi0 : (i 0).val < 100000 := (i 0).isLt
  have hi1 : (i 1).val < 64 := (i 1).isLt
  obtain ⟨t, ht⟩ := index_onto ⟨(i 0).val / 5000, by omega⟩
  have q0 : win0_9.index t (0 : Fin 2) = (i 0).val / 5000 := congrFun ht 0
  have q1 : win0_9.index t (1 : Fin 2) = 0 := congrFun ht 1
  refine ⟨t, flush0_9 t, ?_⟩
  rw [mem_blk]
  intro a
  match a with
  | ⟨0, _⟩ =>
    show win0_9.index t (0 : Fin 2) * 5000 ≤ (i 0).val ∧ (i 0).val < win0_9.index t (0 : Fin 2) * 5000 + 5000
    omega
  | ⟨1, _⟩ =>
    show win0_9.index t (1 : Fin 2) * 64 ≤ (i 1).val ∧ (i 1).val < win0_9.index t (1 : Fin 2) * 64 + 64
    omega

/-- THE ARRAY AFTER THE RUN is the combined array of the arrays the windows stage. -/
theorem final (c : Dev nD) :
    (dats m 0 c).arrAt 9 cfg0.N = combine (V m c main_arg0) (V m c main_v46) (V m c main_v70) (V m c main_v118) (V m c main_v122) (V m c main_v126) (V m c main_v128) (V m c main_v129) (V m c main_v130) :=
  (dats m 0 c).arrAt_eq_of_cover 9 _ (fun t _ => flushed_eq m c t) (covered)

/-- The kernel's run, its result array named. -/
theorem run : θ_run defs (onTc (τ := τ) (main (F := Ideal))) ⟨m, fun _ => 0, ρ⟩ fun r => ∀ c : Dev nD,
      r.2.mem ((c : Thread nD τ).loc main_v131) = combine (V m c main_arg0) (V m c main_v46) (V m c main_v70) (V m c main_v118) (V m c main_v122) (V m c main_v126) (V m c main_v128) (V m c main_v129) (V m c main_v130)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Blocks

end
-- ==== Proof.LibTileSum.lean ====
/-
  Sums over an index range cut into tiles of equal width.

  An index `h < T * w` is `j * w + n` for one tile `j < T` and one offset `n < w`, so a sum over all `h` is the sum over
  the tiles of the sums inside each tile. The partial sums over the tiles `0, …, hh` start at the first tile's sum, grow by
  one tile's sum at a time, and are the whole sum once `hh` is the last tile. Both hold in any commutative additive
  monoid: only the order and the grouping of the terms change.
-/
import Mathlib.Algebra.BigOperators.Fin
import Mathlib.Algebra.BigOperators.Group.Finset.Basic
import Mathlib.Logic.Equiv.Fin.Basic
import Mathlib.Tactic.Ring

namespace Cert.TileSum

variable {M : Type*} [AddCommMonoid M]

/-- The index of offset `n` inside tile `j`. -/
def tileIdx {T w N : ℕ} (hN : N = T * w) (j : Fin T) (n : Fin w) : Fin N :=
  ⟨j.val * w + n.val, by
    have h1 := j.isLt; have h2 := n.isLt
    have : j.val * w + w ≤ T * w := by
      rw [← Nat.succ_mul]; exact Nat.mul_le_mul_right w h1
    omega⟩

@[simp] theorem tileIdx_val {T w N : ℕ} (hN : N = T * w) (j : Fin T) (n : Fin w) :
    (tileIdx hN j n).val = j.val * w + n.val := rfl

/-- A sum over all indices is the sum, over the tiles, of the sums inside each tile. -/
theorem sum_tiles {T w N : ℕ} (hN : N = T * w) (f : Fin N → M) :
    ∑ h : Fin N, f h = ∑ j : Fin T, ∑ n : Fin w, f (tileIdx hN j n) := by
  subst hN
  rw [← Equiv.sum_comp finProdFinEquiv f, Fintype.sum_prod_type]
  refine Finset.sum_congr rfl fun j _ => Finset.sum_congr rfl fun n _ => congrArg f (Fin.ext ?_)
  simp [finProdFinEquiv, tileIdx, Nat.mul_comm, Nat.add_comm]

/-- The sum of the tile values `D j` over the tiles `j ≤ hh`. -/
def upTo {T : ℕ} (D : Fin T → M) (hh : ℕ) : M := ∑ j : Fin T, if j.val ≤ hh then D j else 0

theorem upTo_zero {T : ℕ} (D : Fin T → M) (hT : 0 < T) : upTo D 0 = D ⟨0, hT⟩ := by
  unfold upTo
  rw [Finset.sum_eq_single (⟨0, hT⟩ : Fin T)]
  · simp
  · intro j _ hj
    have : ¬ j.val ≤ 0 := fun h => hj (Fin.ext (by simpa using h))
    simp [this]
  · intro h; exact absurd (Finset.mem_univ _) h

theorem upTo_succ {T : ℕ} (D : Fin T → M) (hh : ℕ) (h : hh + 1 < T) :
    upTo D (hh + 1) = upTo D hh + D ⟨hh + 1, h⟩ := by
  unfold upTo
  have e : ∀ j : Fin T, (if j.val ≤ hh + 1 then D j else 0)
      = (if j.val ≤ hh then D j else 0) + (if j = ⟨hh + 1, h⟩ then D j else 0) := by
    intro j
    by_cases h1 : j.val ≤ hh
    · have h2 : j ≠ ⟨hh + 1, h⟩ := fun e => by
        have e' : j.val = hh + 1 := congrArg Fin.val e
        omega
      rw [if_pos h1, if_pos (Nat.le_succ_of_le h1), if_neg h2, add_zero]
    · by_cases h2 : j = ⟨hh + 1, h⟩
      · have h3 : j.val ≤ hh + 1 := by
          have e' : j.val = hh + 1 := congrArg Fin.val h2
          omega
        rw [if_neg h1, if_pos h3, if_pos h2, zero_add]
      · have h3 : ¬ j.val ≤ hh + 1 := fun h3 => h2 (Fin.ext (by show j.val = hh + 1; omega))
        rw [if_neg h1, if_neg h3, if_neg h2, add_zero]
  simp only [e, Finset.sum_add_distrib, Finset.sum_ite_eq', Finset.mem_univ, if_true]

theorem upTo_last {T : ℕ} (D : Fin T → M) (hh : ℕ) (h : T ≤ hh + 1) : upTo D hh = ∑ j : Fin T, D j := by
  unfold upTo
  refine Finset.sum_congr rfl fun j _ => if_pos ?_
  have := j.isLt; omega

end Cert.TileSum
-- ==== Proof.WeightBands.lean ====
/-
  The weight matrix has 384 rows: six bands of 64, one per part of the joined matrix. Row n of band j is row 64·j + n.
-/
import proofs.«120427_j8718783611088_1_alg».proof.Proof.LibTileSum

namespace Cert.WeightBands

open Cert.TileSum

/-- 384 rows are six bands of 64. -/
theorem bands : (384 : ℕ) = 6 * 64 := rfl

/-- Row n of band j. -/
abbrev bandRow (j : Fin 6) (n : Fin 64) : Fin 384 := tileIdx bands j n

theorem bandRow_val (j : Fin 6) (n : Fin 64) : (bandRow j n).val = j.val * 64 + n.val := rfl

end Cert.WeightBands
-- ==== Proof.KernelHost.lean ====
/-
  What the kernel's windows find in their arrays when the region is entered.

  Before its one region the kernel's program runs a line of 166 host operations. The first 154 are the reference's,
  one for one: the index vectors and the degrees, the guarded reciprocal square root, the edge weights and the seven
  propagation steps; so the arrays it hands to windows 1, 2 and 3 are the reference's hop arrays after 1, 3 and 7
  steps of the node features and the index array. The last twelve cut the weight matrix into its six bands W1 … W6 of
  64 rows, fold them into the four blocks the body multiplies by,
      W4,   (W1 - W4) + W5,   (W2 - W5) + W6,   W3 - W6,
  and recast the bias as one row. The line is read window by window: a window's lemma says that if the buffers it reads
  hold their stages, the buffer it writes holds the next one, and a buffer a window does not write keeps its contents.
-/
import proofs.«120427_j8718783611088_1_alg».proof.Proof.Gen.KernelIdeal.Frame
import proofs.«120427_j8718783611088_1_alg».proof.Proof.ReadPatched
import proofs.«120427_j8718783611088_1_alg».proof.Proof.WeightBands
import Idealize.ShloMosaic.Lib.ValueLayout
import Idealize.ShloMosaic.Lib.ValueIdx
import Idealize.ShloMosaic.Lib.Pipeline.Frame

set_option maxRecDepth 65536

noncomputable section

namespace Cert.KernelIdeal.HostValues

open Cert.KernelIdeal Cert.KernelIdeal.Gen Cert.WeightBands
open Idealize.ShloMosaic Idealize.ShloMosaic.TcCoe Idealize.ShloMosaic.ValueIdx Idealize.ShloMosaic.StableHlo Idealize.SL.Sem

variable {F : FTy → Type} [FloatOps F]

/-! ## The windows -/

/-- Window A: the source and target index vectors (edges then self loops), the ones, and the degrees. -/
abbrev A : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ]

/-- Window B: the guarded reciprocal square root of the degrees. -/
abbrev B : List (HloOp τ sig (Elt F)) :=
  [ StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x00000000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x3F800000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v14 : StableHlo.TRef sig ⟨S100000, .i1⟩) (.of main_v10 : StableHlo.TRef sig ⟨S100000, .f32⟩) (.of main_call0_v1 : StableHlo.TRef sig ⟨S100000, .f32⟩) (.of main_v15 : StableHlo.TRef sig ⟨S100000, .f32⟩) select,
    StableHlo.unary main_v15 main_v16 (Host.rsqrt : (⟨S100000, .f32⟩ : BufTy).Contents (Elt F) → (⟨S100000, .f32⟩ : BufTy).Contents (Elt F)),
    StableHlo.nullary main_cst_4 (constant S_ .f32 0x00000000#32),
    StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S100000, .f32⟩) (broadcastInDim S100000 ![] bcast_S_S100000),
    StableHlo.TRef.ternary (.of main_v12 : StableHlo.TRef sig ⟨S100000, .i1⟩) (.of main_v16 : StableHlo.TRef sig ⟨S100000, .f32⟩) (.of main_call1_v1 : StableHlo.TRef sig ⟨S100000, .f32⟩) (.of main_v17 : StableHlo.TRef sig ⟨S100000, .f32⟩) select ]

/-- Window C: the edge weights. -/
abbrev C : List (HloOp τ sig (Elt F)) :=
  [ StableHlo.nullary main_c (constantI S_ 32 0#32),
    StableHlo.unary main_c main_v18 (broadcastInDim S1700000 ![] bcast_S_S1700000 : (⟨S_, .i32⟩ : BufTy).Contents (Elt F) → (⟨S1700000, .i32⟩ : BufTy).Contents (Elt F)),
    StableHlo.binary main_v3 main_v18 main_v19 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v20 (broadcastInDim S1700000 ![] bcast_S_S1700000 : (⟨S_, .i32⟩ : BufTy).Contents (Elt F) → (⟨S1700000, .i32⟩ : BufTy).Contents (Elt F)),
    StableHlo.binary main_v3 main_v20 main_v21 (addi : (⟨S1700000, .i32⟩ : BufTy).Contents (Elt F) → (⟨S1700000, .i32⟩ : BufTy).Contents (Elt F) → (⟨S1700000, .i32⟩ : BufTy).Contents (Elt F)),
    StableHlo.ternary main_v19 main_v21 main_v3 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v22 main_v23 (broadcastInDim S1700000x1 ![0] bcast_S1700000_S1700000x1_0 : (⟨S1700000, .i32⟩ : BufTy).Contents (Elt F) → (⟨S1700000x1, .i32⟩ : BufTy).Contents (Elt F)),
    StableHlo.binary main_v17 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v24 main_v7 main_v25 (mulf : (⟨S1700000, .f32⟩ : BufTy).Contents (Elt F) → (⟨S1700000, .f32⟩ : BufTy).Contents (Elt F) → (⟨S1700000, .f32⟩ : BufTy).Contents (Elt F)),
    StableHlo.nullary main_c_6 (constantI S_ 32 0#32),
    StableHlo.unary main_c_6 main_v26 (broadcastInDim S1700000 ![] bcast_S_S1700000 : (⟨S_, .i32⟩ : BufTy).Contents (Elt F) → (⟨S1700000, .i32⟩ : BufTy).Contents (Elt F)),
    StableHlo.binary main_v6 main_v26 main_v27 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v28 (broadcastInDim S1700000 ![] bcast_S_S1700000 : (⟨S_, .i32⟩ : BufTy).Contents (Elt F) → (⟨S1700000, .i32⟩ : BufTy).Contents (Elt F)),
    StableHlo.binary main_v6 main_v28 main_v29 (addi : (⟨S1700000, .i32⟩ : BufTy).Contents (Elt F) → (⟨S1700000, .i32⟩ : BufTy).Contents (Elt F) → (⟨S1700000, .i32⟩ : BufTy).Contents (Elt F)),
    StableHlo.ternary main_v27 main_v29 main_v6 main_v30 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v30 main_v31 (broadcastInDim S1700000x1 ![0] bcast_S1700000_S1700000x1_0 : (⟨S1700000, .i32⟩ : BufTy).Contents (Elt F) → (⟨S1700000x1, .i32⟩ : BufTy).Contents (Elt F)),
    StableHlo.binary main_v17 main_v31 main_v32 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v25 main_v32 main_v33 (mulf : (⟨S1700000, .f32⟩ : BufTy).Contents (Elt F) → (⟨S1700000, .f32⟩ : BufTy).Contents (Elt F) → (⟨S1700000, .f32⟩ : BufTy).Contents (Elt F)),
    StableHlo.unary main_v33 main_v34 (broadcastInDim S1700000x1 ![0] bcast_S1700000_S1700000x1_0 : (⟨S1700000, .f32⟩ : BufTy).Contents (Elt F) → (⟨S1700000x1, .f32⟩ : BufTy).Contents (Elt F)) ]

/-- Window S1: propagation step 1. -/
abbrev S1 : List (HloOp τ sig (Elt F)) :=
  [ StableHlo.nullary main_c_8 (constantI S_ 32 0#32),
    StableHlo.unary main_c_8 main_v35 (broadcastInDim S1700000 ![] bcast_S_S1700000 : (⟨S_, .i32⟩ : BufTy).Contents (Elt F) → (⟨S1700000, .i32⟩ : BufTy).Contents (Elt F)),
    StableHlo.binary main_v3 main_v35 main_v36 (cmpi .slt : (⟨S1700000, .i32⟩ : BufTy).Contents (Elt F) → (⟨S1700000, .i32⟩ : BufTy).Contents (Elt F) → (⟨S1700000, .i1⟩ : BufTy).Contents (Elt F)),
    StableHlo.nullary main_c_9 (constantI S_ 32 100000#32),
    StableHlo.unary main_c_9 main_v37 (broadcastInDim S1700000 ![] bcast_S_S1700000 : (⟨S_, .i32⟩ : BufTy).Contents (Elt F) → (⟨S1700000, .i32⟩ : BufTy).Contents (Elt F)),
    StableHlo.binary main_v3 main_v37 main_v38 (addi : (⟨S1700000, .i32⟩ : BufTy).Contents (Elt F) → (⟨S1700000, .i32⟩ : BufTy).Contents (Elt F) → (⟨S1700000, .i32⟩ : BufTy).Contents (Elt F)),
    StableHlo.ternary main_v36 main_v38 main_v3 main_v39 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v39 main_v40 (broadcastInDim S1700000x1 ![0] bcast_S1700000_S1700000x1_0 : (⟨S1700000, .i32⟩ : BufTy).Contents (Elt F) → (⟨S1700000x1, .i32⟩ : BufTy).Contents (Elt F)),
    StableHlo.binary main_arg0 main_v40 main_v41 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v34 main_v42 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v42 main_v41 main_v43 (mulf : (⟨S1700000x64, .f32⟩ : BufTy).Contents (Elt F) → (⟨S1700000x64, .f32⟩ : BufTy).Contents (Elt F) → (⟨S1700000x64, .f32⟩ : BufTy).Contents (Elt F)),
    StableHlo.nullary main_cst_10 (constant S_ .f32 0x00000000#32),
    StableHlo.unary main_cst_10 main_v44 (broadcastInDim S100000x64 ![] bcast_S_S100000x64 : (⟨S_, .f32⟩ : BufTy).Contents (Elt F) → (⟨S100000x64, .f32⟩ : BufTy).Contents (Elt F)),
    StableHlo.unary main_v6 main_v45 (broadcastInDim S1700000x1 ![0] bcast_S1700000_S1700000x1_0 : (⟨S1700000, .i32⟩ : BufTy).Contents (Elt F) → (⟨S1700000x1, .i32⟩ : BufTy).Contents (Elt F)),
    StableHlo.ternary main_v44 main_v45 main_v43 main_v46 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Window S2: propagation step 2. -/
abbrev S2 : List (HloOp τ sig (Elt F)) :=
  [ StableHlo.nullary main_c_11 (constantI S_ 32 0#32),
    StableHlo.unary main_c_11 main_v47 (broadcastInDim S1700000 ![] bcast_S_S1700000 : (⟨S_, .i32⟩ : BufTy).Contents (Elt F) → (⟨S1700000, .i32⟩ : BufTy).Contents (Elt F)),
    StableHlo.binary main_v3 main_v47 main_v48 (cmpi .slt : (⟨S1700000, .i32⟩ : BufTy).Contents (Elt F) → (⟨S1700000, .i32⟩ : BufTy).Contents (Elt F) → (⟨S1700000, .i1⟩ : BufTy).Contents (Elt F)),
    StableHlo.nullary main_c_12 (constantI S_ 32 100000#32),
    StableHlo.unary main_c_12 main_v49 (broadcastInDim S1700000 ![] bcast_S_S1700000 : (⟨S_, .i32⟩ : BufTy).Contents (Elt F) → (⟨S1700000, .i32⟩ : BufTy).Contents (Elt F)),
    StableHlo.binary main_v3 main_v49 main_v50 (addi : (⟨S1700000, .i32⟩ : BufTy).Contents (Elt F) → (⟨S1700000, .i32⟩ : BufTy).Contents (Elt F) → (⟨S1700000, .i32⟩ : BufTy).Contents (Elt F)),
    StableHlo.ternary main_v48 main_v50 main_v3 main_v51 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v51 main_v52 (broadcastInDim S1700000x1 ![0] bcast_S1700000_S1700000x1_0 : (⟨S1700000, .i32⟩ : BufTy).Contents (Elt F) → (⟨S1700000x1, .i32⟩ : BufTy).Contents (Elt F)),
    StableHlo.binary main_v46 main_v52 main_v53 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v34 main_v54 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v54 main_v53 main_v55 (mulf : (⟨S1700000x64, .f32⟩ : BufTy).Contents (Elt F) → (⟨S1700000x64, .f32⟩ : BufTy).Contents (Elt F) → (⟨S1700000x64, .f32⟩ : BufTy).Contents (Elt F)),
    StableHlo.nullary main_cst_13 (constant S_ .f32 0x00000000#32),
    StableHlo.unary main_cst_13 main_v56 (broadcastInDim S100000x64 ![] bcast_S_S100000x64 : (⟨S_, .f32⟩ : BufTy).Contents (Elt F) → (⟨S100000x64, .f32⟩ : BufTy).Contents (Elt F)),
    StableHlo.unary main_v6 main_v57 (broadcastInDim S1700000x1 ![0] bcast_S1700000_S1700000x1_0 : (⟨S1700000, .i32⟩ : BufTy).Contents (Elt F) → (⟨S1700000x1, .i32⟩ : BufTy).Contents (Elt F)),
    StableHlo.ternary main_v56 main_v57 main_v55 main_v58 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Window S3: propagation step 3. -/
abbrev S3 : List (HloOp τ sig (Elt F)) :=
  [ StableHlo.nullary main_c_14 (constantI S_ 32 0#32),
    StableHlo.unary main_c_14 main_v59 (broadcastInDim S1700000 ![] bcast_S_S1700000 : (⟨S_, .i32⟩ : BufTy).Contents (Elt F) → (⟨S1700000, .i32⟩ : BufTy).Contents (Elt F)),
    StableHlo.binary main_v3 main_v59 main_v60 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v61 (broadcastInDim S1700000 ![] bcast_S_S1700000 : (⟨S_, .i32⟩ : BufTy).Contents (Elt F) → (⟨S1700000, .i32⟩ : BufTy).Contents (Elt F)),
    StableHlo.binary main_v3 main_v61 main_v62 (addi : (⟨S1700000, .i32⟩ : BufTy).Contents (Elt F) → (⟨S1700000, .i32⟩ : BufTy).Contents (Elt F) → (⟨S1700000, .i32⟩ : BufTy).Contents (Elt F)),
    StableHlo.ternary main_v60 main_v62 main_v3 main_v63 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v63 main_v64 (broadcastInDim S1700000x1 ![0] bcast_S1700000_S1700000x1_0 : (⟨S1700000, .i32⟩ : BufTy).Contents (Elt F) → (⟨S1700000x1, .i32⟩ : BufTy).Contents (Elt F)),
    StableHlo.binary main_v58 main_v64 main_v65 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v34 main_v66 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v66 main_v65 main_v67 (mulf : (⟨S1700000x64, .f32⟩ : BufTy).Contents (Elt F) → (⟨S1700000x64, .f32⟩ : BufTy).Contents (Elt F) → (⟨S1700000x64, .f32⟩ : BufTy).Contents (Elt F)),
    StableHlo.nullary main_cst_16 (constant S_ .f32 0x00000000#32),
    StableHlo.unary main_cst_16 main_v68 (broadcastInDim S100000x64 ![] bcast_S_S100000x64 : (⟨S_, .f32⟩ : BufTy).Contents (Elt F) → (⟨S100000x64, .f32⟩ : BufTy).Contents (Elt F)),
    StableHlo.unary main_v6 main_v69 (broadcastInDim S1700000x1 ![0] bcast_S1700000_S1700000x1_0 : (⟨S1700000, .i32⟩ : BufTy).Contents (Elt F) → (⟨S1700000x1, .i32⟩ : BufTy).Contents (Elt F)),
    StableHlo.ternary main_v68 main_v69 main_v67 main_v70 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Window S4: propagation step 4. -/
abbrev S4 : List (HloOp τ sig (Elt F)) :=
  [ StableHlo.nullary main_c_17 (constantI S_ 32 0#32),
    StableHlo.unary main_c_17 main_v71 (broadcastInDim S1700000 ![] bcast_S_S1700000 : (⟨S_, .i32⟩ : BufTy).Contents (Elt F) → (⟨S1700000, .i32⟩ : BufTy).Contents (Elt F)),
    StableHlo.binary main_v3 main_v71 main_v72 (cmpi .slt : (⟨S1700000, .i32⟩ : BufTy).Contents (Elt F) → (⟨S1700000, .i32⟩ : BufTy).Contents (Elt F) → (⟨S1700000, .i1⟩ : BufTy).Contents (Elt F)),
    StableHlo.nullary main_c_18 (constantI S_ 32 100000#32),
    StableHlo.unary main_c_18 main_v73 (broadcastInDim S1700000 ![] bcast_S_S1700000 : (⟨S_, .i32⟩ : BufTy).Contents (Elt F) → (⟨S1700000, .i32⟩ : BufTy).Contents (Elt F)),
    StableHlo.binary main_v3 main_v73 main_v74 (addi : (⟨S1700000, .i32⟩ : BufTy).Contents (Elt F) → (⟨S1700000, .i32⟩ : BufTy).Contents (Elt F) → (⟨S1700000, .i32⟩ : BufTy).Contents (Elt F)),
    StableHlo.ternary main_v72 main_v74 main_v3 main_v75 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v75 main_v76 (broadcastInDim S1700000x1 ![0] bcast_S1700000_S1700000x1_0 : (⟨S1700000, .i32⟩ : BufTy).Contents (Elt F) → (⟨S1700000x1, .i32⟩ : BufTy).Contents (Elt F)),
    StableHlo.binary main_v70 main_v76 main_v77 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v34 main_v78 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v78 main_v77 main_v79 (mulf : (⟨S1700000x64, .f32⟩ : BufTy).Contents (Elt F) → (⟨S1700000x64, .f32⟩ : BufTy).Contents (Elt F) → (⟨S1700000x64, .f32⟩ : BufTy).Contents (Elt F)),
    StableHlo.nullary main_cst_19 (constant S_ .f32 0x00000000#32),
    StableHlo.unary main_cst_19 main_v80 (broadcastInDim S100000x64 ![] bcast_S_S100000x64 : (⟨S_, .f32⟩ : BufTy).Contents (Elt F) → (⟨S100000x64, .f32⟩ : BufTy).Contents (Elt F)),
    StableHlo.unary main_v6 main_v81 (broadcastInDim S1700000x1 ![0] bcast_S1700000_S1700000x1_0 : (⟨S1700000, .i32⟩ : BufTy).Contents (Elt F) → (⟨S1700000x1, .i32⟩ : BufTy).Contents (Elt F)),
    StableHlo.ternary main_v80 main_v81 main_v79 main_v82 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Window S5: propagation step 5. -/
abbrev S5 : List (HloOp τ sig (Elt F)) :=
  [ StableHlo.nullary main_c_20 (constantI S_ 32 0#32),
    StableHlo.unary main_c_20 main_v83 (broadcastInDim S1700000 ![] bcast_S_S1700000 : (⟨S_, .i32⟩ : BufTy).Contents (Elt F) → (⟨S1700000, .i32⟩ : BufTy).Contents (Elt F)),
    StableHlo.binary main_v3 main_v83 main_v84 (cmpi .slt : (⟨S1700000, .i32⟩ : BufTy).Contents (Elt F) → (⟨S1700000, .i32⟩ : BufTy).Contents (Elt F) → (⟨S1700000, .i1⟩ : BufTy).Contents (Elt F)),
    StableHlo.nullary main_c_21 (constantI S_ 32 100000#32),
    StableHlo.unary main_c_21 main_v85 (broadcastInDim S1700000 ![] bcast_S_S1700000 : (⟨S_, .i32⟩ : BufTy).Contents (Elt F) → (⟨S1700000, .i32⟩ : BufTy).Contents (Elt F)),
    StableHlo.binary main_v3 main_v85 main_v86 (addi : (⟨S1700000, .i32⟩ : BufTy).Contents (Elt F) → (⟨S1700000, .i32⟩ : BufTy).Contents (Elt F) → (⟨S1700000, .i32⟩ : BufTy).Contents (Elt F)),
    StableHlo.ternary main_v84 main_v86 main_v3 main_v87 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v87 main_v88 (broadcastInDim S1700000x1 ![0] bcast_S1700000_S1700000x1_0 : (⟨S1700000, .i32⟩ : BufTy).Contents (Elt F) → (⟨S1700000x1, .i32⟩ : BufTy).Contents (Elt F)),
    StableHlo.binary main_v82 main_v88 main_v89 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v34 main_v90 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v90 main_v89 main_v91 (mulf : (⟨S1700000x64, .f32⟩ : BufTy).Contents (Elt F) → (⟨S1700000x64, .f32⟩ : BufTy).Contents (Elt F) → (⟨S1700000x64, .f32⟩ : BufTy).Contents (Elt F)),
    StableHlo.nullary main_cst_22 (constant S_ .f32 0x00000000#32),
    StableHlo.unary main_cst_22 main_v92 (broadcastInDim S100000x64 ![] bcast_S_S100000x64 : (⟨S_, .f32⟩ : BufTy).Contents (Elt F) → (⟨S100000x64, .f32⟩ : BufTy).Contents (Elt F)),
    StableHlo.unary main_v6 main_v93 (broadcastInDim S1700000x1 ![0] bcast_S1700000_S1700000x1_0 : (⟨S1700000, .i32⟩ : BufTy).Contents (Elt F) → (⟨S1700000x1, .i32⟩ : BufTy).Contents (Elt F)),
    StableHlo.ternary main_v92 main_v93 main_v91 main_v94 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Window S6: propagation step 6. -/
abbrev S6 : List (HloOp τ sig (Elt F)) :=
  [ StableHlo.nullary main_c_23 (constantI S_ 32 0#32),
    StableHlo.unary main_c_23 main_v95 (broadcastInDim S1700000 ![] bcast_S_S1700000 : (⟨S_, .i32⟩ : BufTy).Contents (Elt F) → (⟨S1700000, .i32⟩ : BufTy).Contents (Elt F)),
    StableHlo.binary main_v3 main_v95 main_v96 (cmpi .slt : (⟨S1700000, .i32⟩ : BufTy).Contents (Elt F) → (⟨S1700000, .i32⟩ : BufTy).Contents (Elt F) → (⟨S1700000, .i1⟩ : BufTy).Contents (Elt F)),
    StableHlo.nullary main_c_24 (constantI S_ 32 100000#32),
    StableHlo.unary main_c_24 main_v97 (broadcastInDim S1700000 ![] bcast_S_S1700000 : (⟨S_, .i32⟩ : BufTy).Contents (Elt F) → (⟨S1700000, .i32⟩ : BufTy).Contents (Elt F)),
    StableHlo.binary main_v3 main_v97 main_v98 (addi : (⟨S1700000, .i32⟩ : BufTy).Contents (Elt F) → (⟨S1700000, .i32⟩ : BufTy).Contents (Elt F) → (⟨S1700000, .i32⟩ : BufTy).Contents (Elt F)),
    StableHlo.ternary main_v96 main_v98 main_v3 main_v99 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v99 main_v100 (broadcastInDim S1700000x1 ![0] bcast_S1700000_S1700000x1_0 : (⟨S1700000, .i32⟩ : BufTy).Contents (Elt F) → (⟨S1700000x1, .i32⟩ : BufTy).Contents (Elt F)),
    StableHlo.binary main_v94 main_v100 main_v101 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v34 main_v102 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v102 main_v101 main_v103 (mulf : (⟨S1700000x64, .f32⟩ : BufTy).Contents (Elt F) → (⟨S1700000x64, .f32⟩ : BufTy).Contents (Elt F) → (⟨S1700000x64, .f32⟩ : BufTy).Contents (Elt F)),
    StableHlo.nullary main_cst_25 (constant S_ .f32 0x00000000#32),
    StableHlo.unary main_cst_25 main_v104 (broadcastInDim S100000x64 ![] bcast_S_S100000x64 : (⟨S_, .f32⟩ : BufTy).Contents (Elt F) → (⟨S100000x64, .f32⟩ : BufTy).Contents (Elt F)),
    StableHlo.unary main_v6 main_v105 (broadcastInDim S1700000x1 ![0] bcast_S1700000_S1700000x1_0 : (⟨S1700000, .i32⟩ : BufTy).Contents (Elt F) → (⟨S1700000x1, .i32⟩ : BufTy).Contents (Elt F)),
    StableHlo.ternary main_v104 main_v105 main_v103 main_v106 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Window S7: propagation step 7. -/
abbrev S7 : List (HloOp τ sig (Elt F)) :=
  [ StableHlo.nullary main_c_26 (constantI S_ 32 0#32),
    StableHlo.unary main_c_26 main_v107 (broadcastInDim S1700000 ![] bcast_S_S1700000 : (⟨S_, .i32⟩ : BufTy).Contents (Elt F) → (⟨S1700000, .i32⟩ : BufTy).Contents (Elt F)),
    StableHlo.binary main_v3 main_v107 main_v108 (cmpi .slt : (⟨S1700000, .i32⟩ : BufTy).Contents (Elt F) → (⟨S1700000, .i32⟩ : BufTy).Contents (Elt F) → (⟨S1700000, .i1⟩ : BufTy).Contents (Elt F)),
    StableHlo.nullary main_c_27 (constantI S_ 32 100000#32),
    StableHlo.unary main_c_27 main_v109 (broadcastInDim S1700000 ![] bcast_S_S1700000 : (⟨S_, .i32⟩ : BufTy).Contents (Elt F) → (⟨S1700000, .i32⟩ : BufTy).Contents (Elt F)),
    StableHlo.binary main_v3 main_v109 main_v110 (addi : (⟨S1700000, .i32⟩ : BufTy).Contents (Elt F) → (⟨S1700000, .i32⟩ : BufTy).Contents (Elt F) → (⟨S1700000, .i32⟩ : BufTy).Contents (Elt F)),
    StableHlo.ternary main_v108 main_v110 main_v3 main_v111 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v111 main_v112 (broadcastInDim S1700000x1 ![0] bcast_S1700000_S1700000x1_0 : (⟨S1700000, .i32⟩ : BufTy).Contents (Elt F) → (⟨S1700000x1, .i32⟩ : BufTy).Contents (Elt F)),
    StableHlo.binary main_v106 main_v112 main_v113 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v34 main_v114 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v114 main_v113 main_v115 (mulf : (⟨S1700000x64, .f32⟩ : BufTy).Contents (Elt F) → (⟨S1700000x64, .f32⟩ : BufTy).Contents (Elt F) → (⟨S1700000x64, .f32⟩ : BufTy).Contents (Elt F)),
    StableHlo.nullary main_cst_28 (constant S_ .f32 0x00000000#32),
    StableHlo.unary main_cst_28 main_v116 (broadcastInDim S100000x64 ![] bcast_S_S100000x64 : (⟨S_, .f32⟩ : BufTy).Contents (Elt F) → (⟨S100000x64, .f32⟩ : BufTy).Contents (Elt F)),
    StableHlo.unary main_v6 main_v117 (broadcastInDim S1700000x1 ![0] bcast_S1700000_S1700000x1_0 : (⟨S1700000, .i32⟩ : BufTy).Contents (Elt F) → (⟨S1700000x1, .i32⟩ : BufTy).Contents (Elt F)),
    StableHlo.ternary main_v116 main_v117 main_v115 main_v118 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The last window: the six bands of the weight matrix, the four folded blocks, the bias as a row. -/
abbrev TW : List (HloOp τ sig (Elt F)) :=
  [ StableHlo.unary main_arg2 main_v119 ((extractStridedSlice S64x64 ![0, 0] · slices_S384x64_S64x64_0_0) : (⟨S384x64, .f32⟩ : BufTy).Contents (Elt F) → (⟨S64x64, .f32⟩ : BufTy).Contents (Elt F)),
    StableHlo.unary main_arg2 main_v120 ((extractStridedSlice S64x64 ![64, 0] · slices_S384x64_S64x64_64_0) : (⟨S384x64, .f32⟩ : BufTy).Contents (Elt F) → (⟨S64x64, .f32⟩ : BufTy).Contents (Elt F)),
    StableHlo.unary main_arg2 main_v121 ((extractStridedSlice S64x64 ![128, 0] · slices_S384x64_S64x64_128_0) : (⟨S384x64, .f32⟩ : BufTy).Contents (Elt F) → (⟨S64x64, .f32⟩ : BufTy).Contents (Elt F)),
    StableHlo.unary main_arg2 main_v122 ((extractStridedSlice S64x64 ![192, 0] · slices_S384x64_S64x64_192_0) : (⟨S384x64, .f32⟩ : BufTy).Contents (Elt F) → (⟨S64x64, .f32⟩ : BufTy).Contents (Elt F)),
    StableHlo.unary main_arg2 main_v123 ((extractStridedSlice S64x64 ![256, 0] · slices_S384x64_S64x64_256_0) : (⟨S384x64, .f32⟩ : BufTy).Contents (Elt F) → (⟨S64x64, .f32⟩ : BufTy).Contents (Elt F)),
    StableHlo.unary main_arg2 main_v124 ((extractStridedSlice S64x64 ![320, 0] · slices_S384x64_S64x64_320_0) : (⟨S384x64, .f32⟩ : BufTy).Contents (Elt F) → (⟨S64x64, .f32⟩ : BufTy).Contents (Elt F)),
    StableHlo.binary main_v119 main_v122 main_v125 (subf : (⟨S64x64, .f32⟩ : BufTy).Contents (Elt F) → (⟨S64x64, .f32⟩ : BufTy).Contents (Elt F) → (⟨S64x64, .f32⟩ : BufTy).Contents (Elt F)),
    StableHlo.binary main_v125 main_v123 main_v126 (addf : (⟨S64x64, .f32⟩ : BufTy).Contents (Elt F) → (⟨S64x64, .f32⟩ : BufTy).Contents (Elt F) → (⟨S64x64, .f32⟩ : BufTy).Contents (Elt F)),
    StableHlo.binary main_v120 main_v123 main_v127 (subf : (⟨S64x64, .f32⟩ : BufTy).Contents (Elt F) → (⟨S64x64, .f32⟩ : BufTy).Contents (Elt F) → (⟨S64x64, .f32⟩ : BufTy).Contents (Elt F)),
    StableHlo.binary main_v127 main_v124 main_v128 (addf : (⟨S64x64, .f32⟩ : BufTy).Contents (Elt F) → (⟨S64x64, .f32⟩ : BufTy).Contents (Elt F) → (⟨S64x64, .f32⟩ : BufTy).Contents (Elt F)),
    StableHlo.binary main_v121 main_v124 main_v129 (subf : (⟨S64x64, .f32⟩ : BufTy).Contents (Elt F) → (⟨S64x64, .f32⟩ : BufTy).Contents (Elt F) → (⟨S64x64, .f32⟩ : BufTy).Contents (Elt F)),
    StableHlo.reshape main_arg3 main_v130 rfl shapeCasts_S64_S1x64 ]

set_option maxHeartbeats 4000000 in
/-- The line of operations before the region is its windows, in order. -/
theorem ops_split : (List.flatten [hostOps0 (F := F), hostOps0_1 (F := F), hostOps0_2 (F := F), hostOps0_3 (F := F), hostOps0_4 (F := F)]) = (A ++ (B ++ (C ++ (S1 ++ (S2 ++ (S3 ++ (S4 ++ (S5 ++ (S6 ++ (S7 ++ TW)))))))))) := rfl

/-! ## One window at a time -/

/-- Reads a window: rewrites each operation's result at its own buffer to its function of the operands' contents, and at
    any other buffer to what was there, outermost first, until none applies (the library's result lemmas, by `rw`). -/
macro "read_window" : tactic =>
  `(tactic| (repeat (first
      | rw [nullary_result] | rw [unary_result] | rw [binary_result] | rw [ternary_result] | rw [reshape_result] | rw [nary_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)
      | (simp only [Matrix.cons_val]))))

set_option maxHeartbeats 4000000 in
theorem win_A_main_v3 (W : Valuation τ sig (Elt F)) (x1 : (⟨Cert.ReferenceIdeal.S2x1600000, .i32⟩ : BufTy).Contents (Elt F))
    (h_main_arg1 : W (Proc.devRef .tc main_arg1) = x1) :
    after (A (F := F)) W (Proc.devRef .tc main_v3) = Cert.ReferenceIdeal.ReadP.val_main_v3 (F := F) x1 := by
  simp only [A, after_cons, after_nil]
  read_window
  rw [h_main_arg1]
  all_goals rfl

set_option maxHeartbeats 4000000 in
theorem win_A_main_v6 (W : Valuation τ sig (Elt F)) (x1 : (⟨Cert.ReferenceIdeal.S2x1600000, .i32⟩ : BufTy).Contents (Elt F))
    (h_main_arg1 : W (Proc.devRef .tc main_arg1) = x1) :
    after (A (F := F)) W (Proc.devRef .tc main_v6) = Cert.ReferenceIdeal.ReadP.val_main_v6 (F := F) x1 := by
  simp only [A, after_cons, after_nil]
  read_window
  rw [h_main_arg1]
  all_goals rfl

set_option maxHeartbeats 4000000 in
theorem win_A_main_v7 (W : Valuation τ sig (Elt F))  :
    after (A (F := F)) W (Proc.devRef .tc main_v7) = Cert.ReferenceIdeal.ReadP.val_main_v7 (F := F) := by
  simp only [A, after_cons, after_nil]
  read_window
  all_goals rfl

set_option maxHeartbeats 4000000 in
theorem win_A_main_v10 (W : Valuation τ sig (Elt F)) (x1 : (⟨Cert.ReferenceIdeal.S2x1600000, .i32⟩ : BufTy).Contents (Elt F))
    (h_main_arg1 : W (Proc.devRef .tc main_arg1) = x1) :
    after (A (F := F)) W (Proc.devRef .tc main_v10) = Cert.ReferenceIdeal.ReadP.val_main_v10 (F := F) x1 := by
  simp only [A, after_cons, after_nil]
  read_window
  rw [h_main_arg1]
  all_goals rfl

set_option maxHeartbeats 4000000 in
theorem keep_A_main_arg0 (W : Valuation τ sig (Elt F)) :
    after (A (F := F)) W (Proc.devRef .tc main_arg0) = W (Proc.devRef .tc main_arg0) := by
  simp only [A, after_cons, after_nil]
  read_window

set_option maxHeartbeats 4000000 in
theorem keep_A_main_arg2 (W : Valuation τ sig (Elt F)) :
    after (A (F := F)) W (Proc.devRef .tc main_arg2) = W (Proc.devRef .tc main_arg2) := by
  simp only [A, after_cons, after_nil]
  read_window

set_option maxHeartbeats 4000000 in
theorem keep_A_main_arg3 (W : Valuation τ sig (Elt F)) :
    after (A (F := F)) W (Proc.devRef .tc main_arg3) = W (Proc.devRef .tc main_arg3) := by
  simp only [A, after_cons, after_nil]
  read_window

set_option maxHeartbeats 4000000 in
theorem win_B_main_v17 (W : Valuation τ sig (Elt F)) (x1 : (⟨Cert.ReferenceIdeal.S2x1600000, .i32⟩ : BufTy).Contents (Elt F))
    (h_main_v10 : W (Proc.devRef .tc main_v10) = Cert.ReferenceIdeal.ReadP.val_main_v10 (F := F) x1) :
    after (B (F := F)) W (Proc.devRef .tc main_v17) = Cert.ReferenceIdeal.ReadP.val_main_v17 (F := F) x1 := by
  simp only [B, after_cons, after_nil]
  read_window
  rw [h_main_v10]
  all_goals rfl

set_option maxHeartbeats 4000000 in
theorem keep_B_main_arg0 (W : Valuation τ sig (Elt F)) :
    after (B (F := F)) W (Proc.devRef .tc main_arg0) = W (Proc.devRef .tc main_arg0) := by
  simp only [B, after_cons, after_nil]
  read_window

set_option maxHeartbeats 4000000 in
theorem keep_B_main_arg2 (W : Valuation τ sig (Elt F)) :
    after (B (F := F)) W (Proc.devRef .tc main_arg2) = W (Proc.devRef .tc main_arg2) := by
  simp only [B, after_cons, after_nil]
  read_window

set_option maxHeartbeats 4000000 in
theorem keep_B_main_arg3 (W : Valuation τ sig (Elt F)) :
    after (B (F := F)) W (Proc.devRef .tc main_arg3) = W (Proc.devRef .tc main_arg3) := by
  simp only [B, after_cons, after_nil]
  read_window

set_option maxHeartbeats 4000000 in
theorem keep_B_main_v3 (W : Valuation τ sig (Elt F)) :
    after (B (F := F)) W (Proc.devRef .tc main_v3) = W (Proc.devRef .tc main_v3) := by
  simp only [B, after_cons, after_nil]
  read_window

set_option maxHeartbeats 4000000 in
theorem keep_B_main_v6 (W : Valuation τ sig (Elt F)) :
    after (B (F := F)) W (Proc.devRef .tc main_v6) = W (Proc.devRef .tc main_v6) := by
  simp only [B, after_cons, after_nil]
  read_window

set_option maxHeartbeats 4000000 in
theorem keep_B_main_v7 (W : Valuation τ sig (Elt F)) :
    after (B (F := F)) W (Proc.devRef .tc main_v7) = W (Proc.devRef .tc main_v7) := by
  simp only [B, after_cons, after_nil]
  read_window

set_option maxHeartbeats 4000000 in
theorem win_C_main_v34 (W : Valuation τ sig (Elt F)) (x1 : (⟨Cert.ReferenceIdeal.S2x1600000, .i32⟩ : BufTy).Contents (Elt F))
    (h_main_v17 : W (Proc.devRef .tc main_v17) = Cert.ReferenceIdeal.ReadP.val_main_v17 (F := F) x1)
    (h_main_v3 : W (Proc.devRef .tc main_v3) = Cert.ReferenceIdeal.ReadP.val_main_v3 (F := F) x1)
    (h_main_v6 : W (Proc.devRef .tc main_v6) = Cert.ReferenceIdeal.ReadP.val_main_v6 (F := F) x1)
    (h_main_v7 : W (Proc.devRef .tc main_v7) = Cert.ReferenceIdeal.ReadP.val_main_v7 (F := F)) :
    after (C (F := F)) W (Proc.devRef .tc main_v34) = Cert.ReferenceIdeal.ReadP.val_main_v34 (F := F) x1 := by
  simp only [C, after_cons, after_nil]
  read_window
  rw [h_main_v17, h_main_v3, h_main_v6, h_main_v7]
  all_goals rfl

set_option maxHeartbeats 4000000 in
theorem keep_C_main_arg0 (W : Valuation τ sig (Elt F)) :
    after (C (F := F)) W (Proc.devRef .tc main_arg0) = W (Proc.devRef .tc main_arg0) := by
  simp only [C, after_cons, after_nil]
  read_window

set_option maxHeartbeats 4000000 in
theorem keep_C_main_arg2 (W : Valuation τ sig (Elt F)) :
    after (C (F := F)) W (Proc.devRef .tc main_arg2) = W (Proc.devRef .tc main_arg2) := by
  simp only [C, after_cons, after_nil]
  read_window

set_option maxHeartbeats 4000000 in
theorem keep_C_main_arg3 (W : Valuation τ sig (Elt F)) :
    after (C (F := F)) W (Proc.devRef .tc main_arg3) = W (Proc.devRef .tc main_arg3) := by
  simp only [C, after_cons, after_nil]
  read_window

set_option maxHeartbeats 4000000 in
theorem keep_C_main_v3 (W : Valuation τ sig (Elt F)) :
    after (C (F := F)) W (Proc.devRef .tc main_v3) = W (Proc.devRef .tc main_v3) := by
  simp only [C, after_cons, after_nil]
  read_window

set_option maxHeartbeats 4000000 in
theorem keep_C_main_v6 (W : Valuation τ sig (Elt F)) :
    after (C (F := F)) W (Proc.devRef .tc main_v6) = W (Proc.devRef .tc main_v6) := by
  simp only [C, after_cons, after_nil]
  read_window

set_option maxHeartbeats 4000000 in
theorem win_S1_main_v46 (W : Valuation τ sig (Elt F)) (x0 : (⟨Cert.ReferenceIdeal.S100000x64, .f32⟩ : BufTy).Contents (Elt F)) (x1 : (⟨Cert.ReferenceIdeal.S2x1600000, .i32⟩ : BufTy).Contents (Elt F))
    (h_main_v3 : W (Proc.devRef .tc main_v3) = Cert.ReferenceIdeal.ReadP.val_main_v3 (F := F) x1)
    (h_main_v6 : W (Proc.devRef .tc main_v6) = Cert.ReferenceIdeal.ReadP.val_main_v6 (F := F) x1)
    (h_main_v34 : W (Proc.devRef .tc main_v34) = Cert.ReferenceIdeal.ReadP.val_main_v34 (F := F) x1)
    (h_main_arg0 : W (Proc.devRef .tc main_arg0) = x0) :
    after (S1 (F := F)) W (Proc.devRef .tc main_v46) = Cert.ReferenceIdeal.ReadP.val_main_v46 (F := F) x0 x1 := by
  simp only [S1, after_cons, after_nil]
  read_window
  rw [h_main_v3, h_main_v6, h_main_v34, h_main_arg0]
  all_goals rfl

set_option maxHeartbeats 4000000 in
theorem keep_S1_main_arg0 (W : Valuation τ sig (Elt F)) :
    after (S1 (F := F)) W (Proc.devRef .tc main_arg0) = W (Proc.devRef .tc main_arg0) := by
  simp only [S1, after_cons, after_nil]
  read_window

set_option maxHeartbeats 4000000 in
theorem keep_S1_main_arg2 (W : Valuation τ sig (Elt F)) :
    after (S1 (F := F)) W (Proc.devRef .tc main_arg2) = W (Proc.devRef .tc main_arg2) := by
  simp only [S1, after_cons, after_nil]
  read_window

set_option maxHeartbeats 4000000 in
theorem keep_S1_main_arg3 (W : Valuation τ sig (Elt F)) :
    after (S1 (F := F)) W (Proc.devRef .tc main_arg3) = W (Proc.devRef .tc main_arg3) := by
  simp only [S1, after_cons, after_nil]
  read_window

set_option maxHeartbeats 4000000 in
theorem keep_S1_main_v3 (W : Valuation τ sig (Elt F)) :
    after (S1 (F := F)) W (Proc.devRef .tc main_v3) = W (Proc.devRef .tc main_v3) := by
  simp only [S1, after_cons, after_nil]
  read_window

set_option maxHeartbeats 4000000 in
theorem keep_S1_main_v6 (W : Valuation τ sig (Elt F)) :
    after (S1 (F := F)) W (Proc.devRef .tc main_v6) = W (Proc.devRef .tc main_v6) := by
  simp only [S1, after_cons, after_nil]
  read_window

set_option maxHeartbeats 4000000 in
theorem keep_S1_main_v34 (W : Valuation τ sig (Elt F)) :
    after (S1 (F := F)) W (Proc.devRef .tc main_v34) = W (Proc.devRef .tc main_v34) := by
  simp only [S1, after_cons, after_nil]
  read_window

set_option maxHeartbeats 4000000 in
theorem win_S2_main_v58 (W : Valuation τ sig (Elt F)) (x0 : (⟨Cert.ReferenceIdeal.S100000x64, .f32⟩ : BufTy).Contents (Elt F)) (x1 : (⟨Cert.ReferenceIdeal.S2x1600000, .i32⟩ : BufTy).Contents (Elt F))
    (h_main_v3 : W (Proc.devRef .tc main_v3) = Cert.ReferenceIdeal.ReadP.val_main_v3 (F := F) x1)
    (h_main_v6 : W (Proc.devRef .tc main_v6) = Cert.ReferenceIdeal.ReadP.val_main_v6 (F := F) x1)
    (h_main_v34 : W (Proc.devRef .tc main_v34) = Cert.ReferenceIdeal.ReadP.val_main_v34 (F := F) x1)
    (h_main_v46 : W (Proc.devRef .tc main_v46) = Cert.ReferenceIdeal.ReadP.val_main_v46 (F := F) x0 x1) :
    after (S2 (F := F)) W (Proc.devRef .tc main_v58) = Cert.ReferenceIdeal.ReadP.val_main_v58 (F := F) x0 x1 := by
  simp only [S2, after_cons, after_nil]
  read_window
  rw [h_main_v3, h_main_v6, h_main_v34, h_main_v46]
  all_goals rfl

set_option maxHeartbeats 4000000 in
theorem keep_S2_main_arg0 (W : Valuation τ sig (Elt F)) :
    after (S2 (F := F)) W (Proc.devRef .tc main_arg0) = W (Proc.devRef .tc main_arg0) := by
  simp only [S2, after_cons, after_nil]
  read_window

set_option maxHeartbeats 4000000 in
theorem keep_S2_main_arg2 (W : Valuation τ sig (Elt F)) :
    after (S2 (F := F)) W (Proc.devRef .tc main_arg2) = W (Proc.devRef .tc main_arg2) := by
  simp only [S2, after_cons, after_nil]
  read_window

set_option maxHeartbeats 4000000 in
theorem keep_S2_main_arg3 (W : Valuation τ sig (Elt F)) :
    after (S2 (F := F)) W (Proc.devRef .tc main_arg3) = W (Proc.devRef .tc main_arg3) := by
  simp only [S2, after_cons, after_nil]
  read_window

set_option maxHeartbeats 4000000 in
theorem keep_S2_main_v3 (W : Valuation τ sig (Elt F)) :
    after (S2 (F := F)) W (Proc.devRef .tc main_v3) = W (Proc.devRef .tc main_v3) := by
  simp only [S2, after_cons, after_nil]
  read_window

set_option maxHeartbeats 4000000 in
theorem keep_S2_main_v6 (W : Valuation τ sig (Elt F)) :
    after (S2 (F := F)) W (Proc.devRef .tc main_v6) = W (Proc.devRef .tc main_v6) := by
  simp only [S2, after_cons, after_nil]
  read_window

set_option maxHeartbeats 4000000 in
theorem keep_S2_main_v34 (W : Valuation τ sig (Elt F)) :
    after (S2 (F := F)) W (Proc.devRef .tc main_v34) = W (Proc.devRef .tc main_v34) := by
  simp only [S2, after_cons, after_nil]
  read_window

set_option maxHeartbeats 4000000 in
theorem keep_S2_main_v46 (W : Valuation τ sig (Elt F)) :
    after (S2 (F := F)) W (Proc.devRef .tc main_v46) = W (Proc.devRef .tc main_v46) := by
  simp only [S2, after_cons, after_nil]
  read_window

set_option maxHeartbeats 4000000 in
theorem win_S3_main_v70 (W : Valuation τ sig (Elt F)) (x0 : (⟨Cert.ReferenceIdeal.S100000x64, .f32⟩ : BufTy).Contents (Elt F)) (x1 : (⟨Cert.ReferenceIdeal.S2x1600000, .i32⟩ : BufTy).Contents (Elt F))
    (h_main_v3 : W (Proc.devRef .tc main_v3) = Cert.ReferenceIdeal.ReadP.val_main_v3 (F := F) x1)
    (h_main_v6 : W (Proc.devRef .tc main_v6) = Cert.ReferenceIdeal.ReadP.val_main_v6 (F := F) x1)
    (h_main_v34 : W (Proc.devRef .tc main_v34) = Cert.ReferenceIdeal.ReadP.val_main_v34 (F := F) x1)
    (h_main_v58 : W (Proc.devRef .tc main_v58) = Cert.ReferenceIdeal.ReadP.val_main_v58 (F := F) x0 x1) :
    after (S3 (F := F)) W (Proc.devRef .tc main_v70) = Cert.ReferenceIdeal.ReadP.val_main_v70 (F := F) x0 x1 := by
  simp only [S3, after_cons, after_nil]
  read_window
  rw [h_main_v3, h_main_v6, h_main_v34, h_main_v58]
  all_goals rfl

set_option maxHeartbeats 4000000 in
theorem keep_S3_main_arg0 (W : Valuation τ sig (Elt F)) :
    after (S3 (F := F)) W (Proc.devRef .tc main_arg0) = W (Proc.devRef .tc main_arg0) := by
  simp only [S3, after_cons, after_nil]
  read_window

set_option maxHeartbeats 4000000 in
theorem keep_S3_main_arg2 (W : Valuation τ sig (Elt F)) :
    after (S3 (F := F)) W (Proc.devRef .tc main_arg2) = W (Proc.devRef .tc main_arg2) := by
  simp only [S3, after_cons, after_nil]
  read_window

set_option maxHeartbeats 4000000 in
theorem keep_S3_main_arg3 (W : Valuation τ sig (Elt F)) :
    after (S3 (F := F)) W (Proc.devRef .tc main_arg3) = W (Proc.devRef .tc main_arg3) := by
  simp only [S3, after_cons, after_nil]
  read_window

set_option maxHeartbeats 4000000 in
theorem keep_S3_main_v3 (W : Valuation τ sig (Elt F)) :
    after (S3 (F := F)) W (Proc.devRef .tc main_v3) = W (Proc.devRef .tc main_v3) := by
  simp only [S3, after_cons, after_nil]
  read_window

set_option maxHeartbeats 4000000 in
theorem keep_S3_main_v6 (W : Valuation τ sig (Elt F)) :
    after (S3 (F := F)) W (Proc.devRef .tc main_v6) = W (Proc.devRef .tc main_v6) := by
  simp only [S3, after_cons, after_nil]
  read_window

set_option maxHeartbeats 4000000 in
theorem keep_S3_main_v34 (W : Valuation τ sig (Elt F)) :
    after (S3 (F := F)) W (Proc.devRef .tc main_v34) = W (Proc.devRef .tc main_v34) := by
  simp only [S3, after_cons, after_nil]
  read_window

set_option maxHeartbeats 4000000 in
theorem keep_S3_main_v46 (W : Valuation τ sig (Elt F)) :
    after (S3 (F := F)) W (Proc.devRef .tc main_v46) = W (Proc.devRef .tc main_v46) := by
  simp only [S3, after_cons, after_nil]
  read_window

set_option maxHeartbeats 4000000 in
theorem win_S4_main_v82 (W : Valuation τ sig (Elt F)) (x0 : (⟨Cert.ReferenceIdeal.S100000x64, .f32⟩ : BufTy).Contents (Elt F)) (x1 : (⟨Cert.ReferenceIdeal.S2x1600000, .i32⟩ : BufTy).Contents (Elt F))
    (h_main_v3 : W (Proc.devRef .tc main_v3) = Cert.ReferenceIdeal.ReadP.val_main_v3 (F := F) x1)
    (h_main_v6 : W (Proc.devRef .tc main_v6) = Cert.ReferenceIdeal.ReadP.val_main_v6 (F := F) x1)
    (h_main_v34 : W (Proc.devRef .tc main_v34) = Cert.ReferenceIdeal.ReadP.val_main_v34 (F := F) x1)
    (h_main_v70 : W (Proc.devRef .tc main_v70) = Cert.ReferenceIdeal.ReadP.val_main_v70 (F := F) x0 x1) :
    after (S4 (F := F)) W (Proc.devRef .tc main_v82) = Cert.ReferenceIdeal.ReadP.val_main_v82 (F := F) x0 x1 := by
  simp only [S4, after_cons, after_nil]
  read_window
  rw [h_main_v3, h_main_v6, h_main_v34, h_main_v70]
  all_goals rfl

set_option maxHeartbeats 4000000 in
theorem keep_S4_main_arg0 (W : Valuation τ sig (Elt F)) :
    after (S4 (F := F)) W (Proc.devRef .tc main_arg0) = W (Proc.devRef .tc main_arg0) := by
  simp only [S4, after_cons, after_nil]
  read_window

set_option maxHeartbeats 4000000 in
theorem keep_S4_main_arg2 (W : Valuation τ sig (Elt F)) :
    after (S4 (F := F)) W (Proc.devRef .tc main_arg2) = W (Proc.devRef .tc main_arg2) := by
  simp only [S4, after_cons, after_nil]
  read_window

set_option maxHeartbeats 4000000 in
theorem keep_S4_main_arg3 (W : Valuation τ sig (Elt F)) :
    after (S4 (F := F)) W (Proc.devRef .tc main_arg3) = W (Proc.devRef .tc main_arg3) := by
  simp only [S4, after_cons, after_nil]
  read_window

set_option maxHeartbeats 4000000 in
theorem keep_S4_main_v3 (W : Valuation τ sig (Elt F)) :
    after (S4 (F := F)) W (Proc.devRef .tc main_v3) = W (Proc.devRef .tc main_v3) := by
  simp only [S4, after_cons, after_nil]
  read_window

set_option maxHeartbeats 4000000 in
theorem keep_S4_main_v6 (W : Valuation τ sig (Elt F)) :
    after (S4 (F := F)) W (Proc.devRef .tc main_v6) = W (Proc.devRef .tc main_v6) := by
  simp only [S4, after_cons, after_nil]
  read_window

set_option maxHeartbeats 4000000 in
theorem keep_S4_main_v34 (W : Valuation τ sig (Elt F)) :
    after (S4 (F := F)) W (Proc.devRef .tc main_v34) = W (Proc.devRef .tc main_v34) := by
  simp only [S4, after_cons, after_nil]
  read_window

set_option maxHeartbeats 4000000 in
theorem keep_S4_main_v46 (W : Valuation τ sig (Elt F)) :
    after (S4 (F := F)) W (Proc.devRef .tc main_v46) = W (Proc.devRef .tc main_v46) := by
  simp only [S4, after_cons, after_nil]
  read_window

set_option maxHeartbeats 4000000 in
theorem keep_S4_main_v70 (W : Valuation τ sig (Elt F)) :
    after (S4 (F := F)) W (Proc.devRef .tc main_v70) = W (Proc.devRef .tc main_v70) := by
  simp only [S4, after_cons, after_nil]
  read_window

set_option maxHeartbeats 4000000 in
theorem win_S5_main_v94 (W : Valuation τ sig (Elt F)) (x0 : (⟨Cert.ReferenceIdeal.S100000x64, .f32⟩ : BufTy).Contents (Elt F)) (x1 : (⟨Cert.ReferenceIdeal.S2x1600000, .i32⟩ : BufTy).Contents (Elt F))
    (h_main_v3 : W (Proc.devRef .tc main_v3) = Cert.ReferenceIdeal.ReadP.val_main_v3 (F := F) x1)
    (h_main_v6 : W (Proc.devRef .tc main_v6) = Cert.ReferenceIdeal.ReadP.val_main_v6 (F := F) x1)
    (h_main_v34 : W (Proc.devRef .tc main_v34) = Cert.ReferenceIdeal.ReadP.val_main_v34 (F := F) x1)
    (h_main_v82 : W (Proc.devRef .tc main_v82) = Cert.ReferenceIdeal.ReadP.val_main_v82 (F := F) x0 x1) :
    after (S5 (F := F)) W (Proc.devRef .tc main_v94) = Cert.ReferenceIdeal.ReadP.val_main_v94 (F := F) x0 x1 := by
  simp only [S5, after_cons, after_nil]
  read_window
  rw [h_main_v3, h_main_v6, h_main_v34, h_main_v82]
  all_goals rfl

set_option maxHeartbeats 4000000 in
theorem keep_S5_main_arg0 (W : Valuation τ sig (Elt F)) :
    after (S5 (F := F)) W (Proc.devRef .tc main_arg0) = W (Proc.devRef .tc main_arg0) := by
  simp only [S5, after_cons, after_nil]
  read_window

set_option maxHeartbeats 4000000 in
theorem keep_S5_main_arg2 (W : Valuation τ sig (Elt F)) :
    after (S5 (F := F)) W (Proc.devRef .tc main_arg2) = W (Proc.devRef .tc main_arg2) := by
  simp only [S5, after_cons, after_nil]
  read_window

set_option maxHeartbeats 4000000 in
theorem keep_S5_main_arg3 (W : Valuation τ sig (Elt F)) :
    after (S5 (F := F)) W (Proc.devRef .tc main_arg3) = W (Proc.devRef .tc main_arg3) := by
  simp only [S5, after_cons, after_nil]
  read_window

set_option maxHeartbeats 4000000 in
theorem keep_S5_main_v3 (W : Valuation τ sig (Elt F)) :
    after (S5 (F := F)) W (Proc.devRef .tc main_v3) = W (Proc.devRef .tc main_v3) := by
  simp only [S5, after_cons, after_nil]
  read_window

set_option maxHeartbeats 4000000 in
theorem keep_S5_main_v6 (W : Valuation τ sig (Elt F)) :
    after (S5 (F := F)) W (Proc.devRef .tc main_v6) = W (Proc.devRef .tc main_v6) := by
  simp only [S5, after_cons, after_nil]
  read_window

set_option maxHeartbeats 4000000 in
theorem keep_S5_main_v34 (W : Valuation τ sig (Elt F)) :
    after (S5 (F := F)) W (Proc.devRef .tc main_v34) = W (Proc.devRef .tc main_v34) := by
  simp only [S5, after_cons, after_nil]
  read_window

set_option maxHeartbeats 4000000 in
theorem keep_S5_main_v46 (W : Valuation τ sig (Elt F)) :
    after (S5 (F := F)) W (Proc.devRef .tc main_v46) = W (Proc.devRef .tc main_v46) := by
  simp only [S5, after_cons, after_nil]
  read_window

set_option maxHeartbeats 4000000 in
theorem keep_S5_main_v70 (W : Valuation τ sig (Elt F)) :
    after (S5 (F := F)) W (Proc.devRef .tc main_v70) = W (Proc.devRef .tc main_v70) := by
  simp only [S5, after_cons, after_nil]
  read_window

set_option maxHeartbeats 4000000 in
theorem win_S6_main_v106 (W : Valuation τ sig (Elt F)) (x0 : (⟨Cert.ReferenceIdeal.S100000x64, .f32⟩ : BufTy).Contents (Elt F)) (x1 : (⟨Cert.ReferenceIdeal.S2x1600000, .i32⟩ : BufTy).Contents (Elt F))
    (h_main_v3 : W (Proc.devRef .tc main_v3) = Cert.ReferenceIdeal.ReadP.val_main_v3 (F := F) x1)
    (h_main_v6 : W (Proc.devRef .tc main_v6) = Cert.ReferenceIdeal.ReadP.val_main_v6 (F := F) x1)
    (h_main_v34 : W (Proc.devRef .tc main_v34) = Cert.ReferenceIdeal.ReadP.val_main_v34 (F := F) x1)
    (h_main_v94 : W (Proc.devRef .tc main_v94) = Cert.ReferenceIdeal.ReadP.val_main_v94 (F := F) x0 x1) :
    after (S6 (F := F)) W (Proc.devRef .tc main_v106) = Cert.ReferenceIdeal.ReadP.val_main_v106 (F := F) x0 x1 := by
  simp only [S6, after_cons, after_nil]
  read_window
  rw [h_main_v3, h_main_v6, h_main_v34, h_main_v94]
  all_goals rfl

set_option maxHeartbeats 4000000 in
theorem keep_S6_main_arg0 (W : Valuation τ sig (Elt F)) :
    after (S6 (F := F)) W (Proc.devRef .tc main_arg0) = W (Proc.devRef .tc main_arg0) := by
  simp only [S6, after_cons, after_nil]
  read_window

set_option maxHeartbeats 4000000 in
theorem keep_S6_main_arg2 (W : Valuation τ sig (Elt F)) :
    after (S6 (F := F)) W (Proc.devRef .tc main_arg2) = W (Proc.devRef .tc main_arg2) := by
  simp only [S6, after_cons, after_nil]
  read_window

set_option maxHeartbeats 4000000 in
theorem keep_S6_main_arg3 (W : Valuation τ sig (Elt F)) :
    after (S6 (F := F)) W (Proc.devRef .tc main_arg3) = W (Proc.devRef .tc main_arg3) := by
  simp only [S6, after_cons, after_nil]
  read_window

set_option maxHeartbeats 4000000 in
theorem keep_S6_main_v3 (W : Valuation τ sig (Elt F)) :
    after (S6 (F := F)) W (Proc.devRef .tc main_v3) = W (Proc.devRef .tc main_v3) := by
  simp only [S6, after_cons, after_nil]
  read_window

set_option maxHeartbeats 4000000 in
theorem keep_S6_main_v6 (W : Valuation τ sig (Elt F)) :
    after (S6 (F := F)) W (Proc.devRef .tc main_v6) = W (Proc.devRef .tc main_v6) := by
  simp only [S6, after_cons, after_nil]
  read_window

set_option maxHeartbeats 4000000 in
theorem keep_S6_main_v34 (W : Valuation τ sig (Elt F)) :
    after (S6 (F := F)) W (Proc.devRef .tc main_v34) = W (Proc.devRef .tc main_v34) := by
  simp only [S6, after_cons, after_nil]
  read_window

set_option maxHeartbeats 4000000 in
theorem keep_S6_main_v46 (W : Valuation τ sig (Elt F)) :
    after (S6 (F := F)) W (Proc.devRef .tc main_v46) = W (Proc.devRef .tc main_v46) := by
  simp only [S6, after_cons, after_nil]
  read_window

set_option maxHeartbeats 4000000 in
theorem keep_S6_main_v70 (W : Valuation τ sig (Elt F)) :
    after (S6 (F := F)) W (Proc.devRef .tc main_v70) = W (Proc.devRef .tc main_v70) := by
  simp only [S6, after_cons, after_nil]
  read_window

set_option maxHeartbeats 4000000 in
theorem win_S7_main_v118 (W : Valuation τ sig (Elt F)) (x0 : (⟨Cert.ReferenceIdeal.S100000x64, .f32⟩ : BufTy).Contents (Elt F)) (x1 : (⟨Cert.ReferenceIdeal.S2x1600000, .i32⟩ : BufTy).Contents (Elt F))
    (h_main_v3 : W (Proc.devRef .tc main_v3) = Cert.ReferenceIdeal.ReadP.val_main_v3 (F := F) x1)
    (h_main_v6 : W (Proc.devRef .tc main_v6) = Cert.ReferenceIdeal.ReadP.val_main_v6 (F := F) x1)
    (h_main_v34 : W (Proc.devRef .tc main_v34) = Cert.ReferenceIdeal.ReadP.val_main_v34 (F := F) x1)
    (h_main_v106 : W (Proc.devRef .tc main_v106) = Cert.ReferenceIdeal.ReadP.val_main_v106 (F := F) x0 x1) :
    after (S7 (F := F)) W (Proc.devRef .tc main_v118) = Cert.ReferenceIdeal.ReadP.val_main_v118 (F := F) x0 x1 := by
  simp only [S7, after_cons, after_nil]
  read_window
  rw [h_main_v3, h_main_v6, h_main_v34, h_main_v106]
  all_goals rfl

set_option maxHeartbeats 4000000 in
theorem keep_S7_main_arg0 (W : Valuation τ sig (Elt F)) :
    after (S7 (F := F)) W (Proc.devRef .tc main_arg0) = W (Proc.devRef .tc main_arg0) := by
  simp only [S7, after_cons, after_nil]
  read_window

set_option maxHeartbeats 4000000 in
theorem keep_S7_main_arg2 (W : Valuation τ sig (Elt F)) :
    after (S7 (F := F)) W (Proc.devRef .tc main_arg2) = W (Proc.devRef .tc main_arg2) := by
  simp only [S7, after_cons, after_nil]
  read_window

set_option maxHeartbeats 4000000 in
theorem keep_S7_main_arg3 (W : Valuation τ sig (Elt F)) :
    after (S7 (F := F)) W (Proc.devRef .tc main_arg3) = W (Proc.devRef .tc main_arg3) := by
  simp only [S7, after_cons, after_nil]
  read_window

set_option maxHeartbeats 4000000 in
theorem keep_S7_main_v46 (W : Valuation τ sig (Elt F)) :
    after (S7 (F := F)) W (Proc.devRef .tc main_v46) = W (Proc.devRef .tc main_v46) := by
  simp only [S7, after_cons, after_nil]
  read_window

set_option maxHeartbeats 4000000 in
theorem keep_S7_main_v70 (W : Valuation τ sig (Elt F)) :
    after (S7 (F := F)) W (Proc.devRef .tc main_v70) = W (Proc.devRef .tc main_v70) := by
  simp only [S7, after_cons, after_nil]
  read_window

set_option maxHeartbeats 4000000 in
theorem win_TW_main_v122 (W : Valuation τ sig (Elt F)) (x2 : FVec F S384x64 .f32)
    (h : W (Proc.devRef .tc main_arg2) = x2) :
    after (TW (F := F)) W (Proc.devRef .tc main_v122) = (extractStridedSlice S64x64 ![192, 0] x2 slices_S384x64_S64x64_192_0) := by
  simp only [TW, after_cons, after_nil]
  read_window
  rw [h]
  all_goals rfl

set_option maxHeartbeats 4000000 in
theorem win_TW_main_v126 (W : Valuation τ sig (Elt F)) (x2 : FVec F S384x64 .f32)
    (h : W (Proc.devRef .tc main_arg2) = x2) :
    after (TW (F := F)) W (Proc.devRef .tc main_v126) = addf (F := F) (subf (F := F) (extractStridedSlice S64x64 ![0, 0] x2 slices_S384x64_S64x64_0_0) (extractStridedSlice S64x64 ![192, 0] x2 slices_S384x64_S64x64_192_0)) (extractStridedSlice S64x64 ![256, 0] x2 slices_S384x64_S64x64_256_0) := by
  simp only [TW, after_cons, after_nil]
  read_window
  rw [h]
  all_goals rfl

set_option maxHeartbeats 4000000 in
theorem win_TW_main_v128 (W : Valuation τ sig (Elt F)) (x2 : FVec F S384x64 .f32)
    (h : W (Proc.devRef .tc main_arg2) = x2) :
    after (TW (F := F)) W (Proc.devRef .tc main_v128) = addf (F := F) (subf (F := F) (extractStridedSlice S64x64 ![64, 0] x2 slices_S384x64_S64x64_64_0) (extractStridedSlice S64x64 ![256, 0] x2 slices_S384x64_S64x64_256_0)) (extractStridedSlice S64x64 ![320, 0] x2 slices_S384x64_S64x64_320_0) := by
  simp only [TW, after_cons, after_nil]
  read_window
  rw [h]
  all_goals rfl

set_option maxHeartbeats 4000000 in
theorem win_TW_main_v129 (W : Valuation τ sig (Elt F)) (x2 : FVec F S384x64 .f32)
    (h : W (Proc.devRef .tc main_arg2) = x2) :
    after (TW (F := F)) W (Proc.devRef .tc main_v129) = subf (F := F) (extractStridedSlice S64x64 ![128, 0] x2 slices_S384x64_S64x64_128_0) (extractStridedSlice S64x64 ![320, 0] x2 slices_S384x64_S64x64_320_0) := by
  simp only [TW, after_cons, after_nil]
  read_window
  rw [h]
  all_goals rfl

set_option maxHeartbeats 4000000 in
theorem win_TW_main_v130 (W : Valuation τ sig (Elt F)) (x3 : FVec F S64 .f32)
    (h : W (Proc.devRef .tc main_arg3) = x3) :
    after (TW (F := F)) W (Proc.devRef .tc main_v130) = shapeCast S1x64 x3 shapeCasts_S64_S1x64 := by
  simp only [TW, after_cons, after_nil]
  read_window
  rw [h]
  all_goals rfl

set_option maxHeartbeats 4000000 in
theorem keep_TW_main_v46 (W : Valuation τ sig (Elt F)) :
    after (TW (F := F)) W (Proc.devRef .tc main_v46) = W (Proc.devRef .tc main_v46) := by
  simp only [TW, after_cons, after_nil]
  read_window

set_option maxHeartbeats 4000000 in
theorem keep_TW_main_v70 (W : Valuation τ sig (Elt F)) :
    after (TW (F := F)) W (Proc.devRef .tc main_v70) = W (Proc.devRef .tc main_v70) := by
  simp only [TW, after_cons, after_nil]
  read_window

set_option maxHeartbeats 4000000 in
theorem keep_TW_main_v118 (W : Valuation τ sig (Elt F)) :
    after (TW (F := F)) W (Proc.devRef .tc main_v118) = W (Proc.devRef .tc main_v118) := by
  simp only [TW, after_cons, after_nil]
  read_window

/-! ## The chain -/

set_option maxHeartbeats 1000000 in
/-- After the whole line: the three hop arrays are the reference's stages, the four folded blocks and the bias row
    are cut from the weight matrix and the bias. -/
theorem lookups (L : Valuation τ sig (Elt F)) :
    after (List.flatten [hostOps0 (F := F), hostOps0_1 (F := F), hostOps0_2 (F := F), hostOps0_3 (F := F), hostOps0_4 (F := F)]) L (Proc.devRef .tc main_v46) = Cert.ReferenceIdeal.ReadP.val_main_v46 (F := F) (L (Proc.devRef .tc main_arg0)) (L (Proc.devRef .tc main_arg1))
    ∧ after (List.flatten [hostOps0 (F := F), hostOps0_1 (F := F), hostOps0_2 (F := F), hostOps0_3 (F := F), hostOps0_4 (F := F)]) L (Proc.devRef .tc main_v70) = Cert.ReferenceIdeal.ReadP.val_main_v70 (F := F) (L (Proc.devRef .tc main_arg0)) (L (Proc.devRef .tc main_arg1))
    ∧ after (List.flatten [hostOps0 (F := F), hostOps0_1 (F := F), hostOps0_2 (F := F), hostOps0_3 (F := F), hostOps0_4 (F := F)]) L (Proc.devRef .tc main_v118) = Cert.ReferenceIdeal.ReadP.val_main_v118 (F := F) (L (Proc.devRef .tc main_arg0)) (L (Proc.devRef .tc main_arg1))
    ∧ after (List.flatten [hostOps0 (F := F), hostOps0_1 (F := F), hostOps0_2 (F := F), hostOps0_3 (F := F), hostOps0_4 (F := F)]) L (Proc.devRef .tc main_v122) = (extractStridedSlice S64x64 ![192, 0] (L (Proc.devRef .tc main_arg2)) slices_S384x64_S64x64_192_0)
    ∧ after (List.flatten [hostOps0 (F := F), hostOps0_1 (F := F), hostOps0_2 (F := F), hostOps0_3 (F := F), hostOps0_4 (F := F)]) L (Proc.devRef .tc main_v126) = addf (F := F) (subf (F := F) (extractStridedSlice S64x64 ![0, 0] (L (Proc.devRef .tc main_arg2)) slices_S384x64_S64x64_0_0) (extractStridedSlice S64x64 ![192, 0] (L (Proc.devRef .tc main_arg2)) slices_S384x64_S64x64_192_0)) (extractStridedSlice S64x64 ![256, 0] (L (Proc.devRef .tc main_arg2)) slices_S384x64_S64x64_256_0)
    ∧ after (List.flatten [hostOps0 (F := F), hostOps0_1 (F := F), hostOps0_2 (F := F), hostOps0_3 (F := F), hostOps0_4 (F := F)]) L (Proc.devRef .tc main_v128) = addf (F := F) (subf (F := F) (extractStridedSlice S64x64 ![64, 0] (L (Proc.devRef .tc main_arg2)) slices_S384x64_S64x64_64_0) (extractStridedSlice S64x64 ![256, 0] (L (Proc.devRef .tc main_arg2)) slices_S384x64_S64x64_256_0)) (extractStridedSlice S64x64 ![320, 0] (L (Proc.devRef .tc main_arg2)) slices_S384x64_S64x64_320_0)
    ∧ after (List.flatten [hostOps0 (F := F), hostOps0_1 (F := F), hostOps0_2 (F := F), hostOps0_3 (F := F), hostOps0_4 (F := F)]) L (Proc.devRef .tc main_v129) = subf (F := F) (extractStridedSlice S64x64 ![128, 0] (L (Proc.devRef .tc main_arg2)) slices_S384x64_S64x64_128_0) (extractStridedSlice S64x64 ![320, 0] (L (Proc.devRef .tc main_arg2)) slices_S384x64_S64x64_320_0)
    ∧ after (List.flatten [hostOps0 (F := F), hostOps0_1 (F := F), hostOps0_2 (F := F), hostOps0_3 (F := F), hostOps0_4 (F := F)]) L (Proc.devRef .tc main_v130) = shapeCast S1x64 (L (Proc.devRef .tc main_arg3)) shapeCasts_S64_S1x64 := by
  rw [ops_split]
  simp only [StableHlo.after_append]
  have f0_main_arg0 : L (Proc.devRef .tc main_arg0) = (L (Proc.devRef .tc main_arg0)) := rfl
  have f0_main_arg1 : L (Proc.devRef .tc main_arg1) = (L (Proc.devRef .tc main_arg1)) := rfl
  have f0_main_arg2 : L (Proc.devRef .tc main_arg2) = (L (Proc.devRef .tc main_arg2)) := rfl
  have f0_main_arg3 : L (Proc.devRef .tc main_arg3) = (L (Proc.devRef .tc main_arg3)) := rfl
  have fA_main_v3 := win_A_main_v3 L _ f0_main_arg1
  have fA_main_v6 := win_A_main_v6 L _ f0_main_arg1
  have fA_main_v7 := win_A_main_v7 L
  have fA_main_v10 := win_A_main_v10 L _ f0_main_arg1
  have fA_main_arg0 := (keep_A_main_arg0 L).trans f0_main_arg0
  have fA_main_arg2 := (keep_A_main_arg2 L).trans f0_main_arg2
  have fA_main_arg3 := (keep_A_main_arg3 L).trans f0_main_arg3
  have fB_main_v17 := win_B_main_v17 (after (A (F := F)) L) _ fA_main_v10
  have fB_main_arg0 := (keep_B_main_arg0 (after (A (F := F)) L)).trans fA_main_arg0
  have fB_main_arg2 := (keep_B_main_arg2 (after (A (F := F)) L)).trans fA_main_arg2
  have fB_main_arg3 := (keep_B_main_arg3 (after (A (F := F)) L)).trans fA_main_arg3
  have fB_main_v3 := (keep_B_main_v3 (after (A (F := F)) L)).trans fA_main_v3
  have fB_main_v6 := (keep_B_main_v6 (after (A (F := F)) L)).trans fA_main_v6
  have fB_main_v7 := (keep_B_main_v7 (after (A (F := F)) L)).trans fA_main_v7
  have fC_main_v34 := win_C_main_v34 (after (B (F := F)) (after (A (F := F)) L)) _ fB_main_v17 fB_main_v3 fB_main_v6 fB_main_v7
  have fC_main_arg0 := (keep_C_main_arg0 (after (B (F := F)) (after (A (F := F)) L))).trans fB_main_arg0
  have fC_main_arg2 := (keep_C_main_arg2 (after (B (F := F)) (after (A (F := F)) L))).trans fB_main_arg2
  have fC_main_arg3 := (keep_C_main_arg3 (after (B (F := F)) (after (A (F := F)) L))).trans fB_main_arg3
  have fC_main_v3 := (keep_C_main_v3 (after (B (F := F)) (after (A (F := F)) L))).trans fB_main_v3
  have fC_main_v6 := (keep_C_main_v6 (after (B (F := F)) (after (A (F := F)) L))).trans fB_main_v6
  have fS1_main_v46 := win_S1_main_v46 (after (C (F := F)) (after (B (F := F)) (after (A (F := F)) L))) _ _ fC_main_v3 fC_main_v6 fC_main_v34 fC_main_arg0
  have fS1_main_arg0 := (keep_S1_main_arg0 (after (C (F := F)) (after (B (F := F)) (after (A (F := F)) L)))).trans fC_main_arg0
  have fS1_main_arg2 := (keep_S1_main_arg2 (after (C (F := F)) (after (B (F := F)) (after (A (F := F)) L)))).trans fC_main_arg2
  have fS1_main_arg3 := (keep_S1_main_arg3 (after (C (F := F)) (after (B (F := F)) (after (A (F := F)) L)))).trans fC_main_arg3
  have fS1_main_v3 := (keep_S1_main_v3 (after (C (F := F)) (after (B (F := F)) (after (A (F := F)) L)))).trans fC_main_v3
  have fS1_main_v6 := (keep_S1_main_v6 (after (C (F := F)) (after (B (F := F)) (after (A (F := F)) L)))).trans fC_main_v6
  have fS1_main_v34 := (keep_S1_main_v34 (after (C (F := F)) (after (B (F := F)) (after (A (F := F)) L)))).trans fC_main_v34
  have fS2_main_v58 := win_S2_main_v58 (after (S1 (F := F)) (after (C (F := F)) (after (B (F := F)) (after (A (F := F)) L)))) _ _ fS1_main_v3 fS1_main_v6 fS1_main_v34 fS1_main_v46
  have fS2_main_arg0 := (keep_S2_main_arg0 (after (S1 (F := F)) (after (C (F := F)) (after (B (F := F)) (after (A (F := F)) L))))).trans fS1_main_arg0
  have fS2_main_arg2 := (keep_S2_main_arg2 (after (S1 (F := F)) (after (C (F := F)) (after (B (F := F)) (after (A (F := F)) L))))).trans fS1_main_arg2
  have fS2_main_arg3 := (keep_S2_main_arg3 (after (S1 (F := F)) (after (C (F := F)) (after (B (F := F)) (after (A (F := F)) L))))).trans fS1_main_arg3
  have fS2_main_v3 := (keep_S2_main_v3 (after (S1 (F := F)) (after (C (F := F)) (after (B (F := F)) (after (A (F := F)) L))))).trans fS1_main_v3
  have fS2_main_v6 := (keep_S2_main_v6 (after (S1 (F := F)) (after (C (F := F)) (after (B (F := F)) (after (A (F := F)) L))))).trans fS1_main_v6
  have fS2_main_v34 := (keep_S2_main_v34 (after (S1 (F := F)) (after (C (F := F)) (after (B (F := F)) (after (A (F := F)) L))))).trans fS1_main_v34
  have fS2_main_v46 := (keep_S2_main_v46 (after (S1 (F := F)) (after (C (F := F)) (after (B (F := F)) (after (A (F := F)) L))))).trans fS1_main_v46
  have fS3_main_v70 := win_S3_main_v70 (after (S2 (F := F)) (after (S1 (F := F)) (after (C (F := F)) (after (B (F := F)) (after (A (F := F)) L))))) _ _ fS2_main_v3 fS2_main_v6 fS2_main_v34 fS2_main_v58
  have fS3_main_arg0 := (keep_S3_main_arg0 (after (S2 (F := F)) (after (S1 (F := F)) (after (C (F := F)) (after (B (F := F)) (after (A (F := F)) L)))))).trans fS2_main_arg0
  have fS3_main_arg2 := (keep_S3_main_arg2 (after (S2 (F := F)) (after (S1 (F := F)) (after (C (F := F)) (after (B (F := F)) (after (A (F := F)) L)))))).trans fS2_main_arg2
  have fS3_main_arg3 := (keep_S3_main_arg3 (after (S2 (F := F)) (after (S1 (F := F)) (after (C (F := F)) (after (B (F := F)) (after (A (F := F)) L)))))).trans fS2_main_arg3
  have fS3_main_v3 := (keep_S3_main_v3 (after (S2 (F := F)) (after (S1 (F := F)) (after (C (F := F)) (after (B (F := F)) (after (A (F := F)) L)))))).trans fS2_main_v3
  have fS3_main_v6 := (keep_S3_main_v6 (after (S2 (F := F)) (after (S1 (F := F)) (after (C (F := F)) (after (B (F := F)) (after (A (F := F)) L)))))).trans fS2_main_v6
  have fS3_main_v34 := (keep_S3_main_v34 (after (S2 (F := F)) (after (S1 (F := F)) (after (C (F := F)) (after (B (F := F)) (after (A (F := F)) L)))))).trans fS2_main_v34
  have fS3_main_v46 := (keep_S3_main_v46 (after (S2 (F := F)) (after (S1 (F := F)) (after (C (F := F)) (after (B (F := F)) (after (A (F := F)) L)))))).trans fS2_main_v46
  have fS4_main_v82 := win_S4_main_v82 (after (S3 (F := F)) (after (S2 (F := F)) (after (S1 (F := F)) (after (C (F := F)) (after (B (F := F)) (after (A (F := F)) L)))))) _ _ fS3_main_v3 fS3_main_v6 fS3_main_v34 fS3_main_v70
  have fS4_main_arg0 := (keep_S4_main_arg0 (after (S3 (F := F)) (after (S2 (F := F)) (after (S1 (F := F)) (after (C (F := F)) (after (B (F := F)) (after (A (F := F)) L))))))).trans fS3_main_arg0
  have fS4_main_arg2 := (keep_S4_main_arg2 (after (S3 (F := F)) (after (S2 (F := F)) (after (S1 (F := F)) (after (C (F := F)) (after (B (F := F)) (after (A (F := F)) L))))))).trans fS3_main_arg2
  have fS4_main_arg3 := (keep_S4_main_arg3 (after (S3 (F := F)) (after (S2 (F := F)) (after (S1 (F := F)) (after (C (F := F)) (after (B (F := F)) (after (A (F := F)) L))))))).trans fS3_main_arg3
  have fS4_main_v3 := (keep_S4_main_v3 (after (S3 (F := F)) (after (S2 (F := F)) (after (S1 (F := F)) (after (C (F := F)) (after (B (F := F)) (after (A (F := F)) L))))))).trans fS3_main_v3
  have fS4_main_v6 := (keep_S4_main_v6 (after (S3 (F := F)) (after (S2 (F := F)) (after (S1 (F := F)) (after (C (F := F)) (after (B (F := F)) (after (A (F := F)) L))))))).trans fS3_main_v6
  have fS4_main_v34 := (keep_S4_main_v34 (after (S3 (F := F)) (after (S2 (F := F)) (after (S1 (F := F)) (after (C (F := F)) (after (B (F := F)) (after (A (F := F)) L))))))).trans fS3_main_v34
  have fS4_main_v46 := (keep_S4_main_v46 (after (S3 (F := F)) (after (S2 (F := F)) (after (S1 (F := F)) (after (C (F := F)) (after (B (F := F)) (after (A (F := F)) L))))))).trans fS3_main_v46
  have fS4_main_v70 := (keep_S4_main_v70 (after (S3 (F := F)) (after (S2 (F := F)) (after (S1 (F := F)) (after (C (F := F)) (after (B (F := F)) (after (A (F := F)) L))))))).trans fS3_main_v70
  have fS5_main_v94 := win_S5_main_v94 (after (S4 (F := F)) (after (S3 (F := F)) (after (S2 (F := F)) (after (S1 (F := F)) (after (C (F := F)) (after (B (F := F)) (after (A (F := F)) L))))))) _ _ fS4_main_v3 fS4_main_v6 fS4_main_v34 fS4_main_v82
  have fS5_main_arg0 := (keep_S5_main_arg0 (after (S4 (F := F)) (after (S3 (F := F)) (after (S2 (F := F)) (after (S1 (F := F)) (after (C (F := F)) (after (B (F := F)) (after (A (F := F)) L)))))))).trans fS4_main_arg0
  have fS5_main_arg2 := (keep_S5_main_arg2 (after (S4 (F := F)) (after (S3 (F := F)) (after (S2 (F := F)) (after (S1 (F := F)) (after (C (F := F)) (after (B (F := F)) (after (A (F := F)) L)))))))).trans fS4_main_arg2
  have fS5_main_arg3 := (keep_S5_main_arg3 (after (S4 (F := F)) (after (S3 (F := F)) (after (S2 (F := F)) (after (S1 (F := F)) (after (C (F := F)) (after (B (F := F)) (after (A (F := F)) L)))))))).trans fS4_main_arg3
  have fS5_main_v3 := (keep_S5_main_v3 (after (S4 (F := F)) (after (S3 (F := F)) (after (S2 (F := F)) (after (S1 (F := F)) (after (C (F := F)) (after (B (F := F)) (after (A (F := F)) L)))))))).trans fS4_main_v3
  have fS5_main_v6 := (keep_S5_main_v6 (after (S4 (F := F)) (after (S3 (F := F)) (after (S2 (F := F)) (after (S1 (F := F)) (after (C (F := F)) (after (B (F := F)) (after (A (F := F)) L)))))))).trans fS4_main_v6
  have fS5_main_v34 := (keep_S5_main_v34 (after (S4 (F := F)) (after (S3 (F := F)) (after (S2 (F := F)) (after (S1 (F := F)) (after (C (F := F)) (after (B (F := F)) (after (A (F := F)) L)))))))).trans fS4_main_v34
  have fS5_main_v46 := (keep_S5_main_v46 (after (S4 (F := F)) (after (S3 (F := F)) (after (S2 (F := F)) (after (S1 (F := F)) (after (C (F := F)) (after (B (F := F)) (after (A (F := F)) L)))))))).trans fS4_main_v46
  have fS5_main_v70 := (keep_S5_main_v70 (after (S4 (F := F)) (after (S3 (F := F)) (after (S2 (F := F)) (after (S1 (F := F)) (after (C (F := F)) (after (B (F := F)) (after (A (F := F)) L)))))))).trans fS4_main_v70
  have fS6_main_v106 := win_S6_main_v106 (after (S5 (F := F)) (after (S4 (F := F)) (after (S3 (F := F)) (after (S2 (F := F)) (after (S1 (F := F)) (after (C (F := F)) (after (B (F := F)) (after (A (F := F)) L)))))))) _ _ fS5_main_v3 fS5_main_v6 fS5_main_v34 fS5_main_v94
  have fS6_main_arg0 := (keep_S6_main_arg0 (after (S5 (F := F)) (after (S4 (F := F)) (after (S3 (F := F)) (after (S2 (F := F)) (after (S1 (F := F)) (after (C (F := F)) (after (B (F := F)) (after (A (F := F)) L))))))))).trans fS5_main_arg0
  have fS6_main_arg2 := (keep_S6_main_arg2 (after (S5 (F := F)) (after (S4 (F := F)) (after (S3 (F := F)) (after (S2 (F := F)) (after (S1 (F := F)) (after (C (F := F)) (after (B (F := F)) (after (A (F := F)) L))))))))).trans fS5_main_arg2
  have fS6_main_arg3 := (keep_S6_main_arg3 (after (S5 (F := F)) (after (S4 (F := F)) (after (S3 (F := F)) (after (S2 (F := F)) (after (S1 (F := F)) (after (C (F := F)) (after (B (F := F)) (after (A (F := F)) L))))))))).trans fS5_main_arg3
  have fS6_main_v3 := (keep_S6_main_v3 (after (S5 (F := F)) (after (S4 (F := F)) (after (S3 (F := F)) (after (S2 (F := F)) (after (S1 (F := F)) (after (C (F := F)) (after (B (F := F)) (after (A (F := F)) L))))))))).trans fS5_main_v3
  have fS6_main_v6 := (keep_S6_main_v6 (after (S5 (F := F)) (after (S4 (F := F)) (after (S3 (F := F)) (after (S2 (F := F)) (after (S1 (F := F)) (after (C (F := F)) (after (B (F := F)) (after (A (F := F)) L))))))))).trans fS5_main_v6
  have fS6_main_v34 := (keep_S6_main_v34 (after (S5 (F := F)) (after (S4 (F := F)) (after (S3 (F := F)) (after (S2 (F := F)) (after (S1 (F := F)) (after (C (F := F)) (after (B (F := F)) (after (A (F := F)) L))))))))).trans fS5_main_v34
  have fS6_main_v46 := (keep_S6_main_v46 (after (S5 (F := F)) (after (S4 (F := F)) (after (S3 (F := F)) (after (S2 (F := F)) (after (S1 (F := F)) (after (C (F := F)) (after (B (F := F)) (after (A (F := F)) L))))))))).trans fS5_main_v46
  have fS6_main_v70 := (keep_S6_main_v70 (after (S5 (F := F)) (after (S4 (F := F)) (after (S3 (F := F)) (after (S2 (F := F)) (after (S1 (F := F)) (after (C (F := F)) (after (B (F := F)) (after (A (F := F)) L))))))))).trans fS5_main_v70
  have fS7_main_v118 := win_S7_main_v118 (after (S6 (F := F)) (after (S5 (F := F)) (after (S4 (F := F)) (after (S3 (F := F)) (after (S2 (F := F)) (after (S1 (F := F)) (after (C (F := F)) (after (B (F := F)) (after (A (F := F)) L))))))))) _ _ fS6_main_v3 fS6_main_v6 fS6_main_v34 fS6_main_v106
  have fS7_main_arg0 := (keep_S7_main_arg0 (after (S6 (F := F)) (after (S5 (F := F)) (after (S4 (F := F)) (after (S3 (F := F)) (after (S2 (F := F)) (after (S1 (F := F)) (after (C (F := F)) (after (B (F := F)) (after (A (F := F)) L)))))))))).trans fS6_main_arg0
  have fS7_main_arg2 := (keep_S7_main_arg2 (after (S6 (F := F)) (after (S5 (F := F)) (after (S4 (F := F)) (after (S3 (F := F)) (after (S2 (F := F)) (after (S1 (F := F)) (after (C (F := F)) (after (B (F := F)) (after (A (F := F)) L)))))))))).trans fS6_main_arg2
  have fS7_main_arg3 := (keep_S7_main_arg3 (after (S6 (F := F)) (after (S5 (F := F)) (after (S4 (F := F)) (after (S3 (F := F)) (after (S2 (F := F)) (after (S1 (F := F)) (after (C (F := F)) (after (B (F := F)) (after (A (F := F)) L)))))))))).trans fS6_main_arg3
  have fS7_main_v46 := (keep_S7_main_v46 (after (S6 (F := F)) (after (S5 (F := F)) (after (S4 (F := F)) (after (S3 (F := F)) (after (S2 (F := F)) (after (S1 (F := F)) (after (C (F := F)) (after (B (F := F)) (after (A (F := F)) L)))))))))).trans fS6_main_v46
  have fS7_main_v70 := (keep_S7_main_v70 (after (S6 (F := F)) (after (S5 (F := F)) (after (S4 (F := F)) (after (S3 (F := F)) (after (S2 (F := F)) (after (S1 (F := F)) (after (C (F := F)) (after (B (F := F)) (after (A (F := F)) L)))))))))).trans fS6_main_v70
  exact ⟨(keep_TW_main_v46 _).trans fS7_main_v46, (keep_TW_main_v70 _).trans fS7_main_v70,
    (keep_TW_main_v118 _).trans fS7_main_v118,
    win_TW_main_v122 (after (S7 (F := F)) (after (S6 (F := F)) (after (S5 (F := F)) (after (S4 (F := F)) (after (S3 (F := F)) (after (S2 (F := F)) (after (S1 (F := F)) (after (C (F := F)) (after (B (F := F)) (after (A (F := F)) L)))))))))) _ fS7_main_arg2, win_TW_main_v126 (after (S7 (F := F)) (after (S6 (F := F)) (after (S5 (F := F)) (after (S4 (F := F)) (after (S3 (F := F)) (after (S2 (F := F)) (after (S1 (F := F)) (after (C (F := F)) (after (B (F := F)) (after (A (F := F)) L)))))))))) _ fS7_main_arg2,
    win_TW_main_v128 (after (S7 (F := F)) (after (S6 (F := F)) (after (S5 (F := F)) (after (S4 (F := F)) (after (S3 (F := F)) (after (S2 (F := F)) (after (S1 (F := F)) (after (C (F := F)) (after (B (F := F)) (after (A (F := F)) L)))))))))) _ fS7_main_arg2, win_TW_main_v129 (after (S7 (F := F)) (after (S6 (F := F)) (after (S5 (F := F)) (after (S4 (F := F)) (after (S3 (F := F)) (after (S2 (F := F)) (after (S1 (F := F)) (after (C (F := F)) (after (B (F := F)) (after (A (F := F)) L)))))))))) _ fS7_main_arg2,
    win_TW_main_v130 (after (S7 (F := F)) (after (S6 (F := F)) (after (S5 (F := F)) (after (S4 (F := F)) (after (S3 (F := F)) (after (S2 (F := F)) (after (S1 (F := F)) (after (C (F := F)) (after (B (F := F)) (after (A (F := F)) L)))))))))) _ fS7_main_arg3⟩

variable (m : (ℓ : Loc nD τ sig) → Buf (Elt Ideal) ℓ)

/-- The weight matrix as launched. -/
abbrev weightMat (c : Dev nD) : FVec Ideal S384x64 .f32 := m ((c : Thread nD τ).loc main_arg2)
/-- The bias vector as launched. -/
abbrev biasVec (c : Dev nD) : FVec Ideal S64 .f32 := m ((c : Thread nD τ).loc main_arg3)

/-! ## The hop arrays are the reference's -/

/-- Window 1's array: the features after one propagation step. -/
theorem hop1 (c : Dev nD) : V m c main_v46 = Cert.ReferenceIdeal.ReadP.val_main_v46 (F := Ideal) (m ((c : Thread nD τ).loc main_arg0)) (m ((c : Thread nD τ).loc main_arg1)) :=
  (lookups (F := Ideal) (fun b => m (c, b))).1
/-- Window 2's array: after three steps. -/
theorem hop3 (c : Dev nD) : V m c main_v70 = Cert.ReferenceIdeal.ReadP.val_main_v70 (F := Ideal) (m ((c : Thread nD τ).loc main_arg0)) (m ((c : Thread nD τ).loc main_arg1)) :=
  (lookups (F := Ideal) (fun b => m (c, b))).2.1
/-- Window 3's array: after seven steps. -/
theorem hop7 (c : Dev nD) : V m c main_v118 = Cert.ReferenceIdeal.ReadP.val_main_v118 (F := Ideal) (m ((c : Thread nD τ).loc main_arg0)) (m ((c : Thread nD τ).loc main_arg1)) :=
  (lookups (F := Ideal) (fun b => m (c, b))).2.2.1

/-! ## The folded weight blocks and the bias row -/

theorem wa_eq (c : Dev nD) : V m c main_v122 = (extractStridedSlice S64x64 ![192, 0] (m ((c : Thread nD τ).loc main_arg2)) slices_S384x64_S64x64_192_0) := (lookups (F := Ideal) (fun b => m (c, b))).2.2.2.1
theorem wb_eq (c : Dev nD) : V m c main_v126 = addf (F := Ideal) (φ := .f32) (subf (F := Ideal) (φ := .f32) (extractStridedSlice S64x64 ![0, 0] (m ((c : Thread nD τ).loc main_arg2)) slices_S384x64_S64x64_0_0) (extractStridedSlice S64x64 ![192, 0] (m ((c : Thread nD τ).loc main_arg2)) slices_S384x64_S64x64_192_0)) (extractStridedSlice S64x64 ![256, 0] (m ((c : Thread nD τ).loc main_arg2)) slices_S384x64_S64x64_256_0) := (lookups (F := Ideal) (fun b => m (c, b))).2.2.2.2.1
theorem wc_eq (c : Dev nD) : V m c main_v128 = addf (F := Ideal) (φ := .f32) (subf (F := Ideal) (φ := .f32) (extractStridedSlice S64x64 ![64, 0] (m ((c : Thread nD τ).loc main_arg2)) slices_S384x64_S64x64_64_0) (extractStridedSlice S64x64 ![256, 0] (m ((c : Thread nD τ).loc main_arg2)) slices_S384x64_S64x64_256_0)) (extractStridedSlice S64x64 ![320, 0] (m ((c : Thread nD τ).loc main_arg2)) slices_S384x64_S64x64_320_0) := (lookups (F := Ideal) (fun b => m (c, b))).2.2.2.2.2.1
theorem wd_eq (c : Dev nD) : V m c main_v129 = subf (F := Ideal) (φ := .f32) (extractStridedSlice S64x64 ![128, 0] (m ((c : Thread nD τ).loc main_arg2)) slices_S384x64_S64x64_128_0) (extractStridedSlice S64x64 ![320, 0] (m ((c : Thread nD τ).loc main_arg2)) slices_S384x64_S64x64_320_0) := (lookups (F := Ideal) (fun b => m (c, b))).2.2.2.2.2.2.1
theorem b2_eq (c : Dev nD) : V m c main_v130 = shapeCast S1x64 (m ((c : Thread nD τ).loc main_arg3)) shapeCasts_S64_S1x64 := (lookups (F := Ideal) (fun b => m (c, b))).2.2.2.2.2.2.2
/-- The first folded block is band 4 of the weight matrix … -/
theorem wa_apply (c : Dev nD) (n q : Fin 64) : V m c main_v122 (ix2 n q) = weightMat m c (ix2 (bandRow (3 : Fin 6) n) q) := by
  rw [wa_eq]
  exact slice2_axis0_apply 192 _ _ n q (bandRow (3 : Fin 6) n) (by show 3 * 64 + n.val = 192 + n.val; omega)

/-- … the second is (band 1 - band 4) + band 5 … -/
theorem wb_apply (c : Dev nD) (n q : Fin 64) :
    V m c main_v126 (ix2 n q) = (weightMat m c (ix2 (bandRow (0 : Fin 6) n) q) - weightMat m c (ix2 (bandRow (3 : Fin 6) n) q)) + weightMat m c (ix2 (bandRow (4 : Fin 6) n) q) := by
  rw [wb_eq, addf_apply, subf_apply, slice2_axis0_apply 0 _ _ n q (bandRow (0 : Fin 6) n) (by show 0 * 64 + n.val = 0 + n.val; omega),
    slice2_axis0_apply 192 _ _ n q (bandRow (3 : Fin 6) n) (by show 3 * 64 + n.val = 192 + n.val; omega),
    slice2_axis0_apply 256 _ _ n q (bandRow (4 : Fin 6) n) (by show 4 * 64 + n.val = 256 + n.val; omega)]

/-- … the third is (band 2 - band 5) + band 6 … -/
theorem wc_apply (c : Dev nD) (n q : Fin 64) :
    V m c main_v128 (ix2 n q) = (weightMat m c (ix2 (bandRow (1 : Fin 6) n) q) - weightMat m c (ix2 (bandRow (4 : Fin 6) n) q)) + weightMat m c (ix2 (bandRow (5 : Fin 6) n) q) := by
  rw [wc_eq, addf_apply, subf_apply, slice2_axis0_apply 64 _ _ n q (bandRow (1 : Fin 6) n) (by show 1 * 64 + n.val = 64 + n.val; omega),
    slice2_axis0_apply 256 _ _ n q (bandRow (4 : Fin 6) n) (by show 4 * 64 + n.val = 256 + n.val; omega),
    slice2_axis0_apply 320 _ _ n q (bandRow (5 : Fin 6) n) (by show 5 * 64 + n.val = 320 + n.val; omega)]

/-- … and the fourth is band 3 - band 6. -/
theorem wd_apply (c : Dev nD) (n q : Fin 64) :
    V m c main_v129 (ix2 n q) = weightMat m c (ix2 (bandRow (2 : Fin 6) n) q) - weightMat m c (ix2 (bandRow (5 : Fin 6) n) q) := by
  rw [wd_eq, subf_apply, slice2_axis0_apply 128 _ _ n q (bandRow (2 : Fin 6) n) (by show 2 * 64 + n.val = 128 + n.val; omega),
    slice2_axis0_apply 320 _ _ n q (bandRow (5 : Fin 6) n) (by show 5 * 64 + n.val = 320 + n.val; omega)]

/-- The bias row is the bias vector. -/
theorem b2_apply (c : Dev nD) (q : Fin 64) : V m c main_v130 (ix2 (0 : Fin 1) q) = biasVec m c (ix1 q) := by
  rw [b2_eq]
  exact shapeCast_a_1a_apply _ _ (0 : Fin 1) q

end Cert.KernelIdeal.HostValues

end
-- ==== Proof.RefRead.lean ====
/-
  The reference's result at one entry.

  The reference joins six 100000 x 64 matrices side by side — the hop arrays after 1, 3 and 7 steps, then the three
  differences (features minus hop 1, hop 1 minus hop 3, hop 3 minus hop 7) — multiplies the 100000 x 384 result by the
  384 x 64 weight matrix, adds the bias row and takes the maximum with 0. Column k = 64·j + n of the joined matrix is
  column n of its j-th part, so the sum over the 384 contracted coordinates is the sum over the six parts of the sums
  over their 64 columns, each against the matching band of 64 rows of the weight matrix.
-/
import proofs.«120427_j8718783611088_1_alg».proof.Proof.ReadPatched
import proofs.«120427_j8718783611088_1_alg».proof.Proof.WeightBands
import Idealize.ShloMosaic.Lib.Pipeline.Value
import Idealize.ShloMosaic.Lib.ValueIdx

noncomputable section

open scoped BigOperators

namespace Cert.ReferenceIdeal.RefRead

open Cert.ReferenceIdeal Cert.ReferenceIdeal.ReadP Cert.TileSum Cert.WeightBands Idealize.ShloMosaic Idealize.ShloMosaic.ValueIdx

variable (x0 : (⟨S100000x64, .f32⟩ : BufTy).Contents (Elt Ideal)) (x1 : (⟨S2x1600000, .i32⟩ : BufTy).Contents (Elt Ideal))

/-- The first band of the joined matrix (columns 0 … 63). -/
theorem band0 (r : Fin 100000) (n : Fin 64) :
    val_main_v122 (F := Ideal) x0 x1 (ix2 r (bandRow (0 : Fin 6) n)) = val_main_v46 (F := Ideal) x0 x1 (ix2 r n) := by
  unfold val_main_v122
  exact concatenate_apply_piece 1 _ _ (ix2 r (bandRow (0 : Fin 6) n)) 0 (by simp) S100000x64
    (val_main_v46 (F := Ideal) x0 x1) rfl rfl 0 (by simp) (ix2 r n)
    (fun b hb => by
      match b with
      | ⟨0, _⟩ => rfl
      | ⟨1, _⟩ => exact absurd rfl hb)
    (by show 0 + n.val = 0 * 64 + n.val; omega)

/-- The second band of the joined matrix (columns 64 … 127). -/
theorem band1 (r : Fin 100000) (n : Fin 64) :
    val_main_v122 (F := Ideal) x0 x1 (ix2 r (bandRow (1 : Fin 6) n)) = val_main_v70 (F := Ideal) x0 x1 (ix2 r n) := by
  unfold val_main_v122
  exact concatenate_apply_piece 1 _ _ (ix2 r (bandRow (1 : Fin 6) n)) 1 (by simp) S100000x64
    (val_main_v70 (F := Ideal) x0 x1) rfl rfl 64 (by simp) (ix2 r n)
    (fun b hb => by
      match b with
      | ⟨0, _⟩ => rfl
      | ⟨1, _⟩ => exact absurd rfl hb)
    (by show 64 + n.val = 1 * 64 + n.val; omega)

/-- The third band of the joined matrix (columns 128 … 191). -/
theorem band2 (r : Fin 100000) (n : Fin 64) :
    val_main_v122 (F := Ideal) x0 x1 (ix2 r (bandRow (2 : Fin 6) n)) = val_main_v118 (F := Ideal) x0 x1 (ix2 r n) := by
  unfold val_main_v122
  exact concatenate_apply_piece 1 _ _ (ix2 r (bandRow (2 : Fin 6) n)) 2 (by simp) S100000x64
    (val_main_v118 (F := Ideal) x0 x1) rfl rfl 128 (by simp) (ix2 r n)
    (fun b hb => by
      match b with
      | ⟨0, _⟩ => rfl
      | ⟨1, _⟩ => exact absurd rfl hb)
    (by show 128 + n.val = 2 * 64 + n.val; omega)

/-- The fourth band of the joined matrix (columns 192 … 255). -/
theorem band3 (r : Fin 100000) (n : Fin 64) :
    val_main_v122 (F := Ideal) x0 x1 (ix2 r (bandRow (3 : Fin 6) n)) = x0 (ix2 r n) - val_main_v46 (F := Ideal) x0 x1 (ix2 r n) := by
  unfold val_main_v122
  refine (concatenate_apply_piece 1 _ _ (ix2 r (bandRow (3 : Fin 6) n)) 3 (by simp) S100000x64
    (val_main_v119 (F := Ideal) x0 x1) rfl rfl 192 (by simp) (ix2 r n)
    (fun b hb => by
      match b with
      | ⟨0, _⟩ => rfl
      | ⟨1, _⟩ => exact absurd rfl hb)
    (by show 192 + n.val = 3 * 64 + n.val; omega)).trans ?_
  rw [val_main_v119_apply]
  rfl

/-- The fifth band of the joined matrix (columns 256 … 319). -/
theorem band4 (r : Fin 100000) (n : Fin 64) :
    val_main_v122 (F := Ideal) x0 x1 (ix2 r (bandRow (4 : Fin 6) n)) = val_main_v46 (F := Ideal) x0 x1 (ix2 r n) - val_main_v70 (F := Ideal) x0 x1 (ix2 r n) := by
  unfold val_main_v122
  refine (concatenate_apply_piece 1 _ _ (ix2 r (bandRow (4 : Fin 6) n)) 4 (by simp) S100000x64
    (val_main_v120 (F := Ideal) x0 x1) rfl rfl 256 (by simp) (ix2 r n)
    (fun b hb => by
      match b with
      | ⟨0, _⟩ => rfl
      | ⟨1, _⟩ => exact absurd rfl hb)
    (by show 256 + n.val = 4 * 64 + n.val; omega)).trans ?_
  rw [val_main_v120_apply]
  rfl

/-- The sixth band of the joined matrix (columns 320 … 383). -/
theorem band5 (r : Fin 100000) (n : Fin 64) :
    val_main_v122 (F := Ideal) x0 x1 (ix2 r (bandRow (5 : Fin 6) n)) = val_main_v70 (F := Ideal) x0 x1 (ix2 r n) - val_main_v118 (F := Ideal) x0 x1 (ix2 r n) := by
  unfold val_main_v122
  refine (concatenate_apply_piece 1 _ _ (ix2 r (bandRow (5 : Fin 6) n)) 5 (by simp) S100000x64
    (val_main_v121 (F := Ideal) x0 x1) rfl rfl 320 (by simp) (ix2 r n)
    (fun b hb => by
      match b with
      | ⟨0, _⟩ => rfl
      | ⟨1, _⟩ => exact absurd rfl hb)
    (by show 320 + n.val = 5 * 64 + n.val; omega)).trans ?_
  rw [val_main_v121_apply]
  rfl

variable (x2 : (⟨S384x64, .f32⟩ : BufTy).Contents (Elt Ideal)) (x3 : (⟨S64, .f32⟩ : BufTy).Contents (Elt Ideal))

/-- THE REFERENCE'S RESULT AT (r, q). -/
theorem result_apply (r : Fin 100000) (q : Fin 64) :
    val_main_v127 (F := Ideal) x0 x1 x2 x3 (ix2 r q)
      = max (((∑ n : Fin 64, (val_main_v46 (F := Ideal) x0 x1 (ix2 r n)) * x2 (ix2 (bandRow (0 : Fin 6) n) q))
          + (∑ n : Fin 64, (val_main_v70 (F := Ideal) x0 x1 (ix2 r n)) * x2 (ix2 (bandRow (1 : Fin 6) n) q))
          + (∑ n : Fin 64, (val_main_v118 (F := Ideal) x0 x1 (ix2 r n)) * x2 (ix2 (bandRow (2 : Fin 6) n) q))
          + (∑ n : Fin 64, (x0 (ix2 r n) - val_main_v46 (F := Ideal) x0 x1 (ix2 r n)) * x2 (ix2 (bandRow (3 : Fin 6) n) q))
          + (∑ n : Fin 64, (val_main_v46 (F := Ideal) x0 x1 (ix2 r n) - val_main_v70 (F := Ideal) x0 x1 (ix2 r n)) * x2 (ix2 (bandRow (4 : Fin 6) n) q))
          + (∑ n : Fin 64, (val_main_v70 (F := Ideal) x0 x1 (ix2 r n) - val_main_v118 (F := Ideal) x0 x1 (ix2 r n)) * x2 (ix2 (bandRow (5 : Fin 6) n) q)))
          + x3 (ix1 q)) (Ideal.ofBits .f32 0x00000000#32) := by
  rw [val_main_v127_apply, val_main_v126_apply, val_main_v123_apply, val_main_v125_apply, val_main_v124_apply,
    val_main_call2_v0_apply, val_main_call2_cst_apply]
  have el : ∀ k : Fin 384, lidx_main_v123 (ix2 r q) k = ix2 r k := fun k => funext fun a => Fin.ext (by
    match a with
    | ⟨0, _⟩ => rfl
    | ⟨1, _⟩ => rfl)
  have er : ∀ k : Fin 384, ridx_main_v123 (ix2 r q) k = ix2 k q := fun k => funext fun a => Fin.ext (by
    match a with
    | ⟨0, _⟩ => rfl
    | ⟨1, _⟩ => rfl)
  have eb : idx_main_v124 (idx_main_v125 (ix2 r q)) = ix1 q := funext fun a => Fin.ext (by
    match a with
    | ⟨0, _⟩ => rfl)
  simp only [el, er, eb]
  rw [sum_tiles bands, Fin.sum_univ_six]
  simp only [band0, band1, band2, band3, band4, band5, Ideal.maximumf_def, Ideal.addf_def, Ideal.ofBits_def]

end Cert.ReferenceIdeal.RefRead

end
-- ==== Proof.LibRealEntries.lean ====
/-
  Arrays of extended reals whose entries are all real numbers, and the host operations that keep them so.

  At the ideal instance a float is an extended real. Laws such as distributivity hold on the real numbers
  but fail at the infinities, so a proof that uses them first shows that every entry it touches is a real
  number. An entry of an input is real by a precondition; an entry of a COMPUTED array is real because the
  operations that made it keep real entries real:
  * a gather reads entries of its table, whatever the index array holds (it only chooses WHICH entry);
  * a broadcast_in_dim reads entries of its operand;
  * a product, a sum, a difference and a maximum of reals are real; a finite sum of reals is real;
  * a scatter-add at the ideal instance is, entry by entry, the operand's entry plus a finite sum of update
    entries (the updates that land there), whatever the index array holds;
  * a select picks one of its two branches, lane by lane;
  * the reciprocal square root of a positive extended real is real (of a positive real it is 1/sqrt, of +inf it is 0).
-/
import Idealize.ShloMosaic.PureOps.Ideal
import Idealize.ShloMosaic.PureOps.Ideal.Laws
import Idealize.ShloMosaic.PureOps.Contract

noncomputable section

open scoped BigOperators

namespace Cert.LibRealEntries

open Idealize.ShloMosaic

/-- An extended real that is a real number. -/
def IsReal (a : EReal) : Prop := ∃ r : ℝ, a = (r : EReal)

/-- Every entry of the array is a real number. -/
def AllReal {ι : Type} (v : ι → EReal) : Prop := ∀ i, IsReal (v i)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.max {a b : EReal} (ha : IsReal a) (hb : IsReal b) : IsReal (max a b) := by
  rcases max_choice a b with h | h <;> rw [h] <;> assumption

/-- A finite sum of real numbers is a real number. -/
theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The float word of +0 and the float word of 1, at the ideal instance. -/
theorem isReal_ofBits_zero : IsReal (Ideal.ofBits .f32 0x00000000#32) := by
  rw [Ideal.ofBits_zero_f32]; exact isReal_zero

/-- An extended real above 0 has a real reciprocal square root: 1/sqrt r at a positive real r, 0 at +inf. -/
theorem isReal_rsqrt_of_pos {a : EReal} (h : 0 < a) : IsReal (Ideal.rsqrt a) := by
  induction a using EReal.rec with
  | bot => exact absurd h (not_lt_bot)
  | top => exact isReal_zero
  | coe r =>
    have hr : (0 : ℝ) < r := by exact_mod_cast h
    show IsReal (if r < 0 then ⊥ else if r = 0 then ⊤ else (((Real.sqrt r)⁻¹ : ℝ) : EReal))
    rw [if_neg (not_lt.mpr hr.le), if_neg hr.ne']
    exact isReal_coe _

section Arrays

variable {s si t u : Shape} {w : Nat}

/-- A gather's entries are entries of its table. -/
theorem AllReal.gather (d : GatherDims s si t) {x : s.Idx → EReal} (hx : AllReal x) (idx : IVec si w) :
    AllReal (Host.gather d x idx) := fun j => hx (d.operandIdx j idx)

/-- A broadcast_in_dim's entries are entries of its operand. -/
theorem AllReal.broadcastInDim (tt : Shape) (dims : Fin s.rank → Fin tt.rank) (h : s.BroadcastsInDim tt dims)
    {x : s.Idx → EReal} (hx : AllReal x) : AllReal (Idealize.ShloMosaic.broadcastInDim tt dims h x) :=
  fun _ => hx _

/-- An entrywise product of arrays of reals. -/
theorem AllReal.mulf {φ : FTy} {x y : FVec Ideal s φ} (hx : AllReal x) (hy : AllReal y) :
    AllReal (Idealize.ShloMosaic.mulf x y) := fun i => (hx i).mul (hy i)

/-- An entrywise difference of arrays of reals. -/
theorem AllReal.subf {φ : FTy} {x y : FVec Ideal s φ} (hx : AllReal x) (hy : AllReal y) :
    AllReal (Idealize.ShloMosaic.subf x y) := fun i => (hx i).sub (hy i)

/-- A lane-by-lane select between arrays of reals. -/
theorem AllReal.select (c : IVec s 1) {a b : s.Idx → EReal} (ha : AllReal a) (hb : AllReal b) :
    AllReal (Idealize.ShloMosaic.select c a b) := fun i => by
  show IsReal (if c i = 1 then a i else b i)
  split_ifs
  · exact ha i
  · exact hb i

/-- The scatter-add of real updates into a real operand, at the ideal instance: each entry is the operand's
    plus the finite sum of the updates that land on it. -/
theorem AllReal.scatterAdd {φ : FTy} (d : ScatterDims s si u) {x : FVec Ideal s φ} (hx : AllReal x) (idx : IVec si w)
    {upd : FVec Ideal u φ} (hu : AllReal upd) : AllReal (Host.scatterAdd (F := Ideal) d x idx upd) := fun i => by
  show IsReal (x i + ∑ j ∈ Finset.univ.filter (fun j => d.resultIdx? j idx = some i), upd j)
  exact (hx i).add (isReal_sum _ _ fun j _ => hu j)

end Arrays

end Cert.LibRealEntries

end
-- ==== Proof.RefFinite.lean ====
/-
  Every hop array of the reference is an array of real numbers when the node features are.

  The normalised adjacency is built from the index array alone. Entry i of d^(-1/2) is
      where(deg i > 0, rsqrt(where(deg i > 0, deg i, 1)), 0):
  the inner guard makes the argument of the reciprocal square root positive (it is deg i when that is positive and 1
  otherwise), so the root is a real number (1/sqrt of a positive real; 0 at +inf), and the outer guard picks that root or 0.
  An edge weight is a product of two gathered entries of d^(-1/2) and a one, so it is real. One propagation step
      h  |->  scatter_add(zeros, col, weight * gather(h, row))
  reads entries of h, multiplies them by real weights and adds finitely many of them into zeros, so it sends an array of
  reals to an array of reals whatever the index arrays hold. Seven steps give the hop arrays after 1, 3 and 7 steps.
-/
import proofs.«120427_j8718783611088_1_alg».proof.Proof.ReadPatched
import proofs.«120427_j8718783611088_1_alg».proof.Proof.LibRealEntries
import Idealize.ShloMosaic.Lib.IdealHost

set_option maxRecDepth 16384

noncomputable section

namespace Cert.ReferenceIdeal.RefFinite

open Cert.ReferenceIdeal Cert.ReferenceIdeal.Gen Cert.ReferenceIdeal.ReadP Cert.LibRealEntries Idealize.ShloMosaic

variable (x1 : (⟨S2x1600000, .i32⟩ : BufTy).Contents (Elt Ideal))

/-- The vector of ones. -/
theorem real_ones : AllReal (val_main_v7 (F := Ideal)) := fun i => by
  rw [val_main_v7_apply, val_main_cst_apply, Ideal.ofBits_def, Ideal.ofBits_one_f32]
  exact isReal_one

/-- A lane of the mask "a > 0" that is 1 says that a is above 0. -/
theorem pos_of_gt_mask {a : EReal} (h : FloatOps.cmpf (F := Ideal) (φ := .f32) .ogt a (FloatOps.ofBits .f32 0x00000000#32) = 1) : 0 < a := by
  have e : FloatOps.cmpf (F := Ideal) (φ := .f32) .ogt a (FloatOps.ofBits .f32 0x00000000#32)
      = BitVec.ofBool (decide (Ideal.ofBits .f32 0x00000000#32 < a)) := rfl
  rw [e] at h
  have hlt : Ideal.ofBits .f32 0x00000000#32 < a := by
    by_contra hn
    rw [decide_eq_false hn] at h
    exact absurd h (by decide)
  rwa [Ideal.ofBits_zero_f32] at hlt

/-- d^(-1/2): the guarded reciprocal square root of the degree is a real number at every node. -/
theorem real_dinv : AllReal (val_main_v17 (F := Ideal) x1) := fun i => by
  rw [val_main_v17_apply, val_main_call1_v1_apply, val_main_call1_v0_apply, val_main_cst_4_apply]
  unfold Scalar.select
  split_ifs with h12
  · rw [val_main_v16_apply, Ideal.hostUnary_rsqrt_def, val_main_v15_apply, val_main_call0_v1_apply,
      val_main_call0_v0_apply, val_main_cst_3_apply]
    unfold Scalar.select
    refine isReal_rsqrt_of_pos ?_
    split_ifs with h14
    · rw [val_main_v14_apply, val_main_v13_apply, val_main_cst_2_apply] at h14
      exact pos_of_gt_mask h14
    · rw [Ideal.ofBits_def, Ideal.ofBits_one_f32]; exact zero_lt_one
  · rw [Ideal.ofBits_def]; exact isReal_ofBits_zero

/-- The edge weights d^(-1/2)[row] · 1 · d^(-1/2)[col], as a column. -/
theorem real_weights : AllReal (val_main_v34 (F := Ideal) x1) :=
  AllReal.broadcastInDim _ _ _
    (AllReal.mulf (AllReal.mulf (AllReal.gather _ (real_dinv x1) _) real_ones) (AllReal.gather _ (real_dinv x1) _))

/-- One propagation step keeps an array of reals an array of reals, whatever the two index arrays hold. -/
theorem real_step {h : FVec Ideal S100000x64 .f32} (hh : AllReal h) {ew : FVec Ideal S1700000x1 .f32} (hew : AllReal ew)
    (ig is : IVec S1700000x1 32) :
    AllReal (Host.scatterAdd (F := Ideal) scatter_S100000x64_S1700000x1_S1700000x64_1_0_0_1
      (broadcastInDim S100000x64 ![] bcast_S_S100000x64 (constant (F := Ideal) S_ .f32 0x00000000#32)) is
      (mulf (broadcastInDim S1700000x64 ![0, 1] bcast_S1700000x1_S1700000x64_0_1 ew)
        (Host.gather gather_S100000x64_S1700000x1_S1700000x64_1_0_n_n_0_1_164 h ig))) :=
  AllReal.scatterAdd _ (AllReal.broadcastInDim _ _ _ (fun _ => isReal_ofBits_zero)) _
    (AllReal.mulf (AllReal.broadcastInDim _ _ _ hew) (AllReal.gather _ hh _))

variable {x0 : (⟨S100000x64, .f32⟩ : BufTy).Contents (Elt Ideal)} (hx0 : AllReal x0)
include hx0

/-- The hop arrays after 1, 2, …, 7 propagation steps. -/
theorem real_hop1 : AllReal (val_main_v46 (F := Ideal) x0 x1) :=
  real_step hx0 (real_weights x1) (val_main_v40 (F := Ideal) x1) (val_main_v45 (F := Ideal) x1)
theorem real_hop2 : AllReal (val_main_v58 (F := Ideal) x0 x1) :=
  real_step (real_hop1 x1 hx0) (real_weights x1) (val_main_v52 (F := Ideal) x1) (val_main_v57 (F := Ideal) x1)
theorem real_hop3 : AllReal (val_main_v70 (F := Ideal) x0 x1) :=
  real_step (real_hop2 x1 hx0) (real_weights x1) (val_main_v64 (F := Ideal) x1) (val_main_v69 (F := Ideal) x1)
theorem real_hop4 : AllReal (val_main_v82 (F := Ideal) x0 x1) :=
  real_step (real_hop3 x1 hx0) (real_weights x1) (val_main_v76 (F := Ideal) x1) (val_main_v81 (F := Ideal) x1)
theorem real_hop5 : AllReal (val_main_v94 (F := Ideal) x0 x1) :=
  real_step (real_hop4 x1 hx0) (real_weights x1) (val_main_v88 (F := Ideal) x1) (val_main_v93 (F := Ideal) x1)
theorem real_hop6 : AllReal (val_main_v106 (F := Ideal) x0 x1) :=
  real_step (real_hop5 x1 hx0) (real_weights x1) (val_main_v100 (F := Ideal) x1) (val_main_v105 (F := Ideal) x1)
theorem real_hop7 : AllReal (val_main_v118 (F := Ideal) x0 x1) :=
  real_step (real_hop6 x1 hx0) (real_weights x1) (val_main_v112 (F := Ideal) x1) (val_main_v117 (F := Ideal) x1)

end Cert.ReferenceIdeal.RefFinite

end
-- ==== Proof.CombineAlgebra.lean ====
/-
  The law that joins the two programs.

  Fix a row of each hop array, a0 a1 a2 a4 : 64 entries each, and a column of the weight matrix cut into its six
  bands of 64 rows, u 0 … u 5. One program multiplies the joined row
      [ a1 | a2 | a4 | a0 - a1 | a1 - a2 | a2 - a4 ]
  against the whole column, band by band; the other multiplies the four hop rows against the four folded columns
      u 3,   (u 0 - u 3) + u 4,   (u 1 - u 4) + u 5,   u 2 - u 5.
  Over the real numbers both are the same number: expand the differences and collect by hop row. Over the extended
  reals the expansion needs every entry to be a real number (∞ - ∞ and 0 · ∞ do not distribute), which is the
  hypothesis of the extended-real form.
-/
import Mathlib.Data.EReal.Basic
import Mathlib.Data.EReal.Operations
import Mathlib.Algebra.BigOperators.Fin
import Mathlib.Tactic.Ring
import proofs.«120427_j8718783611088_1_alg».proof.Proof.LibRealEntries

noncomputable section

open scoped BigOperators

namespace Cert.CombineAlgebra

open Cert.LibRealEntries

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the real numbers: the joined row against the six bands is the four hop rows against the four
    folded columns. -/
theorem fold_real (a0 a1 a2 a4 : Fin 64 → ℝ) (u : Fin 6 → Fin 64 → ℝ) :
    (∑ n, a1 n * u 0 n) + (∑ n, a2 n * u 1 n) + (∑ n, a4 n * u 2 n) + (∑ n, (a0 n - a1 n) * u 3 n)
        + (∑ n, (a1 n - a2 n) * u 4 n) + (∑ n, (a2 n - a4 n) * u 5 n)
      = (((∑ n, a0 n * u 3 n) + ∑ n, a1 n * ((u 0 n - u 3 n) + u 4 n)) + ∑ n, a2 n * ((u 1 n - u 4 n) + u 5 n))
        + ∑ n, a4 n * (u 2 n - u 5 n) := by
  simp only [← Finset.sum_add_distrib]
  exact Finset.sum_congr rfl fun n _ => by ring

/-- The law over the extended reals, for rows and bands whose entries are all real numbers. -/
theorem fold_ereal (A0 A1 A2 A4 : Fin 64 → EReal) (U : Fin 6 → Fin 64 → EReal)
    (h0 : ∀ n, IsReal (A0 n)) (h1 : ∀ n, IsReal (A1 n)) (h2 : ∀ n, IsReal (A2 n)) (h4 : ∀ n, IsReal (A4 n))
    (hU : ∀ j n, IsReal (U j n)) :
    (∑ n, A1 n * U 0 n) + (∑ n, A2 n * U 1 n) + (∑ n, A4 n * U 2 n) + (∑ n, (A0 n - A1 n) * U 3 n)
        + (∑ n, (A1 n - A2 n) * U 4 n) + (∑ n, (A2 n - A4 n) * U 5 n)
      = (((∑ n, A0 n * U 3 n) + ∑ n, A1 n * ((U 0 n - U 3 n) + U 4 n)) + ∑ n, A2 n * ((U 1 n - U 4 n) + U 5 n))
        + ∑ n, A4 n * (U 2 n - U 5 n) := by
  choose a0 e0 using h0
  choose a1 e1 using h1
  choose a2 e2 using h2
  choose a4 e4 using h4
  choose u eu using hU
  simp only [e0, e1, e2, e4, eu]
  simp only [← EReal.coe_sub, ← EReal.coe_add, ← EReal.coe_mul, ← coe_sum]
  rw [fold_real a0 a1 a2 a4 u]

end Cert.CombineAlgebra

end
-- ==== Proof.Bridge.lean ====
/-
  The two results are one array.

  Entry (r, q) of the kernel's result is  max(K + b q, 0)  with K the four hop rows against the four folded weight
  columns; entry (r, q) of the reference's is  max(S + b q, 0)  with S the joined row against the six bands of the
  weight column. The hop rows are the same arrays on both sides, and they, the features and the weights are arrays of
  real numbers (the features and weights by the precondition, the hop arrays because propagation keeps reals real), so
  K = S by the regrouping law over the reals.
-/
import proofs.«120427_j8718783611088_1_alg».proof.Proof.CombinedArray
import proofs.«120427_j8718783611088_1_alg».proof.Proof.KernelHost
import proofs.«120427_j8718783611088_1_alg».proof.Proof.RefRead
import proofs.«120427_j8718783611088_1_alg».proof.Proof.RefFinite
import proofs.«120427_j8718783611088_1_alg».proof.Proof.CombineAlgebra

noncomputable section

open scoped BigOperators

namespace Cert.KernelIdeal.Bridge

open Cert.KernelIdeal Cert.KernelIdeal.Gen Cert.KernelIdeal.Blocks Cert.KernelIdeal.HostValues Cert.WeightBands
open Cert.LibRealEntries Cert.CombineAlgebra
open Idealize.ShloMosaic Idealize.ShloMosaic.TcCoe Idealize.ShloMosaic.ValueIdx Idealize.SL.Sem

variable (m : (ℓ : Loc nD τ sig) → Buf (Elt Ideal) ℓ)

/-- THE KERNEL'S RESULT ARRAY IS THE REFERENCE'S, for real features and weights. -/
theorem combine_eq_reference (c : Dev nD) (h0 : AllReal (m ((c : Thread nD τ).loc main_arg0))) (h2 : AllReal (m ((c : Thread nD τ).loc main_arg2))) :
    combine (V m c main_arg0) (V m c main_v46) (V m c main_v70) (V m c main_v118) (V m c main_v122) (V m c main_v126) (V m c main_v128) (V m c main_v129) (V m c main_v130)
      = Cert.ReferenceIdeal.ReadP.val_main_v127 (F := Ideal) (m ((c : Thread nD τ).loc main_arg0)) (m ((c : Thread nD τ).loc main_arg1)) (m ((c : Thread nD τ).loc main_arg2)) (m ((c : Thread nD τ).loc main_arg3)) := by
  funext i
  obtain ⟨r, q, rfl⟩ : ∃ (r : Fin 100000) (q : Fin 64), i = ix2 r q := ⟨i 0, i 1, eq_ix2 i⟩
  rw [combine_ix2, Cert.ReferenceIdeal.RefRead.result_apply]
  unfold combineAt
  rw [V_main_arg0, hop1, hop3, hop7]
  rw [b2_apply]
  have key := fold_ereal (fun n => (m ((c : Thread nD τ).loc main_arg0)) (ix2 r n)) (fun n => (Cert.ReferenceIdeal.ReadP.val_main_v46 (F := Ideal) (m ((c : Thread nD τ).loc main_arg0)) (m ((c : Thread nD τ).loc main_arg1))) (ix2 r n)) (fun n => (Cert.ReferenceIdeal.ReadP.val_main_v70 (F := Ideal) (m ((c : Thread nD τ).loc main_arg0)) (m ((c : Thread nD τ).loc main_arg1))) (ix2 r n))
    (fun n => (Cert.ReferenceIdeal.ReadP.val_main_v118 (F := Ideal) (m ((c : Thread nD τ).loc main_arg0)) (m ((c : Thread nD τ).loc main_arg1))) (ix2 r n)) (fun j n => weightMat m c (ix2 (bandRow j n) q))
    (fun n => h0 _) (fun n => Cert.ReferenceIdeal.RefFinite.real_hop1 _ h0 _)
    (fun n => Cert.ReferenceIdeal.RefFinite.real_hop3 _ h0 _) (fun n => Cert.ReferenceIdeal.RefFinite.real_hop7 _ h0 _)
    (fun j n => h2 _)
  have key' := congrArg (fun s : EReal => max (s + biasVec m c (ix1 q)) (Ideal.ofBits .f32 0x00000000#32)) key.symm
  beta_reduce at key'
  refine (congrArg (fun s : EReal => max (s + biasVec m c (ix1 q)) (Ideal.ofBits .f32 0x00000000#32)) ?_).trans key'
  -- the four folded weight blocks, entry by entry, are what the kernel cut from the weight matrix
  refine congrArg₂ (· + ·) (congrArg₂ (· + ·) (congrArg₂ (· + ·)
    (Finset.sum_congr rfl fun k _ => ?_) (Finset.sum_congr rfl fun k _ => ?_))
    (Finset.sum_congr rfl fun k _ => ?_)) (Finset.sum_congr rfl fun k _ => ?_)
  · rw [wa_apply]
  · rw [wb_apply]
  · rw [wc_apply]
  · rw [wd_apply]

end Cert.KernelIdeal.Bridge

end
-- ==== Proof.FiniteInputs.lean ====
/-
  What the precondition says: every node feature and every weight is a real number.

  The predicate is  all(|x| < inf) and all(|W| < inf) and all(|b| < inf),  each "all" a reduction by "and" of a mask
  over a whole array into one bit, and it is assumed to be 1. A reduction by "and" that came out 1 met only ones, so every
  lane of each mask is 1; and a lane |a| < +inf at the ideal instance, where |a| is max(a, -a), says that a is neither
  +inf nor -inf: a is a real number.
-/
import proofs.«120427_j8718783611088_1_alg».proof.Pre_finite_inputs
import proofs.«120427_j8718783611088_1_alg».proof.Proof.Gen.Pre_finite_inputs
import proofs.«120427_j8718783611088_1_alg».proof.Proof.LibRealEntries
import Idealize.ShloMosaic.Lib.ReduceAll
import Idealize.ShloMosaic.Lib.ValueIdx

noncomputable section

namespace Cert.Pre_finite_inputs.Finite

open Cert.Pre_finite_inputs Cert.LibRealEntries Idealize.ShloMosaic

/-- A shape with no axes has one index. -/
instance : Subsingleton S_.Idx := ⟨fun _ _ => funext fun d => d.elim0⟩

/-- The float word of +inf. -/
theorem top_word : Ideal.ofBits .f32 0x7F800000#32 = ⊤ := by simp [Ideal.ofBits, Ideal.ieee]

/-- An extended real whose absolute value is below +inf is a real number. -/
theorem isReal_of_abs_lt_top {a : EReal} (h : max a (-a) < ⊤) : IsReal a := by
  induction a using EReal.rec with
  | bot => exact absurd h (by simp)
  | top => exact absurd h (by simp)
  | coe r => exact isReal_coe r

/-- A lane of the mask |x| < +inf that is 1 says that entry of x is a real number. -/
theorem isReal_of_mask {s : Shape} (x inf : FVec Ideal s .f32) (hinf : ∀ i, inf i = Ideal.ofBits .f32 0x7F800000#32) (i : s.Idx)
    (h : cmpf .olt (Host.absf x) inf i = 1#1) : IsReal (x i) := by
  have e : cmpf .olt (Host.absf x) inf i = BitVec.ofBool (decide (max (x i) (-(x i)) < inf i)) := rfl
  rw [e, hinf, top_word] at h
  refine isReal_of_abs_lt_top ?_
  by_contra hn
  rw [decide_eq_false hn] at h
  exact absurd h (by decide)

/-- THE PRECONDITION READ BACK: the node features and the weights are arrays of real numbers. -/
theorem real_inputs (a0 : FVec Ideal S100000x64 .f32) (a1 : IVec S2x1600000 32) (a2 : FVec Ideal S384x64 .f32)
    (a3 : FVec Ideal S64 .f32) (h : fn (F := Ideal) a0 a1 a2 a3 = fun _ => 1#1) : AllReal a0 ∧ AllReal a2 := by
  have h0 := congrFun h (fun d => d.elim0)
  dsimp only [fn] at h0
  obtain ⟨h12, -⟩ := IntOp.andi_eq_one.1 h0
  obtain ⟨h1, h2⟩ := IntOp.andi_eq_one.1 h12
  exact ⟨fun i => isReal_of_mask a0 _ (fun _ => rfl) i (Host.reduce_andi_all _ _ _ _ _ h1 i),
    fun i => isReal_of_mask a2 _ (fun _ => rfl) i (Host.reduce_andi_all _ _ _ _ _ h2 i)⟩

end Cert.Pre_finite_inputs.Finite

end
-- ==== Proof.lean ====
/-
  The kernel computes relu(x0·W4 + x1·(W1 - W4 + W5) + x2·(W2 - W5 + W6) + x4·(W3 - W6) + b) over tiles of 5000 nodes,
  where x0 is the node features and x1, x2, x4 are the features after 1, 3 and 7 steps of normalised-adjacency
  propagation, and W1 … W6 are the six bands of 64 rows of the weight matrix. The reference computes
  relu([x1 | x2 | x4 | x0 - x1 | x1 - x2 | x2 - x4]·W + b). Over the extended reals the two agree entry by entry when
  every number involved is real: expand the differences and collect by hop array. The features and weights are real by
  the precondition, and the hop arrays because a propagation step keeps an array of reals an array of reals.

  The two kernel frames are the generated ones and the reference's is its run with the result dropped; the
  idealization rewrote nothing, so there is nothing to preserve; the value claim names both results by the reference's
  last stage of the kernel's arguments.
-/
import proofs.«120427_j8718783611088_1_alg».proof.Defs
import proofs.«120427_j8718783611088_1_alg».proof.Proof.Gen.Kernel
import proofs.«120427_j8718783611088_1_alg».proof.Proof.Gen.Kernel.Skeleton
import proofs.«120427_j8718783611088_1_alg».proof.Proof.Gen.Kernel.Launch
import proofs.«120427_j8718783611088_1_alg».proof.Proof.Gen.Kernel.Points
import proofs.«120427_j8718783611088_1_alg».proof.Proof.Gen.Kernel.Frame
import proofs.«120427_j8718783611088_1_alg».proof.Proof.Gen.KernelIdeal
import proofs.«120427_j8718783611088_1_alg».proof.Proof.Gen.KernelIdeal.Skeleton
import proofs.«120427_j8718783611088_1_alg».proof.Proof.Gen.KernelIdeal.Launch
import proofs.«120427_j8718783611088_1_alg».proof.Proof.Gen.KernelIdeal.Points
import proofs.«120427_j8718783611088_1_alg».proof.Proof.Gen.KernelIdeal.Frame
import proofs.«120427_j8718783611088_1_alg».proof.Proof.Gen.ReferenceIdeal
import proofs.«120427_j8718783611088_1_alg».proof.Proof.Gen.Pre_finite_inputs
import proofs.«120427_j8718783611088_1_alg».proof.Proof.Gen.KernelIdeal.Value
import proofs.«120427_j8718783611088_1_alg».proof.Proof.ReadPatched
import proofs.«120427_j8718783611088_1_alg».proof.Proof.RefRun
import proofs.«120427_j8718783611088_1_alg».proof.Proof.KernelBlocks
import proofs.«120427_j8718783611088_1_alg».proof.Proof.Bridge
import proofs.«120427_j8718783611088_1_alg».proof.Proof.FiniteInputs
import Idealize.ShloMosaic.Adequacy
import Idealize.ShloMosaic.Init

noncomputable section

namespace Cert.Proof

open Idealize.ShloMosaic Idealize.SL.Sem

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.RefRun.run m ρ)

/-- Both programs end with the reference's last stage of the (shared) arguments in their result arrays. -/
theorem algebraic : Cert.algebraic_KernelIdeal_ReferenceIdeal := by
  intro m ρ m' ρ' hpre hagree
  refine ⟨fun c => Cert.ReferenceIdeal.ReadP.val_main_v127 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Blocks.run m ρ)
    obtain ⟨h0, h2⟩ := Cert.Pre_finite_inputs.Finite.real_inputs _ _ _ _ (hpre c)
    exact Cert.KernelIdeal.Bridge.combine_eq_reference m c h0 h2
  · refine (θ_run Cert.ReferenceIdeal.defs _ _).mono (fun r h c => ⟨(h c).1.trans ?_, (h c).2⟩)
      (Cert.ReferenceIdeal.RefRun.run m' ρ')
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
